-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x100000 : Shape := ⟨2, ![256, 100000]⟩
abbrev S512x100000 : Shape := ⟨2, ![512, 100000]⟩
abbrev S512 : Shape := ⟨1, ![512]⟩
abbrev S256x256x2 : Shape := ⟨3, ![256, 256, 2]⟩
abbrev S30000x256 : Shape := ⟨2, ![30000, 256]⟩
abbrev S30000 : Shape := ⟨1, ![30000]⟩
abbrev S_ : Shape := ⟨0, ![]⟩

class Facts : Prop where
  bcast_S_S256x100000 : S_.BroadcastsInDim S256x100000 (![] : Fin 0 → Fin S256x100000.rank)
  reducesTo_S256x100000_S_d0_1 : S256x100000.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_
  bcast_S_S512 : S_.BroadcastsInDim S512 (![] : Fin 0 → Fin S512.rank)
  reducesTo_S512_S_d0 : S512.ReducesTo [0] S_
  bcast_S_S256x256x2 : S_.BroadcastsInDim S256x256x2 (![] : Fin 0 → Fin S256x256x2.rank)
  reducesTo_S256x256x2_S_d0_1_2 : S256x256x2.ReducesTo [0, 1, 2] S_
  bcast_S_S30000 : S_.BroadcastsInDim S30000 (![] : Fin 0 → Fin S30000.rank)
  reducesTo_S30000_S_d0 : S30000.ReducesTo [0] S_

variable [Facts]

def fn_part1 {F : FTy → Type} [FloatOps F] (main_arg5 : FVec F S30000 .f32) (main_v13 : IVec S_ 1) (main_v16 : IVec S256x256x2 1) : IVec S_ 1 :=
  let main_c_5 : IVec S_ 1 := constantI S_ 1 1#1
  let main_v17 : IVec S_ 1 := (fun x v => Host.reduce IntOp.andi x v reducesTo_S256x256x2_S_d0_1_2 h_S_) main_v16 main_c_5
  let main_v18 : IVec S_ 1 := andi main_v13 main_v17
  let main_v19 : FVec F S30000 .f32 := Host.absf main_arg5
  let main_cst_6 : FVec F S_ .f32 := constant S_ .f32 0x7F800000#32
  let main_v20 : FVec F S30000 .f32 := broadcastInDim S30000 ![] bcast_S_S30000 main_cst_6
  let main_v21 : IVec S30000 1 := cmpf .olt main_v19 main_v20
  let main_c_7 : IVec S_ 1 := constantI S_ 1 1#1
  let main_v22 : IVec S_ 1 := (fun x v => Host.reduce IntOp.andi x v reducesTo_S30000_S_d0 h_S_) main_v21 main_c_7
  let main_v23 : IVec S_ 1 := andi main_v18 main_v22
  main_v23

def fn {F : FTy → Type} [FloatOps F] (main_arg0 : FVec F S256x100000 .f32) (main_arg1 : FVec F S512x100000 .f32) (main_arg2 : FVec F S512 .f32) (main_arg3 : FVec F S256x256x2 .f32) (main_arg4 : IVec S30000x256 32) (main_arg5 : FVec F S30000 .f32) : IVec S_ 1 :=
  let main_v0 : FVec F S256x100000 .f32 := Host.absf main_arg0
  let main_cst : FVec F S_ .f32 := constant S_ .f32 0x7F800000#32
  let main_v1 : FVec F S256x100000 .f32 := broadcastInDim S256x100000 ![] bcast_S_S256x100000 main_cst
  let main_v2 : IVec S256x100000 1 := cmpf .olt main_v0 main_v1
  let main_c : IVec S_ 1 := constantI S_ 1 1#1
  let main_v3 : IVec S_ 1 := (fun x v => Host.reduce IntOp.andi x v reducesTo_S256x100000_S_d0_1 h_S_) main_v2 main_c
  let main_v4 : FVec F S512x100000 .f32 := Host.absf main_arg1
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x256x2 .f32 := Host.absf main_arg3
  let main_cst_4 : FVec F S_ .f32 := constant S_ .f32 0x7F800000#32
  let main_v15 : FVec F S256x256x2 .f32 := broadcastInDim S256x256x2 ![] bcast_S_S256x256x2 main_cst_4
  let main_v16 : IVec S256x256x2 1 := cmpf .olt main_v14 main_v15
  fn_part1 (F := F) main_arg5 main_v13 main_v16
-- ==== Kernel.lean ====
abbrev S256x100000 : Shape := ⟨2, ![256, 100000]⟩
abbrev S512x100000 : Shape := ⟨2, ![512, 100000]⟩
abbrev S512 : Shape := ⟨1, ![512]⟩
abbrev S256x256x2 : Shape := ⟨3, ![256, 256, 2]⟩
abbrev S30000x256 : Shape := ⟨2, ![30000, 256]⟩
abbrev S30000 : Shape := ⟨1, ![30000]⟩
abbrev S_ : Shape := ⟨0, ![]⟩
abbrev S256x100096 : Shape := ⟨2, ![256, 100096]⟩
abbrev S512x100096 : Shape := ⟨2, ![512, 100096]⟩
abbrev S1x512 : Shape := ⟨2, ![1, 512]⟩
abbrev S256x512 : Shape := ⟨2, ![256, 512]⟩
abbrev S128x2944 : Shape := ⟨2, ![128, 2944]⟩
abbrev S512x2944 : Shape := ⟨2, ![512, 2944]⟩
abbrev S128x512 : Shape := ⟨2, ![128, 512]⟩
abbrev S256 : Shape := ⟨1, ![256]⟩
abbrev S1x256 : Shape := ⟨2, ![1, 256]⟩
abbrev S30000x256x1 : Shape := ⟨3, ![30000, 256, 1]⟩
abbrev S30000x256x2 : Shape := ⟨3, ![30000, 256, 2]⟩
abbrev S30000x512 : Shape := ⟨2, ![30000, 512]⟩
abbrev S30080x512 : Shape := ⟨2, ![30080, 512]⟩
abbrev S30080 : Shape := ⟨1, ![30080]⟩
abbrev S1x30080 : Shape := ⟨2, ![1, 30080]⟩
abbrev S256x30080 : Shape := ⟨2, ![256, 30080]⟩
abbrev S6016x512 : Shape := ⟨2, ![6016, 512]⟩
abbrev S1x6016 : Shape := ⟨2, ![1, 6016]⟩
abbrev S256x6016 : Shape := ⟨2, ![256, 6016]⟩
abbrev S6016 : Shape := ⟨1, ![6016]⟩
abbrev S256x30000 : Shape := ⟨2, ![256, 30000]⟩

abbrev nBuf : Space → Nat
  | .hbm => 45
  | .vmem => 15
  | .smem => 0
  | _ => 0

abbrev bufTy : (tb : Table) → Fin (tcTables nBuf tb) → BufTy
  | .hbm, ⟨0, _⟩ => ⟨S256x100000, .f32⟩
  | .hbm, ⟨1, _⟩ => ⟨S512x100000, .f32⟩
  | .hbm, ⟨2, _⟩ => ⟨S512, .f32⟩
  | .hbm, ⟨3, _⟩ => ⟨S256x256x2, .f32⟩
  | .hbm, ⟨4, _⟩ => ⟨S30000x256, .i32⟩
  | .hbm, ⟨5, _⟩ => ⟨S30000, .f32⟩
  | .hbm, ⟨6, _⟩ => ⟨S_, .i32⟩
  | .hbm, ⟨7, _⟩ => ⟨S_, .f32⟩
  | .hbm, ⟨8, _⟩ => ⟨S256x100096, .f32⟩
  | .hbm, ⟨9, _⟩ => ⟨S_, .i32⟩
  | .hbm, ⟨10, _⟩ => ⟨S_, .f32⟩
  | .hbm, ⟨11, _⟩ => ⟨S512x100096, .f32⟩
  | .hbm, ⟨12, _⟩ => ⟨S1x512, .f32⟩
  | .hbm, ⟨13, _⟩ => ⟨S256x512, .f32⟩
  | .hbm, ⟨14, _⟩ => ⟨S256, .i32⟩
  | .hbm, ⟨15, _⟩ => ⟨S1x256, .i32⟩
  | .hbm, ⟨16, _⟩ => ⟨S_, .i32⟩
  | .hbm, ⟨17, _⟩ => ⟨S1x256, .i32⟩
  | .hbm, ⟨18, _⟩ => ⟨S1x256, .i1⟩
  | .hbm, ⟨19, _⟩ => ⟨S_, .i32⟩
  | .hbm, ⟨20, _⟩ => ⟨S1x256, .i32⟩
  | .hbm, ⟨21, _⟩ => ⟨S1x256, .i32⟩
  | .hbm, ⟨22, _⟩ => ⟨S1x256, .i32⟩
  | .hbm, ⟨23, _⟩ => ⟨S_, .i32⟩
  | .hbm, ⟨24, _⟩ => ⟨S30000x256, .i32⟩
  | .hbm, ⟨25, _⟩ => ⟨S30000x256, .i1⟩
  | .hbm, ⟨26, _⟩ => ⟨S_, .i32⟩
  | .hbm, ⟨27, _⟩ => ⟨S30000x256, .i32⟩
  | .hbm, ⟨28, _⟩ => ⟨S30000x256, .i32⟩
  | .hbm, ⟨29, _⟩ => ⟨S30000x256, .i32⟩
  | .hbm, ⟨30, _⟩ => ⟨S30000x256, .i32⟩
  | .hbm, ⟨31, _⟩ => ⟨S30000x256x1, .i32⟩
  | .hbm, ⟨32, _⟩ => ⟨S30000x256x1, .i32⟩
  | .hbm, ⟨33, _⟩ => ⟨S30000x256x2, .i32⟩
  | .hbm, ⟨34, _⟩ => ⟨S30000x256x2, .f32⟩
  | .hbm, ⟨35, _⟩ => ⟨S30000x512, .f32⟩
  | .hbm, ⟨36, _⟩ => ⟨S_, .i32⟩
  | .hbm, ⟨37, _⟩ => ⟨S_, .f32⟩
  | .hbm, ⟨38, _⟩ => ⟨S30080x512, .f32⟩
  | .hbm, ⟨39, _⟩ => ⟨S_, .i32⟩
  | .hbm, ⟨40, _⟩ => ⟨S_, .f32⟩
  | .hbm, ⟨41, _⟩ => ⟨S30080, .f32⟩
  | .hbm, ⟨42, _⟩ => ⟨S1x30080, .f32⟩
  | .hbm, ⟨43, _⟩ => ⟨S256x30080, .f32⟩
  | .hbm, ⟨44, _⟩ => ⟨S256x30000, .f32⟩
  | .local _ .vmem, ⟨0, _⟩ => ⟨S128x2944, .f32⟩
  | .local _ .vmem, ⟨1, _⟩ => ⟨S128x2944, .f32⟩
  | .local _ .vmem, ⟨2, _⟩ => ⟨S512x2944, .f32⟩
  | .local _ .vmem, ⟨3, _⟩ => ⟨S512x2944, .f32⟩
  | .local _ .vmem, ⟨4, _⟩ => ⟨S1x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S256x512, .f32⟩
  | .local _ .vmem, ⟨9, _⟩ => ⟨S6016x512, .f32⟩
  | .local _ .vmem, ⟨10, _⟩ => ⟨S6016x512, .f32⟩
  | .local _ .vmem, ⟨11, _⟩ => ⟨S1x6016, .f32⟩
  | .local _ .vmem, ⟨12, _⟩ => ⟨S1x6016, .f32⟩
  | .local _ .vmem, ⟨13, _⟩ => ⟨S256x6016, .f32⟩
  | .local _ .vmem, ⟨14, _⟩ => ⟨S256x6016, .f32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call2_v0 : Ref sig .tc := ⟨.hbm, 37, rfl⟩
abbrev main_v22 : Ref sig .tc := ⟨.hbm, 38, rfl⟩
abbrev main_c_6 : Ref sig .tc := ⟨.hbm, 39, rfl⟩
abbrev main_call3_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 34], ![false, false]⟩

def k0_cond2 (i : grid0.Coords) : BitVec 1 :=
  let arg1 : BitVec 32 := BitVec.ofNat 32 (i 1).val
  let c33_i32 : BitVec 32 := 33#32
  let v15 : BitVec 1 := Scalar.cmpi .eq arg1 c33_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S6016x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x6016 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x6016 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S256x100000_S256x100096_000_0960 : S256x100000.Pads (![0, 0] : Fin 2 → Nat) ![0, 96] ![0, 0] S256x100096
  h_S_ : 0 < S_.numel
  pads_S512x100000_S512x100096_000_0960 : S512x100000.Pads (![0, 0] : Fin 2 → Nat) ![0, 96] ![0, 0] S512x100096
  shapeCasts_S512_S1x512 : S512.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x2944_S128x2944_0_0 : ∀ a, (![0, 0] : Fin 2 → Nat) a + S128x2944.size a ≤ S128x2944.size a
  h_S128x2944 : 0 < S128x2944.numel
  shapeCasts_S128x2944_S128x2944 : S128x2944.ShapeCasts S128x2944
  bitsLt_bf16_f32 : FTy.bits .bf16 < FTy.bits .f32
  inb_S512x2944_S512x2944_0_0 : ∀ a, (![0, 0] : Fin 2 → Nat) a + S512x2944.size a ≤ S512x2944.size a
  h_S512x2944 : 0 < S512x2944.numel
  shapeCasts_S512x2944_S512x2944 : S512x2944.ShapeCasts S512x2944
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  bcast_S256_S1x256_1 : S256.BroadcastsInDim S1x256 (![1] : Fin 1 → Fin S1x256.rank)
  bcast_S_S1x256 : S_.BroadcastsInDim S1x256 (![] : Fin 0 → Fin S1x256.rank)
  bcast_S_S30000x256 : S_.BroadcastsInDim S30000x256 (![] : Fin 0 → Fin S30000x256.rank)
  bcast_S1x256_S30000x256_0_1 : S1x256.BroadcastsInDim S30000x256 (![0, 1] : Fin 2 → Fin S30000x256.rank)
  bcast_S30000x256_S30000x256x1_0_1 : S30000x256.BroadcastsInDim S30000x256x1 (![0, 1] : Fin 2 → Fin S30000x256x1.rank)
  concatenates_S30000x256x1_S30000x256x1_S30000x256x2_d2 : Shape.Concatenates [S30000x256x1, S30000x256x1] S30000x256x2 2
  shapeCasts_S30000x256x2_S30000x512 : S30000x256x2.ShapeCasts S30000x512
  pads_S30000x512_S30080x512_0800_000 : S30000x512.Pads (![0, 0] : Fin 2 → Nat) ![80, 0] ![0, 0] S30080x512
  pads_S30000_S30080_0800 : S30000.Pads (![0] : Fin 1 → Nat) ![80] ![0] S30080
  shapeCasts_S30080_S1x30080 : S30080.ShapeCasts S1x30080
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S6016x512_S6016x512_0_0 : ∀ a, (![0, 0] : Fin 2 → Nat) a + S6016x512.size a ≤ S6016x512.size a
  h_S6016x512 : 0 < S6016x512.numel
  shapeCasts_S6016x512_S6016x512 : S6016x512.ShapeCasts S6016x512
  inb_S1x6016_S1x6016_0_0 : ∀ a, (![0, 0] : Fin 2 → Nat) a + S1x6016.size a ≤ S1x6016.size a
  h_S1x6016 : 0 < S1x6016.numel
  shapeCasts_S1x6016_S1x6016 : S1x6016.ShapeCasts S1x6016
  broadcasts_S1x6016_S256x6016 : S1x6016.Broadcasts S256x6016
  reduces_S256x6016_S6016 : S256x6016.Reduces [0] S6016
  shapeCasts_S6016_S1x6016 : S6016.ShapeCasts S1x6016
  inb_S256x6016_S256x6016_0_0 : ∀ a, (![0, 0] : Fin 2 → Nat) a + S256x6016.size a ≤ S256x6016.size a
  h_S256x6016 : 0 < S256x6016.numel
  slices_S256x30080_S256x30000_0_0 : S256x30080.Slices ![0, 0] S256x30000
  dot_S128x2944_S512x2944_S128x512_1_1_0_0_n_n_wf : DotDims.WF S128x2944 S512x2944 S128x512 [1] [1] [0] [0] [] []
  gather_S256x256x2_S30000x256x2_S30000x256x2_2_01_n_n_01_2_112_wf : GatherDims.WF S256x256x2 S30000x256x2 S30000x256x2 [2] [0, 1] [] [0, 1] [] 2 ![1, 1, 2]
  dot_S256x512_S6016x512_S256x6016_1_1_0_0_n_n_wf : DotDims.WF S256x512 S6016x512 S256x6016 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2944.size a ≤ S256x100096.size a
  hwx0_0 : ∀ i : grid0.Coords, EltTy.bits .f32 = 32 ∨ (Rect.block (s := S256x100096) S128x2944.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2944.size a ≤ S512x100096.size a
  hwx0_1 : ∀ i : grid0.Coords, EltTy.bits .f32 = 32 ∨ (Rect.block (s := S512x100096) S512x2944.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S256x512.size a
  hwx0_3 : ∀ i : grid0.Coords, EltTy.bits .f32 = 32 ∨ (Rect.block (s := S256x512) S128x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x512.size a
  hwx1_0 : ∀ i : grid1.Coords, EltTy.bits .f32 = 32 ∨ (Rect.block (s := S256x512) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6016x512.size a ≤ S30080x512.size a
  hwx1_1 : ∀ i : grid1.Coords, EltTy.bits .f32 = 32 ∨ (Rect.block (s := S30080x512) S6016x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6016.size a ≤ S1x30080.size a
  hwx1_2 : ∀ i : grid1.Coords, EltTy.bits .f32 = 32 ∨ (Rect.block (s := S1x30080) S1x6016.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x6016.size a ≤ S256x30080.size a
  hwx1_3 : ∀ i : grid1.Coords, EltTy.bits .f32 = 32 ∨ (Rect.block (s := S256x30080) S256x6016.size (cc1_transform_3 i) (hinb1_3 i)).WholeWords (EltTy.packing .f32)

variable [Facts₀]

def dot_S128x2944_S512x2944_S128x512_1_1_0_0_n_n : DotDims S128x2944 S512x2944 S128x512 where
  lhsContracting := [1]
  rhsContracting := [1]
  lhsNonContracting := [0]
  rhsNonContracting := [0]
  lhsBatch := []
  rhsBatch := []
  wf := dot_S128x2944_S512x2944_S128x512_1_1_0_0_n_n_wf
def gather_S256x256x2_S30000x256x2_S30000x256x2_2_01_n_n_01_2_112 : GatherDims S256x256x2 S30000x256x2 S30000x256x2 where
  offsetDims := [2]
  collapsedSliceDims := [0, 1]
  operandBatchingDims := []
  startIndicesBatchingDims := []
  startIndexMap := [0, 1]
  indexVectorDim := 2
  sliceSizes := ![1, 1, 2]
  wf := gather_S256x256x2_S30000x256x2_S30000x256x2_2_01_n_n_01_2_112_wf
def dot_S256x512_S6016x512_S256x6016_1_1_0_0_n_n : DotDims S256x512 S6016x512 S256x6016 where
  lhsContracting := [1]
  rhsContracting := [1]
  lhsNonContracting := [0]
  rhsNonContracting := [0]
  lhsBatch := []
  rhsBatch := []
  wf := dot_S256x512_S6016x512_S256x6016_1_1_0_0_n_n_wf

abbrev win0_0 : Pipeline.Window sig grid0 :=
  Pipeline.Window.ofSpec (Memref.whole main_v0) S128x2944.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2944.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S256x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v22) S6016x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x6016.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S256x6016.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x100000 : Shape := ⟨2, ![256, 100000]⟩
abbrev S512x100000 : Shape := ⟨2, ![512, 100000]⟩
abbrev S512 : Shape := ⟨1, ![512]⟩
abbrev S256x256x2 : Shape := ⟨3, ![256, 256, 2]⟩
abbrev S30000x256 : Shape := ⟨2, ![30000, 256]⟩
abbrev S30000 : Shape := ⟨1, ![30000]⟩
abbrev S256x512 : Shape := ⟨2, ![256, 512]⟩
abbrev S1x512 : Shape := ⟨2, ![1, 512]⟩
abbrev S_ : Shape := ⟨0, ![]⟩
abbrev S256 : Shape := ⟨1, ![256]⟩
abbrev S1x256 : Shape := ⟨2, ![1, 256]⟩
abbrev S30000x256x1 : Shape := ⟨3, ![30000, 256, 1]⟩
abbrev S30000x256x2 : Shape := ⟨3, ![30000, 256, 2]⟩
abbrev S30000x512 : Shape := ⟨2, ![30000, 512]⟩
abbrev S256x30000 : Shape := ⟨2, ![256, 30000]⟩
abbrev S1x30000 : Shape := ⟨2, ![1, 30000]⟩

abbrev nBuf : Space → Nat
  | .hbm => 54
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S512x100000, .f32⟩
  | .hbm, ⟨2, _⟩ => ⟨S512, .f32⟩
  | .hbm, ⟨3, _⟩ => ⟨S256x256x2, .f32⟩
  | .hbm, ⟨4, _⟩ => ⟨S30000x256, .i32⟩
  | .hbm, ⟨5, _⟩ => ⟨S30000, .f32⟩
  | .hbm, ⟨6, _⟩ => ⟨S256x512, .f32⟩
  | .hbm, ⟨7, _⟩ => ⟨S1x512, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S1x256, .i32⟩
  | .hbm, ⟨17, _⟩ => ⟨S1x256, .i1⟩
  | .hbm, ⟨18, _⟩ => ⟨S_, .i32⟩
  | .hbm, ⟨19, _⟩ => ⟨S1x256, .i32⟩
  | .hbm, ⟨20, _⟩ => ⟨S1x256, .i32⟩
  | .hbm, ⟨21, _⟩ => ⟨S1x256, .i32⟩
  | .hbm, ⟨22, _⟩ => ⟨S_, .i32⟩
  | .hbm, ⟨23, _⟩ => ⟨S30000x256, .i32⟩
  | .hbm, ⟨24, _⟩ => ⟨S30000x256, .i1⟩
  | .hbm, ⟨25, _⟩ => ⟨S_, .i32⟩
  | .hbm, ⟨26, _⟩ => ⟨S30000x256, .i32⟩
  | .hbm, ⟨27, _⟩ => ⟨S30000x256, .i32⟩
  | .hbm, ⟨28, _⟩ => ⟨S30000x256, .i32⟩
  | .hbm, ⟨29, _⟩ => ⟨S30000x256, .i32⟩
  | .hbm, ⟨30, _⟩ => ⟨S30000x256x1, .i32⟩
  | .hbm, ⟨31, _⟩ => ⟨S30000x256x1, .i32⟩
  | .hbm, ⟨32, _⟩ => ⟨S30000x256x2, .i32⟩
  | .hbm, ⟨33, _⟩ => ⟨S30000x256x2, .f32⟩
  | .hbm, ⟨34, _⟩ => ⟨S30000x512, .f32⟩
  | .hbm, ⟨35, _⟩ => ⟨S256x30000, .f32⟩
  | .hbm, ⟨36, _⟩ => ⟨S1x30000, .f32⟩
  | .hbm, ⟨37, _⟩ => ⟨S256x30000, .f32⟩
  | .hbm, ⟨38, _⟩ => ⟨S256x30000, .f32⟩
  | .hbm, ⟨39, _⟩ => ⟨S_, .f32⟩
  | .hbm, ⟨40, _⟩ => ⟨S30000, .f32⟩
  | .hbm, ⟨41, _⟩ => ⟨S_, .f32⟩
  | .hbm, ⟨42, _⟩ => ⟨S30000, .f32⟩
  | .hbm, ⟨43, _⟩ => ⟨S30000, .f32⟩
  | .hbm, ⟨44, _⟩ => ⟨S1x30000, .f32⟩
  | .hbm, ⟨45, _⟩ => ⟨S256x30000, .f32⟩
  | .hbm, ⟨46, _⟩ => ⟨S256x30000, .f32⟩
  | .hbm, ⟨47, _⟩ => ⟨S256x30000, .f32⟩
  | .hbm, ⟨48, _⟩ => ⟨S_, .f32⟩
  | .hbm, ⟨49, _⟩ => ⟨S30000, .f32⟩
  | .hbm, ⟨50, _⟩ => ⟨S1x30000, .f32⟩
  | .hbm, ⟨51, _⟩ => ⟨S1x30000, .f32⟩
  | .hbm, ⟨52, _⟩ => ⟨S256x30000, .f32⟩
  | .hbm, ⟨53, _⟩ => ⟨S256x30000, .f32⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_call1_cst_0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_cst_1 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_v27 : Ref sig .tc := ⟨.hbm, 53, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  bcast_S256_S1x256_1 : S256.BroadcastsInDim S1x256 (![1] : Fin 1 → Fin S1x256.rank)
  bcast_S_S1x256 : S_.BroadcastsInDim S1x256 (![] : Fin 0 → Fin S1x256.rank)
  bcast_S_S30000x256 : S_.BroadcastsInDim S30000x256 (![] : Fin 0 → Fin S30000x256.rank)
  bcast_S1x256_S30000x256_0_1 : S1x256.BroadcastsInDim S30000x256 (![0, 1] : Fin 2 → Fin S30000x256.rank)
  bcast_S30000x256_S30000x256x1_0_1 : S30000x256.BroadcastsInDim S30000x256x1 (![0, 1] : Fin 2 → Fin S30000x256x1.rank)
  concatenates_S30000x256x1_S30000x256x1_S30000x256x2_d2 : Shape.Concatenates [S30000x256x1, S30000x256x1] S30000x256x2 2
  shapeCasts_S30000x256x2_S30000x512 : S30000x256x2.ShapeCasts S30000x512
  bcast_S30000_S1x30000_1 : S30000.BroadcastsInDim S1x30000 (![1] : Fin 1 → Fin S1x30000.rank)
  bcast_S1x30000_S256x30000_0_1 : S1x30000.BroadcastsInDim S256x30000 (![0, 1] : Fin 2 → Fin S256x30000.rank)
  reducesTo_S256x30000_S30000_d0 : S256x30000.ReducesTo [0] S30000
  h_S_ : 0 < S_.numel
  bcast_S_S30000 : S_.BroadcastsInDim S30000 (![] : Fin 0 → Fin S30000.rank)
  dot_S256x100000_S512x100000_S256x512_1_1_0_0_n_n_wf : DotDims.WF S256x100000 S512x100000 S256x512 [1] [1] [0] [0] [] []
  gather_S256x256x2_S30000x256x2_S30000x256x2_2_01_n_n_01_2_112_wf : GatherDims.WF S256x256x2 S30000x256x2 S30000x256x2 [2] [0, 1] [] [0, 1] [] 2 ![1, 1, 2]
  dot_S256x512_S30000x512_S256x30000_1_1_0_0_n_n_wf : DotDims.WF S256x512 S30000x512 S256x30000 [1] [1] [0] [0] [] []

variable [Facts₀]

def dot_S256x100000_S512x100000_S256x512_1_1_0_0_n_n : DotDims S256x100000 S512x100000 S256x512 where
  lhsContracting := [1]
  rhsContracting := [1]
  lhsNonContracting := [0]
  rhsNonContracting := [0]
  lhsBatch := []
  rhsBatch := []
  wf := dot_S256x100000_S512x100000_S256x512_1_1_0_0_n_n_wf
def gather_S256x256x2_S30000x256x2_S30000x256x2_2_01_n_n_01_2_112 : GatherDims S256x256x2 S30000x256x2 S30000x256x2 where
  offsetDims := [2]
  collapsedSliceDims := [0, 1]
  operandBatchingDims := []
  startIndicesBatchingDims := []
  startIndexMap := [0, 1]
  indexVectorDim := 2
  sliceSizes := ![1, 1, 2]
  wf := gather_S256x256x2_S30000x256x2_S30000x256x2_2_01_n_n_01_2_112_wf
def dot_S256x512_S30000x512_S256x30000_1_1_0_0_n_n : DotDims S256x512 S30000x512 S256x30000 where
  lhsContracting := [1]
  rhsContracting := [1]
  lhsNonContracting := [0]
  rhsNonContracting := [0]
  lhsBatch := []
  rhsBatch := []
  wf := dot_S256x512_S30000x512_S256x30000_1_1_0_0_n_n_wf

class Facts : Prop extends Facts₀ where

variable [Facts]
-- ==== Proof.KFc1Body.lean ====
/-
  Region 0: h = relu(x · w1ᵀ + b1) on a 2 × 34 grid. Point (i, k) holds rows 128·i … 128·i+127 of x and the
  k-th tile of 2944 columns of x and of w1. A scratch block of 128 × 512 carries the partial products: it is set to
  zero at k = 0, the tile's product is added to it at every k, and at k = 33 the bias is added, the result is
  clamped below at zero and stored into the output block. Three control cases (k = 0, 0 < k < 33, k = 33); what the
  scratch and the output block hold after each point is defined by recursion on the point.
-/
import proofs.«180185_j54073638256944_1_alg».proof.Proof.Gen.Kernel.Launch
import proofs.«180185_j54073638256944_1_alg».proof.Proof.Gen.Kernel.Skeleton
import proofs.«180185_j54073638256944_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fc1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the tile index k, in closed form over the 68 points -/

/-- k = 0: the scratch is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 34 = 0 :=
  (by decide +kernel : ∀ t : Fin grid0.N, cond0_0 (grid0.coords t) ↔ t.val % 34 = 0)
/-- k = 33: the output block is stored. -/
abbrev cond0_1 (i : grid0.Coords) : Prop := k0_cond2 i = 1#1
theorem hcond0_1 : ∀ t : Fin cfg0.N, cond0_1 (grid0.coords t) ↔ t.val % 34 = 33 :=
  (by decide +kernel : ∀ t : Fin grid0.N, cond0_1 (grid0.coords t) ↔ t.val % 34 = 33)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 33 nothing is stored into the output block and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S128x2944 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2944 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
/-- The scratch block carried between points. -/
abbrev scM0 : Memref sig .tc .vmem S128x512 .f32 := Memref.whole cc0_scratch0
abbrev VS0 : View sig .tc .vmem S128x512 .f32 := scM0.view
/-- One staging buffer of the output window, through which its contents are stated. -/
abbrev VO0_3 : View sig .tc .vmem S128x512 .f32 := (Memref.whole cc0_stg3_0 : Memref sig .tc .vmem S128x512 .f32).view

/-- The scoped buffers of the other kernel, which this region never touches. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant the region is entered with: the scratch at some contents, the other kernel's buffers, the generator
    register at some state. -/
theorem PhiA0_eq (c : Dev nD) :
    (Pipeline.ΦA spec0 c : sProp 𝕄)
      = iprop(iprop((∃ d, owns (c : Thread nD τ) scM0 fullShare d) ∗ Rest (F := F) c) ∗ (∃ r, prngReg c r)) := by
  unfold Pipeline.ΦA Rest; rw [scopedRest0_eq]; simp only [scM0, owns_whole]; try rfl

/-! ## The body in each control case: what its stores leave, found by running it -/

set_option maxHeartbeats 1000000 in
/-- k = 0: the scratch (at anything) is set to zero, then the tile's product is added; the output block is untouched. -/
noncomputable def kernelRun0_A (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond0_0 i) (hc1 : ¬cond0_1 i)
    (x0 : Vec F S128x2944 .f32) (x1 : Vec F S512x2944 .f32) (x2 : Vec F S1x512 .f32) :
    { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- 0 < k < 33: the tile's product is added to the scratch (at what the point before left); the output block is untouched. -/
noncomputable def kernelRun0_B (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : ¬cond0_1 i)
    (x0 : Vec F S128x2944 .f32) (x1 : Vec F S512x2944 .f32) (x2 : Vec F S1x512 .f32) (xs0 : Vec F S128x512 .f32) :
    { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- k = 33: the last tile's product is added to the scratch, then the bias is added, the sum clamped below at zero and
    stored into the output block (at anything before). -/
noncomputable def kernelRun0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) :
    Σ' (L3 : List (View.Piece (Elt F) S128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves: its pieces cover the block, and read back as one block -/

theorem scover0_A (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond0_0 i) (hc1 : ¬cond0_1 i)
    (x0 : Vec F S128x2944 .f32) (x1 : Vec F S512x2944 .f32) (x2 : Vec F S1x512 .f32) (y : S128x512.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S128x512.size (by sl_kernel_rfl) y
/-- The scratch after a point with k = 0. -/
def sout0_A (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond0_0 i) (hc1 : ¬cond0_1 i)
    (x0 : Vec F S128x2944 .f32) (x1 : Vec F S512x2944 .f32) (x2 : Vec F S1x512 .f32) : Vec F S128x512 .f32 :=
  VS0.read (Elt F) (VS0.writes (Elt F) VS0.junk (kernelRun0_A c i arg2 harg2 arg3 harg3 arg4 harg4 arg5 harg5 arg6 harg6 hc0 hc1 x0 x1 x2).1)

theorem scover0_B (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : ¬cond0_1 i)
    (x0 : Vec F S128x2944 .f32) (x1 : Vec F S512x2944 .f32) (x2 : Vec F S1x512 .f32) (xs0 : Vec F S128x512 .f32) (y : S128x512.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S128x512.size (by sl_kernel_rfl) y
/-- The scratch after a point with 0 < k < 33, from what the point before left. -/
def sout0_B (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : ¬cond0_1 i)
    (x0 : Vec F S128x2944 .f32) (x1 : Vec F S512x2944 .f32) (x2 : Vec F S1x512 .f32) (xs0 : Vec F S128x512 .f32) : Vec F S128x512 .f32 :=
  VS0.read (Elt F) (VS0.writes (Elt F) VS0.junk (kernelRun0_B c i arg2 harg2 arg3 harg3 arg4 harg4 arg5 harg5 arg6 harg6 hc0 hc1 x0 x1 x2 xs0).1)

theorem cover0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) (y : S128x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S128x512.size (by sl_kernel_rfl) y
/-- The output block after a point with k = 33. -/
def out0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) : Vec F S128x512 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) (y : S128x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S128x512.size (by sl_kernel_rfl) y
/-- The scratch after a point with k = 33. -/
def sout0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) : Vec F S128x512 .f32 :=
  VS0.read (Elt F) (VS0.writes (Elt F) VS0.junk (kernelRun0_C c i arg2 harg2 arg3 harg3 arg4 harg4 arg5 harg5 arg6 harg6 hc0 hc1 x0 x1 x2 xs0).2.1)

/-! ## The accumulation, point by point -/

/-- What the output block's staging buffer and the scratch hold after the body at position `n` (a pair): the case the
    closed forms select there, run on the point's blocks, the scratch taken at what position `n - 1` left. Where nothing is
    stored into the output block (k < 33) its component is a placeholder nothing consults. -/
def outsAt0 (c : Dev nD) : (n : ℕ) → n < cfg0.N → Vec F S128x512 .f32 × Vec F S128x512 .f32
  | 0, hn => ((VO0_3.read (Elt F) VO0_3.junk), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 34 = 0 then
      if h1 : (n + 1) % 34 = 33 then
        False.elim (by omega)
      else
        ((VO0_3.read (Elt F) VO0_3.junk), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 34 = 33 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        ((VO0_3.read (Elt F) VO0_3.junk), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 34 = 0) (h1 : ¬t.val % 34 = 33) :
    outsAt0 V c t.val t.isLt = ((VO0_3.read (Elt F) VO0_3.junk), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 34 = 0) (h1 : ¬t.val % 34 = 33) :
    outsAt0 V c t.val t.isLt = ((VO0_3.read (Elt F) VO0_3.junk), sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 34 = 0) (h1 : t.val % 34 = 33) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the region is entered with; afterwards
    the scratch at what the point before left, the other kernel's buffers and the generator register. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ Rest (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ Rest (F := F) c) ∗ (∃ r, prngReg c r)) := by
  cases n with
  | zero => exact absurd rfl hz
  | succ n => rfl

/-! ## The proof data -/

/-- The arrays as the region finds them; after the body each input's buffer at its block and the output's at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (g) : (dat0 V c).owed g = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the closed forms say which case the point is in; the
    invariant hands over the scratch at what the point before left (at anything at the very first point) and takes it
    back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 68 := lt_of_lt_of_eq t.isLt (show cfg0.N = 68 from N_0)
  by_cases h0 : t.val % 34 = 0
  · have h1 : ¬t.val % 34 = 33 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 34 = 33
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the region was entered with, the scratch's contents forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 68 := N_0; omega), PhiA0_eq]
  iintro ⟨⟨HS0, HR⟩, Hg⟩
  isplitl [HS0 HR]
  · isplitl [HS0]
    · iexists _; iexact HS0
    iexact HR
  iexact Hg

end Cert.Kernel.Fc1

end
-- ==== Proof.KFc2Body.lean ====
/-
  Region 1: the second matrix product and the column-wise log-softmax, one block of 6016 columns per grid point.
  The body reads its three input blocks whole, computes one value from them, and writes it over the whole output
  block.  This module states what the body leaves in the output block as a function of the three input blocks,
  proves the body's triple, and packages the proof data of the pipeline at arbitrary entry contents.
-/
import proofs.«180185_j54073638256944_1_alg».proof.Proof.Gen.Kernel.Launch
import proofs.«180185_j54073638256944_1_alg».proof.Proof.Gen.Kernel.Skeleton
import proofs.«180185_j54073638256944_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fc2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 (the whole hidden-layer array; its block index never moves, so it is
    fetched at the first point only) holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the block of 6016 rows of the second weight matrix). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the block of 6016 entries of the second bias). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole block -/

abbrev rH : Rect S256x512 := Rect.unit (s := S256x512) ![0, 0] S256x512.size inb_S256x512_S256x512_0_0
abbrev rW : Rect S6016x512 := Rect.unit (s := S6016x512) ![0, 0] S6016x512.size inb_S6016x512_S6016x512_0_0
abbrev rB : Rect S1x6016 := Rect.unit (s := S1x6016) ![0, 0] S1x6016.size inb_S1x6016_S1x6016_0_0
abbrev rO : Rect S256x6016 := Rect.unit (s := S256x6016) ![0, 0] S256x6016.size inb_S256x6016_S256x6016_0_0

/-! ## What the body leaves in the output block -/

/-- The output block after the body, from the three input blocks: its single store, of the value computed from
    the three loads, over the whole block. -/
def out1_3 (x0 : Vec F S256x512 .f32) (x1 : Vec F S6016x512 .f32) (x2 : Vec F S1x6016 .f32) : Vec F S256x6016 .f32 :=
  View.canon [⟨rO, k1_pay1 (View.ld x0 rH) (View.ld x1 rW) (View.ld x2 rB)⟩]

/-- The single store covers the block. -/
theorem cover1_3 (p0 : Vec F S256x6016 .f32) (y : S256x6016.Idx) :
    ∃ pc ∈ ([⟨rO, p0⟩] : List (View.Piece (Elt F) S256x6016 .f32)), y ∈ pc.1.set :=
  View.cover_of_tiled [⟨rO, p0⟩] S256x6016.size (by rfl) y

/-! ## The body's triple -/

set_option maxHeartbeats 1000000 in
/-- The kernel body on whole staging memrefs — the three inputs' at contents `x0`, `x1`, `x2`, the output's at
    anything — runs to the continuation holding the inputs' as they were and the output's at `out1_3 x0 x1 x2`. -/
theorem sound_kernel1 (c : Dev nD) (E : Set ℕ) (i : grid1.Coords)
    (arg1 : Memref sig .tc .vmem S256x512 .f32) (harg1 : arg1.IsWhole)
    (arg2 : Memref sig .tc .vmem S6016x512 .f32) (harg2 : arg2.IsWhole)
    (arg3 : Memref sig .tc .vmem S1x6016 .f32) (harg3 : arg3.IsWhole)
    (arg4 : Memref sig .tc .vmem S256x6016 .f32) (harg4 : arg4.IsWhole)
    (x0 : Vec F S256x512 .f32) (x1 : Vec F S6016x512 .f32) (x2 : Vec F S1x6016 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc2_kernel i arg1 harg1 arg2 harg2 arg3 harg3 arg4 harg4) K := by
  simp only [cc1__fc2_kernel_eq_skeleton]; unfold cc1__fc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at point `t`
    each input's buffer still at its block and the output's at `out1_3` of the three input blocks; the invariant is
    the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fc2

end
-- ==== Proof.KRun.lean ====
/-
  The run of @main as a chain of segments.

  Between two items of @main, core `c` holds every unscoped buffer whole, at a valuation that is the launch memory
  pushed through the host stretches before it and updated, after each kernel region, at the region's single output
  array by what the region's write-backs leave there. Region 0 (the first matrix product with bias and rectifier) is
  entered from and left to the class invariant through the two entailments its proof data come with; region 1 (the
  second product and the column-wise log-softmax) keeps the class invariant. Nothing is owed between cores.

  The unknown contents the generated valuations are written over are chosen here: after region 0 the array `main_v3`
  holds what region 0's proof data compute from the entry contents, after region 1 the array `main_v25` holds what
  region 1's compute from theirs. The final theorem reads every unscoped buffer of every core off the last valuation.
-/
import proofs.«180185_j54073638256944_1_alg».proof.Proof.KFc1Body
import proofs.«180185_j54073638256944_1_alg».proof.Proof.KFc2Body
import proofs.«180185_j54073638256944_1_alg».proof.Proof.Gen.Kernel.Regions
import proofs.«180185_j54073638256944_1_alg».proof.Proof.Gen.Kernel.Launch
import proofs.«180185_j54073638256944_1_alg».proof.Proof.Gen.Kernel.Skeleton
import proofs.«180185_j54073638256944_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a core owes, around a region

A region's proof data name the tallies the core owes before each point and a bound on the pairs it has recorded. Both
regions here owe nothing at their first and last points, so the thread state's "owes nothing" goes in and comes out. -/

section Owes

variable {cfg : Cfg sig Λ₀} {c : Dev nD} (dat : Dat τ (Elt F) Unit ℕ (UR sig nD τ) ℕ cfg c)

/-- Owing nothing with NO pair recorded meets any bound: the empty set lies in every set. -/
theorem owes_enter_empty (h0 : dat.owed 0 = 0) :
    (owes (c : Thread nD τ) (0 : CellTallies nD τ sig Unit) ∅ : sProp 𝕄) ⊢ dat.owesAt () 0 := by
  unfold Dat.owesAt Pipeline.owesWithin
  rw [h0]
  iintro H
  iexists ∅
  isplitr
  · ipureintro; simp
  · iexact H

/-- Owing nothing with any pairs recorded meets a bound that excludes no pair. -/
theorem owes_enter_univ (h0 : dat.owed 0 = 0) (hrec : dat.recorded 0 = Set.univ) :
    (iprop(∃ W, owes (c : Thread nD τ) (0 : CellTallies nD τ sig Unit) W) : sProp 𝕄) ⊢ dat.owesAt () 0 := by
  unfold Dat.owesAt Pipeline.owesWithin
  rw [h0]
  iintro ⟨%W, H⟩
  iexists W
  isplitr
  · ipureintro; intro x _; exact Or.inl (hrec ▸ Set.mem_univ x)
  · iexact H

/-- At the last point the bound is forgotten. -/
theorem owes_leave (hN : dat.owed (Fin.last cfg.N) = 0) :
    dat.owesAt () (Fin.last cfg.N) ⊢ (iprop(∃ W, owes (c : Thread nD τ) (0 : CellTallies nD τ sig Unit) W) : sProp 𝕄) := by
  unfold Dat.owesAt Pipeline.owesWithin
  rw [hN]
  iintro ⟨%W, -, H⟩
  iexists W
  iexact H

end Owes

/-! ## The class invariant, taken apart and put together -/

section Class

variable {gr W : Nat} (win : Fin W → Pipeline.WinSpec sig gr) (c : Dev nD)

/-- The generator register at some state and the scoped buffers no window stages make the class invariant; whatever
    else is at hand is dropped. -/
theorem classInv_intro (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]
  · iexact Hs
  · iexact Hg

/-- and the class invariant gives both back. -/
theorem classInv_elim :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hs, Hg⟩
  isplitl [Hg]
  · iexact Hg
  isplitr
  · iempintro
  · iexact Hs

end Class

variable (m : (ℓ : Loc nD τ sig) → Buf (Elt F) ℓ) (ρ : Dev nD → PrngReg)

/-! ## The contents the regions leave -/

/-- Region 0's entry contents: the launch memory after the five host stretches before it (the two paddings and the
    bias's reshape). -/
abbrev Vin0 : (c : Dev nD) → (b : Ref sig .tc) → Buf (Elt F) ((c : Thread nD τ).loc b) := fun c b => Gen.V5 m c b

/-- What region 0 leaves in its output array: its proof data's write-backs folded over all 68 points. -/
def out0 (c : Dev nD) : Buf (Elt F) ((c : Thread nD τ).loc main_v3) := (Fc1.dat0 (Vin0 m) c).arrAt 3 cfg0.N

/-- Contents of no consequence, for the places the valuations never read. -/
abbrev junk (c : Dev nD) : (r : Ref sig .tc) → Buf (Elt F) ((c : Thread nD τ).loc r) := fun r => m ((c : Thread nD τ).loc r)

/-- The unknowns with region 0's output filled in. -/
def outsA : Gen.Outs (F := F) := fun _ r c => Function.update (junk m c) main_v3 (out0 m c) r

/-- Region 1's entry contents: region 0's exit contents after the five host stretches between the regions (the
    codebook gather, its reshape and padding, the second bias's padding and reshape). -/
abbrev Vin1 : (c : Dev nD) → (b : Ref sig .tc) → Buf (Elt F) ((c : Thread nD τ).loc b) := fun c b => Gen.V11 m (outsA m) c b

/-- What region 1 leaves in its output array: its proof data's write-backs folded over all 5 points. -/
def out1 (c : Dev nD) : Buf (Elt F) ((c : Thread nD τ).loc main_v25) := (Fc2.dat1 (Vin1 m) c).arrAt 3 cfg1.N

/-- The unknowns: after item 11 region 1's output, elsewhere as `outsA`. -/
def outs : Gen.Outs (F := F)
  | 12 => fun r c => Function.update (junk m c) main_v25 (out1 m c) r
  | J => outsA m J

theorem outs_6 (c : Dev nD) : outs m 6 main_v3 c = out0 m c :=
  Function.update_self (β := fun r : Ref sig .tc => Buf (Elt F) ((c : Thread nD τ).loc r)) main_v3 (out0 m c) (junk m c)

theorem outs_12 (c : Dev nD) : outs m 12 main_v25 c = out1 m c :=
  Function.update_self (β := fun r : Ref sig .tc => Buf (Elt F) ((c : Thread nD τ).loc r)) main_v25 (out1 m c) (junk m c)

/-- The valuation before region 1 reads the unknowns at one place only: region 0's output. -/
theorem V11_congr (o o' : Gen.Outs (F := F)) (c : Dev nD) (h : o 6 main_v3 c = o' 6 main_v3 c) :
    Gen.V11 m o c = Gen.V11 m o' c := by
  show StableHlo.after hostOps1_4 (StableHlo.after hostOps1_3 (StableHlo.after hostOps1_2 (StableHlo.after hostOps1_1
    (StableHlo.after hostOps1 (Function.update (Gen.V5 m c) main_v3 (o 6 main_v3 c)))))) = _
  rw [h]

theorem V11_outs (c : Dev nD) : Gen.V11 m (outs m) c = Gen.V11 m (outsA m) c :=
  V11_congr m (outs m) (outsA m) c rfl

/-- Region 0's exit contents and region 1's, read at the TensorCore's references. -/
abbrev Vout0 : (c : Dev nD) → (b : Ref sig .tc) → Buf (Elt F) ((c : Thread nD τ).loc b) := fun c b => Gen.V6 m (outs m) c b
abbrev Vout1 : (c : Dev nD) → (b : Ref sig .tc) → Buf (Elt F) ((c : Thread nD τ).loc b) := fun c b => Gen.V12 m (outs m) c b

/-! ### Each region's arrays at its exit: the three inputs as entered, the output as folded -/

theorem exit_arr0 (c : Dev nD) : ∀ w : Fin 4, (Fc1.dat0 (Vin0 m) c).arrAt w cfg0.N = Vout0 m c (Pipeline.arrRef spec0 w)
  | 0 => ((Fc1.dat0 (Vin0 m) c).arrAt_in 0 rfl _).trans <| (Fc1.A_eq0 (Vin0 m) c 0).trans (Gen.V6_of m (outs m) c main_v0 (by decide)).symm
  | 1 => ((Fc1.dat0 (Vin0 m) c).arrAt_in 1 rfl _).trans <| (Fc1.A_eq0 (Vin0 m) c 1).trans (Gen.V6_of m (outs m) c main_v1 (by decide)).symm
  | 2 => ((Fc1.dat0 (Vin0 m) c).arrAt_in 2 rfl _).trans <| (Fc1.A_eq0 (Vin0 m) c 2).trans (Gen.V6_of m (outs m) c main_v2 (by decide)).symm
  | 3 => (outs_6 m c).symm.trans (Function.update_self (β := fun b : DevRef τ sig => b.ty.Contents (Elt F)) (Proc.devRef .tc main_v3) (outs m 6 main_v3 c) (Gen.V5 m c)).symm
  | ⟨_ + 4, h⟩ => absurd h (Nat.not_lt.2 (Nat.le_add_left _ _))

theorem exit_rest0 (c : Dev nD) (b : Ref sig .tc) (hb : b ∉ Finset.univ.image (Pipeline.arrRef spec0)) : Vout0 m c b = Vin0 m c b :=
  Gen.V6_of m (outs m) c b fun h => hb (Finset.mem_image.mpr ⟨3, Finset.mem_univ _, (List.mem_singleton.mp h).symm⟩)

theorem exit_arr1 (c : Dev nD) : ∀ w : Fin 4, (Fc2.dat1 (Vin1 m) c).arrAt w cfg1.N = Vout1 m c (Pipeline.arrRef spec1 w)
  | 0 => ((Fc2.dat1 (Vin1 m) c).arrAt_in 0 rfl _).trans <| (Fc2.A_eq1 (Vin1 m) c 0).trans <|
      (congrFun (V11_outs m c) (Proc.devRef .tc main_v3)).symm.trans (Gen.V12_of m (outs m) c main_v3 (by decide)).symm
  | 1 => ((Fc2.dat1 (Vin1 m) c).arrAt_in 1 rfl _).trans <| (Fc2.A_eq1 (Vin1 m) c 1).trans <|
      (congrFun (V11_outs m c) (Proc.devRef .tc main_v22)).symm.trans (Gen.V12_of m (outs m) c main_v22 (by decide)).symm
  | 2 => ((Fc2.dat1 (Vin1 m) c).arrAt_in 2 rfl _).trans <| (Fc2.A_eq1 (Vin1 m) c 2).trans <|
      (congrFun (V11_outs m c) (Proc.devRef .tc main_v24)).symm.trans (Gen.V12_of m (outs m) c main_v24 (by decide)).symm
  | 3 => (outs_12 m c).symm.trans (Function.update_self (β := fun b : DevRef τ sig => b.ty.Contents (Elt F)) (Proc.devRef .tc main_v25) (outs m 12 main_v25 c) (Gen.V11 m (outs m) c)).symm
  | ⟨_ + 4, h⟩ => absurd h (Nat.not_lt.2 (Nat.le_add_left _ _))

theorem exit_rest1 (c : Dev nD) (b : Ref sig .tc) (hb : b ∉ Finset.univ.image (Pipeline.arrRef spec1)) : Vout1 m c b = Vin1 m c b :=
  (Gen.V12_of m (outs m) c b fun h => hb (Finset.mem_image.mpr ⟨3, Finset.mem_univ _, (List.mem_singleton.mp h).symm⟩)).trans
    (congrFun (V11_outs m c) (Proc.devRef .tc b))

/-! ## The thread state beside the buffers, and the proof data -/

/-- Both pipelines' proof data, each at its region's entry contents. -/
def pdats : (p : Fin 2) → (c : Dev nD) → Dat τ (Elt F) Unit ℕ (UR sig nD τ) ℕ (cfgs p) c
  | ⟨0, _⟩ => fun c => Fc1.dat0 (Vin0 m) c
  | ⟨1, _⟩ => fun c => Fc2.dat1 (Vin1 m) c

/-- No core waits on another: no pair carries a level. -/
abbrev L : GSem nD τ sig → Finset Unit := fun _ => ∅
abbrev lv : GSem nD τ sig → Unit → ℕ := fun _ _ => 0

/-- Beside the buffers before region 0: the generator register at some state, and nothing owed with no pair recorded
    (the launch's, which no host stretch touches). -/
abbrev R₀ (c : Dev nD) : sProp 𝕄 :=
  iprop((∃ r, prngReg c r) ∗ owes (c : Thread nD τ) (0 : CellTallies nD τ sig Unit) ∅)
/-- Beside the buffers after a region: the generator register at some state, nothing owed. -/
abbrev R (c : Dev nD) : sProp 𝕄 :=
  iprop((∃ r, prngReg c r) ∗ ∃ W, owes (c : Thread nD τ) (0 : CellTallies nD τ sig Unit) W)
/-- The three rests: before region 0, between the regions, after region 1. -/
abbrev E : Fin 3 → Dev nD → sProp 𝕄
  | 0 => R₀
  | _ => R

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0. Entered with every unscoped buffer at the contents after the fifth host stretch: its four arrays are
    split off, the rest bypasses it; the generator register and the scoped buffers make the class invariant, from
    which the proof data's own invariant starts and to which it returns. Left with the arrays put back: the three
    inputs unchanged, `main_v3` at `out0`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (Fc1.body_obligation0 (Vin0 m) c).loose
  hwaits := Pipeline.hwaits_of_owed_zero _ _ _ _ L lv 0 fun c t => Fc1.owed_eq0 (Vin0 m) c t
  pre c := iprop(StableHlo.held (c : Thread nD τ) (Pipeline.ucRefs τ sig) (Gen.V5 m c) ∗ R₀ c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    have hsplit := Pipeline.arrays_of_unscopedBufs (p := 0) (pcfgs (F := F)) Gen.adm (pdats m) launch0.win launch0.arr_whole c
      ((pdats m 0 c).share_full fun w => Fc1.q_eq0 (Vin0 m) c w) (Vin0 m c) fun w => Fc1.A_eq0 (Vin0 m) c w
    rw [Pipeline.unscopedBufs_held] at hsplit
    have howes := owes_enter_empty (pdats m 0 c) (Fc1.owed_eq0 (Vin0 m) c 0)
    iintro ⟨⟨Hbufs, Hgen, Howes⟩, -⟩
    ihave Hsp := hsplit $$ Hbufs
    icases Hsp with ⟨Harr, Hrest⟩
    ihave Ho := howes $$ Howes
    imodintro
    isplitl [Harr]
    · iexact Harr
    isplitr
    · unfold Pipeline.prefHeld
      rw [show (Finset.univ : Finset (Fin 0)) = ∅ from rfl, BI.bigSep_empty]
      iempintro
    isplitl [Ho]
    · iexact Ho
    isplitl [Hgen]
    · iexact Hgen
    · iexact Hrest
  hin c := (classInv_intro spec0 c _).trans (Fc1.hin0 (Vin0 m) c)
  hout c := by
    rw [Pipeline.ownSems0_none]
    exact (Fc1.hout0 (Vin0 m) c).trans (classInv_elim spec0 c)
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => Fc1.q_eq0 (Vin0 m) c w)
      (Vin0 m c) (Vout0 m c) ((pdats m 0 c).arrAt · cfg0.N) (exit_arr0 m c) (exit_rest0 m c)
    rw [Pipeline.unscopedBufs_held] at hjoin
    have howes := owes_leave (pdats m 0 c) (Fc1.owed_eq0 (Vin0 m) c (Fin.last cfg0.N))
    iintro ⟨Harr, Ho, Hgen, Hrest⟩
    ihave Hb := hjoin $$ [Harr Hrest]
    · isplitl [Harr]
      · iexact Harr
      · iexact Hrest
    ihave Ho' := howes $$ Ho
    imodintro
    isplitl [Hb]
    · iexact Hb
    isplitl [Hgen]
    · iexact Hgen
    · iexact Ho'

set_option backward.isDefEq.respectTransparency.types false in
/-- REGION 1. Entered with every unscoped buffer at the contents after the tenth host stretch (which read the unknowns
    only at region 0's output, so the two ways of writing them agree); it keeps the class invariant. Left with the
    arrays put back: the three inputs unchanged, `main_v25` at `out1`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (Fc2.body_obligation1 (Vin1 m) c).loose
  hwaits := Pipeline.hwaits_of_owed_zero _ _ _ _ L lv 1 fun _ _ => rfl
  pre c := iprop(StableHlo.held (c : Thread nD τ) (Pipeline.ucRefs τ sig) (Gen.V11 m (outsA m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    have hsplit := Pipeline.arrays_of_unscopedBufs (p := 1) (pcfgs (F := F)) Gen.adm (pdats m) launch1.win launch1.arr_whole c
      ((pdats m 1 c).share_full fun _ => rfl) (Vin1 m c) fun w => Fc2.A_eq1 (Vin1 m) c w
    rw [Pipeline.unscopedBufs_held] at hsplit
    have howes := owes_enter_univ (pdats m 1 c) rfl rfl
    iintro ⟨⟨Hbufs, Hgen, Howes⟩, -⟩
    ihave Hsp := hsplit $$ Hbufs
    icases Hsp with ⟨Harr, Hrest⟩
    ihave Ho := howes $$ Howes
    imodintro
    isplitl [Harr]
    · iexact Harr
    isplitr
    · unfold Pipeline.prefHeld
      rw [show (Finset.univ : Finset (Fin 0)) = ∅ from rfl, BI.bigSep_empty]
      iempintro
    isplitl [Ho]
    · iexact Ho
    isplitl [Hgen]
    · iexact Hgen
    · iexact Hrest
  hin c := classInv_intro spec1 c _
  hout c := by
    rw [Pipeline.ownSems0_none]
    exact classInv_elim spec1 c
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (exit_arr1 m c) (exit_rest1 m c)
    rw [Pipeline.unscopedBufs_held] at hjoin
    have howes := owes_leave (pdats m 1 c) rfl
    iintro ⟨Harr, Ho, Hgen, Hrest⟩
    ihave Hb := hjoin $$ [Harr Hrest]
    · isplitl [Harr]
      · iexact Harr
      · iexact Hrest
    ihave Ho' := howes $$ Ho
    imodintro
    isplitl [Hb]
    · iexact Hb
    isplitl [Hgen]
    · iexact Hgen
    · iexact Ho'

/-- Between the regions the thread state is written over `outs`; region 1 is entered over `outsA`: the same contents. -/
theorem enter1 (c : Dev nD) :
    (iprop(StableHlo.held (c : Thread nD τ) (Pipeline.ucRefs τ sig) (Gen.V11 m (outs m) c) ∗ R c) : sProp 𝕄)
      ⊢ iprop(StableHlo.held (c : Thread nD τ) (Pipeline.ucRefs τ sig) (Gen.V11 m (outsA m) c) ∗ R c) := by
  rw [V11_outs m c]

/-! ## The launch, the chain, and the last state read back -/

/-- After region 1 what rides beside the buffers still says that nothing is owed. -/
theorem R_owes (c : Dev nD) :
    (R c : sProp 𝕄) ⊢ iprop(∃ W, owes (c : Thread nD τ) (0 : CellTallies nD τ sig Unit) W) := by
  iintro ⟨-, H⟩
  iexact H

/-- The launch element is the pipeline library's own; no core gets a ghost resource besides. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  -- with the whole user algebra the library's own component, owning an element of it is owning its embedding
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  refine hown.trans ?_
  iintro Hown
  imodintro
  isplitl [Hown]
  · iexact Hown
  · iempintro

set_option backward.isDefEq.respectTransparency.types false in
/-- THE RUN. From any memory with zero counters every weakly fair execution of @main terminates, and in every final
    memory each unscoped buffer of each core holds the last valuation: the launch memory pushed through the thirteen
    items, the two regions' outputs at `out0` and `out1`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V13 m (outs m) c b) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Pipeline.Seg.run_eq_chain,
        show (Gen.segs m (outs m) Variants.none L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := launch_elt)
    (T₀ := fun c => iprop(StableHlo.held (c : Thread nD τ) (Pipeline.ucRefs τ sig) (Gen.V0 m c) ∗ R₀ c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, enter1 m c, .rfl, sep_mono .rfl (R_owes c)⟩)
    (hinit := ?_)
    (QY := fun c s => ∀ b ∈ Pipeline.ucRefs τ sig, s.mem (((c : Thread nD τ)).1, b) = Gen.V13 m (outs m) c b)
    (hfin := fun c s' => ?_) (hQ := fun _ h => h)
  · -- every core at once: its unscoped buffers are held at the launch valuation; of the rest the generator register
    -- and the empty debt are kept
    refine Pipeline.initEach L lv fun c => ?_
    rw [← Pipeline.unscopedBufs_held (Ix := Unit) (Name := ℕ) (U := UR sig nD τ) (Lvl := ℕ) c (Gen.V0 m c)]
    iintro ⟨⟨Hbufs, -, Howes, -, Hgen, -⟩, -⟩
    imodintro
    isplitl [Hbufs]
    · iexact Hbufs
    isplitl [Hgen]
    · iexists _
      iexact Hgen
    · iexact Howes
  · -- the buffers held at the last valuation, beside a final state, say what its memory holds
    unfold StableHlo.held
    iintro ⟨Hh, HSI⟩
    ihave Hr := (pointsTo_read_all (Pipeline.ucRefs τ sig) (fun b => ((c : Thread nD τ).1, b)) (Gen.V13 m (outs m) c) s') $$ [Hh HSI]
    · isplitl [Hh] <;> iassumption
    icases Hr with ⟨%h, HSI⟩
    imodintro
    isplitr
    · ipureintro
      exact h
    · iexact HSI

/-- THE FRAME: every argument array ends as launched — no host stretch writes one and no region's output is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c)⟩) (run_all m ρ)

/-- info: 'Cert.Kernel.Run.run_all' depends on axioms: [propext, Classical.choice, Quot.sound] -/
#guard_msgs in #print axioms run_all
/-- info: 'Cert.Kernel.Run.frame' depends on axioms: [propext, Classical.choice, Quot.sound] -/
#guard_msgs in #print axioms frame

end Cert.Kernel.Run

end
-- ==== Proof.Fc1Body.lean ====
/-
  Region 0: h = relu(x · w1ᵀ + b1) on a 2 × 34 grid. Point (i, k) holds rows 128·i … 128·i+127 of x and the
  k-th tile of 2944 columns of x and of w1. A scratch block of 128 × 512 carries the partial products: it is set to
  zero at k = 0, the tile's product is added to it at every k, and at k = 33 the bias is added, the result is
  clamped below at zero and stored into the output block. Three control cases (k = 0, 0 < k < 33, k = 33); what the
  scratch and the output block hold after each point is defined by recursion on the point.
-/
import proofs.«180185_j54073638256944_1_alg».proof.Proof.Gen.KernelIdeal.Launch
import proofs.«180185_j54073638256944_1_alg».proof.Proof.Gen.KernelIdeal.Skeleton
import proofs.«180185_j54073638256944_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fc1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the tile index k, in closed form over the 68 points -/

/-- k = 0: the scratch is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 34 = 0 :=
  (by decide +kernel : ∀ t : Fin grid0.N, cond0_0 (grid0.coords t) ↔ t.val % 34 = 0)
/-- k = 33: the output block is stored. -/
abbrev cond0_1 (i : grid0.Coords) : Prop := k0_cond2 i = 1#1
theorem hcond0_1 : ∀ t : Fin cfg0.N, cond0_1 (grid0.coords t) ↔ t.val % 34 = 33 :=
  (by decide +kernel : ∀ t : Fin grid0.N, cond0_1 (grid0.coords t) ↔ t.val % 34 = 33)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from k = 33 nothing is stored into the output block and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S128x2944 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2944 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .f32 := win0_3.stage (cfg0.slots t 3)
abbrev hs0_3 (t : Fin cfg0.N) : (ms0_3 t).IsWhole := hstage0_3 ((cfg0.slots t 3).cast nbuf0_3)
/-- The scratch block carried between points. -/
abbrev scM0 : Memref sig .tc .vmem S128x512 .f32 := Memref.whole cc0_scratch0
abbrev VS0 : View sig .tc .vmem S128x512 .f32 := scM0.view
/-- One staging buffer of the output window, through which its contents are stated. -/
abbrev VO0_3 : View sig .tc .vmem S128x512 .f32 := (Memref.whole cc0_stg3_0 : Memref sig .tc .vmem S128x512 .f32).view

/-- The scoped buffers of the other kernel, which this region never touches. -/
def Rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant the region is entered with: the scratch at some contents, the other kernel's buffers, the generator
    register at some state. -/
theorem PhiA0_eq (c : Dev nD) :
    (Pipeline.ΦA spec0 c : sProp 𝕄)
      = iprop(iprop((∃ d, owns (c : Thread nD τ) scM0 fullShare d) ∗ Rest (F := F) c) ∗ (∃ r, prngReg c r)) := by
  unfold Pipeline.ΦA Rest; rw [scopedRest0_eq]; simp only [scM0, owns_whole]; try rfl

/-! ## The body in each control case: what its stores leave, found by running it -/

set_option maxHeartbeats 1000000 in
/-- k = 0: the scratch (at anything) is set to zero, then the tile's product is added; the output block is untouched. -/
noncomputable def kernelRun0_A (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond0_0 i) (hc1 : ¬cond0_1 i)
    (x0 : Vec F S128x2944 .f32) (x1 : Vec F S512x2944 .f32) (x2 : Vec F S1x512 .f32) :
    { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- 0 < k < 33: the tile's product is added to the scratch (at what the point before left); the output block is untouched. -/
noncomputable def kernelRun0_B (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : ¬cond0_1 i)
    (x0 : Vec F S128x2944 .f32) (x1 : Vec F S512x2944 .f32) (x2 : Vec F S1x512 .f32) (xs0 : Vec F S128x512 .f32) :
    { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, fun xi3 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- k = 33: the last tile's product is added to the scratch, then the bias is added, the sum clamped below at zero and
    stored into the output block (at anything before). -/
noncomputable def kernelRun0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) :
    Σ' (L3 : List (View.Piece (Elt F) S128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__fc1_kernel i arg2 harg2 arg3 harg3 arg4 harg4 arg5 harg5 arg6 harg6) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves: its pieces cover the block, and read back as one block -/

theorem scover0_A (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond0_0 i) (hc1 : ¬cond0_1 i)
    (x0 : Vec F S128x2944 .f32) (x1 : Vec F S512x2944 .f32) (x2 : Vec F S1x512 .f32) (y : S128x512.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S128x512.size (by sl_kernel_rfl) y
/-- The scratch after a point with k = 0. -/
def sout0_A (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond0_0 i) (hc1 : ¬cond0_1 i)
    (x0 : Vec F S128x2944 .f32) (x1 : Vec F S512x2944 .f32) (x2 : Vec F S1x512 .f32) : Vec F S128x512 .f32 :=
  VS0.read (Elt F) (VS0.writes (Elt F) VS0.junk (kernelRun0_A c i arg2 harg2 arg3 harg3 arg4 harg4 arg5 harg5 arg6 harg6 hc0 hc1 x0 x1 x2).1)

theorem scover0_B (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : ¬cond0_1 i)
    (x0 : Vec F S128x2944 .f32) (x1 : Vec F S512x2944 .f32) (x2 : Vec F S1x512 .f32) (xs0 : Vec F S128x512 .f32) (y : S128x512.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S128x512.size (by sl_kernel_rfl) y
/-- The scratch after a point with 0 < k < 33, from what the point before left. -/
def sout0_B (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : ¬cond0_1 i)
    (x0 : Vec F S128x2944 .f32) (x1 : Vec F S512x2944 .f32) (x2 : Vec F S1x512 .f32) (xs0 : Vec F S128x512 .f32) : Vec F S128x512 .f32 :=
  VS0.read (Elt F) (VS0.writes (Elt F) VS0.junk (kernelRun0_B c i arg2 harg2 arg3 harg3 arg4 harg4 arg5 harg5 arg6 harg6 hc0 hc1 x0 x1 x2 xs0).1)

theorem cover0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) (y : S128x512.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S128x512.size (by sl_kernel_rfl) y
/-- The output block after a point with k = 33. -/
def out0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) : Vec F S128x512 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) (y : S128x512.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S128x512.size (by sl_kernel_rfl) y
/-- The scratch after a point with k = 33. -/
def sout0_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i)
    (x0 : Vec F S128x2944 .f32) (x1 : Vec F S512x2944 .f32) (x2 : Vec F S1x512 .f32) (xs0 : Vec F S128x512 .f32) : Vec F S128x512 .f32 :=
  VS0.read (Elt F) (VS0.writes (Elt F) VS0.junk (kernelRun0_C c i arg2 harg2 arg3 harg3 arg4 harg4 arg5 harg5 arg6 harg6 hc0 hc1 x0 x1 x2 xs0).2.1)

/-! ## The accumulation, point by point -/

/-- What the output block's staging buffer and the scratch hold after the body at position `n` (a pair): the case the
    closed forms select there, run on the point's blocks, the scratch taken at what position `n - 1` left. Where nothing is
    stored into the output block (k < 33) its component is a placeholder nothing consults. -/
def outsAt0 (c : Dev nD) : (n : ℕ) → n < cfg0.N → Vec F S128x512 .f32 × Vec F S128x512 .f32
  | 0, hn => ((VO0_3.read (Elt F) VO0_3.junk), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 34 = 0 then
      if h1 : (n + 1) % 34 = 33 then
        False.elim (by omega)
      else
        ((VO0_3.read (Elt F) VO0_3.junk), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 34 = 33 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        ((VO0_3.read (Elt F) VO0_3.junk), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 34 = 0) (h1 : ¬t.val % 34 = 33) :
    outsAt0 V c t.val t.isLt = ((VO0_3.read (Elt F) VO0_3.junk), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 34 = 0) (h1 : ¬t.val % 34 = 33) :
    outsAt0 V c t.val t.isLt = ((VO0_3.read (Elt F) VO0_3.junk), sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 34 = 0) (h1 : t.val % 34 = 33) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the region is entered with; afterwards
    the scratch at what the point before left, the other kernel's buffers and the generator register. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ Rest (F := F) c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ Rest (F := F) c) ∗ (∃ r, prngReg c r)) := by
  cases n with
  | zero => exact absurd rfl hz
  | succ n => rfl

/-! ## The proof data -/

/-- The arrays as the region finds them; after the body each input's buffer at its block and the output's at
    `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (g) : (dat0 V c).owed g = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the closed forms say which case the point is in; the
    invariant hands over the scratch at what the point before left (at anything at the very first point) and takes it
    back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 68 := lt_of_lt_of_eq t.isLt (show cfg0.N = 68 from N_0)
  by_cases h0 : t.val % 34 = 0
  · have h1 : ¬t.val % 34 = 33 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 34 = 33
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the region was entered with, the scratch's contents forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 68 := N_0; omega), PhiA0_eq]
  iintro ⟨⟨HS0, HR⟩, Hg⟩
  isplitl [HS0 HR]
  · isplitl [HS0]
    · iexists _; iexact HS0
    iexact HR
  iexact Hg

end Cert.KernelIdeal.Fc1

end
-- ==== Proof.Fc2Body.lean ====
/-
  Region 1: the second matrix product and the column-wise log-softmax, one block of 6016 columns per grid point.
  The body reads its three input blocks whole, computes one value from them, and writes it over the whole output
  block.  This module states what the body leaves in the output block as a function of the three input blocks,
  proves the body's triple, and packages the proof data of the pipeline at arbitrary entry contents.
-/
import proofs.«180185_j54073638256944_1_alg».proof.Proof.Gen.KernelIdeal.Launch
import proofs.«180185_j54073638256944_1_alg».proof.Proof.Gen.KernelIdeal.Skeleton
import proofs.«180185_j54073638256944_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fc2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 (the whole hidden-layer array; its block index never moves, so it is
    fetched at the first point only) holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1 (the block of 6016 rows of the second weight matrix). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the block of 6016 entries of the second bias). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole block -/

abbrev rH : Rect S256x512 := Rect.unit (s := S256x512) ![0, 0] S256x512.size inb_S256x512_S256x512_0_0
abbrev rW : Rect S6016x512 := Rect.unit (s := S6016x512) ![0, 0] S6016x512.size inb_S6016x512_S6016x512_0_0
abbrev rB : Rect S1x6016 := Rect.unit (s := S1x6016) ![0, 0] S1x6016.size inb_S1x6016_S1x6016_0_0
abbrev rO : Rect S256x6016 := Rect.unit (s := S256x6016) ![0, 0] S256x6016.size inb_S256x6016_S256x6016_0_0

/-! ## What the body leaves in the output block -/

/-- The output block after the body, from the three input blocks: its single store, of the value computed from
    the three loads, over the whole block. -/
def out1_3 (x0 : Vec F S256x512 .f32) (x1 : Vec F S6016x512 .f32) (x2 : Vec F S1x6016 .f32) : Vec F S256x6016 .f32 :=
  View.canon [⟨rO, k1_pay1 (View.ld x0 rH) (View.ld x1 rW) (View.ld x2 rB)⟩]

/-- The single store covers the block. -/
theorem cover1_3 (p0 : Vec F S256x6016 .f32) (y : S256x6016.Idx) :
    ∃ pc ∈ ([⟨rO, p0⟩] : List (View.Piece (Elt F) S256x6016 .f32)), y ∈ pc.1.set :=
  View.cover_of_tiled [⟨rO, p0⟩] S256x6016.size (by rfl) y

/-! ## The body's triple -/

set_option maxHeartbeats 1000000 in
/-- The kernel body on whole staging memrefs — the three inputs' at contents `x0`, `x1`, `x2`, the output's at
    anything — runs to the continuation holding the inputs' as they were and the output's at `out1_3 x0 x1 x2`. -/
theorem sound_kernel1 (c : Dev nD) (E : Set ℕ) (i : grid1.Coords)
    (arg1 : Memref sig .tc .vmem S256x512 .f32) (harg1 : arg1.IsWhole)
    (arg2 : Memref sig .tc .vmem S6016x512 .f32) (harg2 : arg2.IsWhole)
    (arg3 : Memref sig .tc .vmem S1x6016 .f32) (harg3 : arg3.IsWhole)
    (arg4 : Memref sig .tc .vmem S256x6016 .f32) (harg4 : arg4.IsWhole)
    (x0 : Vec F S256x512 .f32) (x1 : Vec F S6016x512 .f32) (x2 : Vec F S1x6016 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__fc2_kernel i arg1 harg1 arg2 harg2 arg3 harg3 arg4 harg4) K := by
  simp only [cc1__fc2_kernel_eq_skeleton]; unfold cc1__fc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at point `t`
    each input's buffer still at its block and the output's at `out1_3` of the three input blocks; the invariant is
    the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fc2

end
-- ==== Proof.Run.lean ====
/-
  The run of @main as a chain of segments.

  Between two items of @main, core `c` holds every unscoped buffer whole, at a valuation that is the launch memory
  pushed through the host stretches before it and updated, after each kernel region, at the region's single output
  array by what the region's write-backs leave there. Region 0 (the first matrix product with bias and rectifier) is
  entered from and left to the class invariant through the two entailments its proof data come with; region 1 (the
  second product and the column-wise log-softmax) keeps the class invariant. Nothing is owed between cores.

  The unknown contents the generated valuations are written over are chosen here: after region 0 the array `main_v3`
  holds what region 0's proof data compute from the entry contents, after region 1 the array `main_v25` holds what
  region 1's compute from theirs. The final theorem reads every unscoped buffer of every core off the last valuation.
-/
import proofs.«180185_j54073638256944_1_alg».proof.Proof.Fc1Body
import proofs.«180185_j54073638256944_1_alg».proof.Proof.Fc2Body
import proofs.«180185_j54073638256944_1_alg».proof.Proof.Gen.KernelIdeal.Regions
import proofs.«180185_j54073638256944_1_alg».proof.Proof.Gen.KernelIdeal.Launch
import proofs.«180185_j54073638256944_1_alg».proof.Proof.Gen.KernelIdeal.Skeleton
import proofs.«180185_j54073638256944_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a core owes, around a region

A region's proof data name the tallies the core owes before each point and a bound on the pairs it has recorded. Both
regions here owe nothing at their first and last points, so the thread state's "owes nothing" goes in and comes out. -/

section Owes

variable {cfg : Cfg sig Λ₀} {c : Dev nD} (dat : Dat τ (Elt F) Unit ℕ (UR sig nD τ) ℕ cfg c)

/-- Owing nothing with NO pair recorded meets any bound: the empty set lies in every set. -/
theorem owes_enter_empty (h0 : dat.owed 0 = 0) :
    (owes (c : Thread nD τ) (0 : CellTallies nD τ sig Unit) ∅ : sProp 𝕄) ⊢ dat.owesAt () 0 := by
  unfold Dat.owesAt Pipeline.owesWithin
  rw [h0]
  iintro H
  iexists ∅
  isplitr
  · ipureintro; simp
  · iexact H

/-- Owing nothing with any pairs recorded meets a bound that excludes no pair. -/
theorem owes_enter_univ (h0 : dat.owed 0 = 0) (hrec : dat.recorded 0 = Set.univ) :
    (iprop(∃ W, owes (c : Thread nD τ) (0 : CellTallies nD τ sig Unit) W) : sProp 𝕄) ⊢ dat.owesAt () 0 := by
  unfold Dat.owesAt Pipeline.owesWithin
  rw [h0]
  iintro ⟨%W, H⟩
  iexists W
  isplitr
  · ipureintro; intro x _; exact Or.inl (hrec ▸ Set.mem_univ x)
  · iexact H

/-- At the last point the bound is forgotten. -/
theorem owes_leave (hN : dat.owed (Fin.last cfg.N) = 0) :
    dat.owesAt () (Fin.last cfg.N) ⊢ (iprop(∃ W, owes (c : Thread nD τ) (0 : CellTallies nD τ sig Unit) W) : sProp 𝕄) := by
  unfold Dat.owesAt Pipeline.owesWithin
  rw [hN]
  iintro ⟨%W, -, H⟩
  iexists W
  iexact H

end Owes

/-! ## The class invariant, taken apart and put together -/

section Class

variable {gr W : Nat} (win : Fin W → Pipeline.WinSpec sig gr) (c : Dev nD)

/-- The generator register at some state and the scoped buffers no window stages make the class invariant; whatever
    else is at hand is dropped. -/
theorem classInv_intro (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]
  · iexact Hs
  · iexact Hg

/-- and the class invariant gives both back. -/
theorem classInv_elim :
    (Pipeline.ΦA win c : sProp 𝕄)
      ⊢ iprop((∃ r, prngReg c r) ∗ emp ∗ Pipeline.scopedRest (Ix := Unit) (Name := ℕ) (U := UR sig nD τ) (Lvl := ℕ) (Val := Elt F) win c) := by
  unfold Pipeline.ΦA
  iintro ⟨Hs, Hg⟩
  isplitl [Hg]
  · iexact Hg
  isplitr
  · iempintro
  · iexact Hs

end Class

variable (m : (ℓ : Loc nD τ sig) → Buf (Elt F) ℓ) (ρ : Dev nD → PrngReg)

/-! ## The contents the regions leave -/

/-- Region 0's entry contents: the launch memory after the five host stretches before it (the two paddings and the
    bias's reshape). -/
abbrev Vin0 : (c : Dev nD) → (b : Ref sig .tc) → Buf (Elt F) ((c : Thread nD τ).loc b) := fun c b => Gen.V5 m c b

/-- What region 0 leaves in its output array: its proof data's write-backs folded over all 68 points. -/
def out0 (c : Dev nD) : Buf (Elt F) ((c : Thread nD τ).loc main_v3) := (Fc1.dat0 (Vin0 m) c).arrAt 3 cfg0.N

/-- Contents of no consequence, for the places the valuations never read. -/
abbrev junk (c : Dev nD) : (r : Ref sig .tc) → Buf (Elt F) ((c : Thread nD τ).loc r) := fun r => m ((c : Thread nD τ).loc r)

/-- The unknowns with region 0's output filled in. -/
def outsA : Gen.Outs (F := F) := fun _ r c => Function.update (junk m c) main_v3 (out0 m c) r

/-- Region 1's entry contents: region 0's exit contents after the five host stretches between the regions (the
    codebook gather, its reshape and padding, the second bias's padding and reshape). -/
abbrev Vin1 : (c : Dev nD) → (b : Ref sig .tc) → Buf (Elt F) ((c : Thread nD τ).loc b) := fun c b => Gen.V11 m (outsA m) c b

/-- What region 1 leaves in its output array: its proof data's write-backs folded over all 5 points. -/
def out1 (c : Dev nD) : Buf (Elt F) ((c : Thread nD τ).loc main_v25) := (Fc2.dat1 (Vin1 m) c).arrAt 3 cfg1.N

/-- The unknowns: after item 11 region 1's output, elsewhere as `outsA`. -/
def outs : Gen.Outs (F := F)
  | 12 => fun r c => Function.update (junk m c) main_v25 (out1 m c) r
  | J => outsA m J

theorem outs_6 (c : Dev nD) : outs m 6 main_v3 c = out0 m c :=
  Function.update_self (β := fun r : Ref sig .tc => Buf (Elt F) ((c : Thread nD τ).loc r)) main_v3 (out0 m c) (junk m c)

theorem outs_12 (c : Dev nD) : outs m 12 main_v25 c = out1 m c :=
  Function.update_self (β := fun r : Ref sig .tc => Buf (Elt F) ((c : Thread nD τ).loc r)) main_v25 (out1 m c) (junk m c)

/-- The valuation before region 1 reads the unknowns at one place only: region 0's output. -/
theorem V11_congr (o o' : Gen.Outs (F := F)) (c : Dev nD) (h : o 6 main_v3 c = o' 6 main_v3 c) :
    Gen.V11 m o c = Gen.V11 m o' c := by
  show StableHlo.after hostOps1_4 (StableHlo.after hostOps1_3 (StableHlo.after hostOps1_2 (StableHlo.after hostOps1_1
    (StableHlo.after hostOps1 (Function.update (Gen.V5 m c) main_v3 (o 6 main_v3 c)))))) = _
  rw [h]

theorem V11_outs (c : Dev nD) : Gen.V11 m (outs m) c = Gen.V11 m (outsA m) c :=
  V11_congr m (outs m) (outsA m) c rfl

/-- Region 0's exit contents and region 1's, read at the TensorCore's references. -/
abbrev Vout0 : (c : Dev nD) → (b : Ref sig .tc) → Buf (Elt F) ((c : Thread nD τ).loc b) := fun c b => Gen.V6 m (outs m) c b
abbrev Vout1 : (c : Dev nD) → (b : Ref sig .tc) → Buf (Elt F) ((c : Thread nD τ).loc b) := fun c b => Gen.V12 m (outs m) c b

/-! ### Each region's arrays at its exit: the three inputs as entered, the output as folded -/

theorem exit_arr0 (c : Dev nD) : ∀ w : Fin 4, (Fc1.dat0 (Vin0 m) c).arrAt w cfg0.N = Vout0 m c (Pipeline.arrRef spec0 w)
  | 0 => ((Fc1.dat0 (Vin0 m) c).arrAt_in 0 rfl _).trans <| (Fc1.A_eq0 (Vin0 m) c 0).trans (Gen.V6_of m (outs m) c main_v0 (by decide)).symm
  | 1 => ((Fc1.dat0 (Vin0 m) c).arrAt_in 1 rfl _).trans <| (Fc1.A_eq0 (Vin0 m) c 1).trans (Gen.V6_of m (outs m) c main_v1 (by decide)).symm
  | 2 => ((Fc1.dat0 (Vin0 m) c).arrAt_in 2 rfl _).trans <| (Fc1.A_eq0 (Vin0 m) c 2).trans (Gen.V6_of m (outs m) c main_v2 (by decide)).symm
  | 3 => (outs_6 m c).symm.trans (Function.update_self (β := fun b : DevRef τ sig => b.ty.Contents (Elt F)) (Proc.devRef .tc main_v3) (outs m 6 main_v3 c) (Gen.V5 m c)).symm
  | ⟨_ + 4, h⟩ => absurd h (Nat.not_lt.2 (Nat.le_add_left _ _))

theorem exit_rest0 (c : Dev nD) (b : Ref sig .tc) (hb : b ∉ Finset.univ.image (Pipeline.arrRef spec0)) : Vout0 m c b = Vin0 m c b :=
  Gen.V6_of m (outs m) c b fun h => hb (Finset.mem_image.mpr ⟨3, Finset.mem_univ _, (List.mem_singleton.mp h).symm⟩)

theorem exit_arr1 (c : Dev nD) : ∀ w : Fin 4, (Fc2.dat1 (Vin1 m) c).arrAt w cfg1.N = Vout1 m c (Pipeline.arrRef spec1 w)
  | 0 => ((Fc2.dat1 (Vin1 m) c).arrAt_in 0 rfl _).trans <| (Fc2.A_eq1 (Vin1 m) c 0).trans <|
      (congrFun (V11_outs m c) (Proc.devRef .tc main_v3)).symm.trans (Gen.V12_of m (outs m) c main_v3 (by decide)).symm
  | 1 => ((Fc2.dat1 (Vin1 m) c).arrAt_in 1 rfl _).trans <| (Fc2.A_eq1 (Vin1 m) c 1).trans <|
      (congrFun (V11_outs m c) (Proc.devRef .tc main_v22)).symm.trans (Gen.V12_of m (outs m) c main_v22 (by decide)).symm
  | 2 => ((Fc2.dat1 (Vin1 m) c).arrAt_in 2 rfl _).trans <| (Fc2.A_eq1 (Vin1 m) c 2).trans <|
      (congrFun (V11_outs m c) (Proc.devRef .tc main_v24)).symm.trans (Gen.V12_of m (outs m) c main_v24 (by decide)).symm
  | 3 => (outs_12 m c).symm.trans (Function.update_self (β := fun b : DevRef τ sig => b.ty.Contents (Elt F)) (Proc.devRef .tc main_v25) (outs m 12 main_v25 c) (Gen.V11 m (outs m) c)).symm
  | ⟨_ + 4, h⟩ => absurd h (Nat.not_lt.2 (Nat.le_add_left _ _))

theorem exit_rest1 (c : Dev nD) (b : Ref sig .tc) (hb : b ∉ Finset.univ.image (Pipeline.arrRef spec1)) : Vout1 m c b = Vin1 m c b :=
  (Gen.V12_of m (outs m) c b fun h => hb (Finset.mem_image.mpr ⟨3, Finset.mem_univ _, (List.mem_singleton.mp h).symm⟩)).trans
    (congrFun (V11_outs m c) (Proc.devRef .tc b))

/-! ## The thread state beside the buffers, and the proof data -/

/-- Both pipelines' proof data, each at its region's entry contents. -/
def pdats : (p : Fin 2) → (c : Dev nD) → Dat τ (Elt F) Unit ℕ (UR sig nD τ) ℕ (cfgs p) c
  | ⟨0, _⟩ => fun c => Fc1.dat0 (Vin0 m) c
  | ⟨1, _⟩ => fun c => Fc2.dat1 (Vin1 m) c

/-- No core waits on another: no pair carries a level. -/
abbrev L : GSem nD τ sig → Finset Unit := fun _ => ∅
abbrev lv : GSem nD τ sig → Unit → ℕ := fun _ _ => 0

/-- Beside the buffers before region 0: the generator register at some state, and nothing owed with no pair recorded
    (the launch's, which no host stretch touches). -/
abbrev R₀ (c : Dev nD) : sProp 𝕄 :=
  iprop((∃ r, prngReg c r) ∗ owes (c : Thread nD τ) (0 : CellTallies nD τ sig Unit) ∅)
/-- Beside the buffers after a region: the generator register at some state, nothing owed. -/
abbrev R (c : Dev nD) : sProp 𝕄 :=
  iprop((∃ r, prngReg c r) ∗ ∃ W, owes (c : Thread nD τ) (0 : CellTallies nD τ sig Unit) W)
/-- The three rests: before region 0, between the regions, after region 1. -/
abbrev E : Fin 3 → Dev nD → sProp 𝕄
  | 0 => R₀
  | _ => R

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0. Entered with every unscoped buffer at the contents after the fifth host stretch: its four arrays are
    split off, the rest bypasses it; the generator register and the scoped buffers make the class invariant, from
    which the proof data's own invariant starts and to which it returns. Left with the arrays put back: the three
    inputs unchanged, `main_v3` at `out0`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (Fc1.body_obligation0 (Vin0 m) c).loose
  hwaits := Pipeline.hwaits_of_owed_zero _ _ _ _ L lv 0 fun c t => Fc1.owed_eq0 (Vin0 m) c t
  pre c := iprop(StableHlo.held (c : Thread nD τ) (Pipeline.ucRefs τ sig) (Gen.V5 m c) ∗ R₀ c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    have hsplit := Pipeline.arrays_of_unscopedBufs (p := 0) (pcfgs (F := F)) Gen.adm (pdats m) launch0.win launch0.arr_whole c
      ((pdats m 0 c).share_full fun w => Fc1.q_eq0 (Vin0 m) c w) (Vin0 m c) fun w => Fc1.A_eq0 (Vin0 m) c w
    rw [Pipeline.unscopedBufs_held] at hsplit
    have howes := owes_enter_empty (pdats m 0 c) (Fc1.owed_eq0 (Vin0 m) c 0)
    iintro ⟨⟨Hbufs, Hgen, Howes⟩, -⟩
    ihave Hsp := hsplit $$ Hbufs
    icases Hsp with ⟨Harr, Hrest⟩
    ihave Ho := howes $$ Howes
    imodintro
    isplitl [Harr]
    · iexact Harr
    isplitr
    · unfold Pipeline.prefHeld
      rw [show (Finset.univ : Finset (Fin 0)) = ∅ from rfl, BI.bigSep_empty]
      iempintro
    isplitl [Ho]
    · iexact Ho
    isplitl [Hgen]
    · iexact Hgen
    · iexact Hrest
  hin c := (classInv_intro spec0 c _).trans (Fc1.hin0 (Vin0 m) c)
  hout c := by
    rw [Pipeline.ownSems0_none]
    exact (Fc1.hout0 (Vin0 m) c).trans (classInv_elim spec0 c)
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => Fc1.q_eq0 (Vin0 m) c w)
      (Vin0 m c) (Vout0 m c) ((pdats m 0 c).arrAt · cfg0.N) (exit_arr0 m c) (exit_rest0 m c)
    rw [Pipeline.unscopedBufs_held] at hjoin
    have howes := owes_leave (pdats m 0 c) (Fc1.owed_eq0 (Vin0 m) c (Fin.last cfg0.N))
    iintro ⟨Harr, Ho, Hgen, Hrest⟩
    ihave Hb := hjoin $$ [Harr Hrest]
    · isplitl [Harr]
      · iexact Harr
      · iexact Hrest
    ihave Ho' := howes $$ Ho
    imodintro
    isplitl [Hb]
    · iexact Hb
    isplitl [Hgen]
    · iexact Hgen
    · iexact Ho'

set_option backward.isDefEq.respectTransparency.types false in
/-- REGION 1. Entered with every unscoped buffer at the contents after the tenth host stretch (which read the unknowns
    only at region 0's output, so the two ways of writing them agree); it keeps the class invariant. Left with the
    arrays put back: the three inputs unchanged, `main_v25` at `out1`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (Fc2.body_obligation1 (Vin1 m) c).loose
  hwaits := Pipeline.hwaits_of_owed_zero _ _ _ _ L lv 1 fun _ _ => rfl
  pre c := iprop(StableHlo.held (c : Thread nD τ) (Pipeline.ucRefs τ sig) (Gen.V11 m (outsA m) c) ∗ R c)
  post c := iprop(StableHlo.held (c : Thread nD τ) (Pipeline.ucRefs τ sig) (Gen.V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    have hsplit := Pipeline.arrays_of_unscopedBufs (p := 1) (pcfgs (F := F)) Gen.adm (pdats m) launch1.win launch1.arr_whole c
      ((pdats m 1 c).share_full fun _ => rfl) (Vin1 m c) fun w => Fc2.A_eq1 (Vin1 m) c w
    rw [Pipeline.unscopedBufs_held] at hsplit
    have howes := owes_enter_univ (pdats m 1 c) rfl rfl
    iintro ⟨⟨Hbufs, Hgen, Howes⟩, -⟩
    ihave Hsp := hsplit $$ Hbufs
    icases Hsp with ⟨Harr, Hrest⟩
    ihave Ho := howes $$ Howes
    imodintro
    isplitl [Harr]
    · iexact Harr
    isplitr
    · unfold Pipeline.prefHeld
      rw [show (Finset.univ : Finset (Fin 0)) = ∅ from rfl, BI.bigSep_empty]
      iempintro
    isplitl [Ho]
    · iexact Ho
    isplitl [Hgen]
    · iexact Hgen
    · iexact Hrest
  hin c := classInv_intro spec1 c _
  hout c := by
    rw [Pipeline.ownSems0_none]
    exact classInv_elim spec1 c
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (exit_arr1 m c) (exit_rest1 m c)
    rw [Pipeline.unscopedBufs_held] at hjoin
    have howes := owes_leave (pdats m 1 c) rfl
    iintro ⟨Harr, Ho, Hgen, Hrest⟩
    ihave Hb := hjoin $$ [Harr Hrest]
    · isplitl [Harr]
      · iexact Harr
      · iexact Hrest
    ihave Ho' := howes $$ Ho
    imodintro
    isplitl [Hb]
    · iexact Hb
    isplitl [Hgen]
    · iexact Hgen
    · iexact Ho'

/-- Between the regions the thread state is written over `outs`; region 1 is entered over `outsA`: the same contents. -/
theorem enter1 (c : Dev nD) :
    (iprop(StableHlo.held (c : Thread nD τ) (Pipeline.ucRefs τ sig) (Gen.V11 m (outs m) c) ∗ R c) : sProp 𝕄)
      ⊢ iprop(StableHlo.held (c : Thread nD τ) (Pipeline.ucRefs τ sig) (Gen.V11 m (outsA m) c) ∗ R c) := by
  rw [V11_outs m c]

/-! ## The launch, the chain, and the last state read back -/

/-- After region 1 what rides beside the buffers still says that nothing is owed. -/
theorem R_owes (c : Dev nD) :
    (R c : sProp 𝕄) ⊢ iprop(∃ W, owes (c : Thread nD τ) (0 : CellTallies nD τ sig Unit) W) := by
  iintro ⟨-, H⟩
  iexact H

/-- The launch element is the pipeline library's own; no core gets a ghost resource besides. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  -- with the whole user algebra the library's own component, owning an element of it is owning its embedding
  have hown : (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) := .rfl
  refine hown.trans ?_
  iintro Hown
  imodintro
  isplitl [Hown]
  · iexact Hown
  · iempintro

set_option backward.isDefEq.respectTransparency.types false in
/-- THE RUN. From any memory with zero counters every weakly fair execution of @main terminates, and in every final
    memory each unscoped buffer of each core holds the last valuation: the launch memory pushed through the thirteen
    items, the two regions' outputs at `out0` and `out1`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Gen.V13 m (outs m) c b) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Pipeline.Seg.run_eq_chain,
        show (Gen.segs m (outs m) Variants.none L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := launch_elt)
    (T₀ := fun c => iprop(StableHlo.held (c : Thread nD τ) (Pipeline.ucRefs τ sig) (Gen.V0 m c) ∗ R₀ c))
    (Tₙ := fun c => StableHlo.held (c : Thread nD τ) (Pipeline.ucRefs τ sig) (Gen.V13 m (outs m) c))
    (hch := fun c => ⟨.rfl, .rfl, .rfl, .rfl, .rfl, .rfl, .rfl, .rfl, .rfl, .rfl, .rfl, enter1 m c, .rfl, sep_mono .rfl (R_owes c)⟩)
    (hinit := ?_)
    (QY := fun c s => ∀ b ∈ Pipeline.ucRefs τ sig, s.mem (((c : Thread nD τ)).1, b) = Gen.V13 m (outs m) c b)
    (hfin := fun c s' => ?_) (hQ := fun _ h => h)
  · -- every core at once: its unscoped buffers are held at the launch valuation; of the rest the generator register
    -- and the empty debt are kept
    refine Pipeline.initEach L lv fun c => ?_
    rw [← Pipeline.unscopedBufs_held (Ix := Unit) (Name := ℕ) (U := UR sig nD τ) (Lvl := ℕ) c (Gen.V0 m c)]
    iintro ⟨⟨Hbufs, -, Howes, -, Hgen, -⟩, -⟩
    imodintro
    isplitl [Hbufs]
    · iexact Hbufs
    isplitl [Hgen]
    · iexists _
      iexact Hgen
    · iexact Howes
  · -- the buffers held at the last valuation, beside a final state, say what its memory holds
    unfold StableHlo.held
    iintro ⟨Hh, HSI⟩
    ihave Hr := (pointsTo_read_all (Pipeline.ucRefs τ sig) (fun b => ((c : Thread nD τ).1, b)) (Gen.V13 m (outs m) c) s') $$ [Hh HSI]
    · isplitl [Hh] <;> iassumption
    icases Hr with ⟨%h, HSI⟩
    imodintro
    isplitr
    · ipureintro
      exact h
    · iexact HSI

/-- THE FRAME: every argument array ends as launched — no host stretch writes one and no region's output is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c)⟩) (run_all m ρ)

/-- info: 'Cert.KernelIdeal.Run.run_all' depends on axioms: [propext, Classical.choice, Quot.sound] -/
#guard_msgs in #print axioms run_all
/-- info: 'Cert.KernelIdeal.Run.frame' depends on axioms: [propext, Classical.choice, Quot.sound] -/
#guard_msgs in #print axioms frame

end Cert.KernelIdeal.Run

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibTransMatmul.lean ====
/-
  A KERNEL'S MATRIX PRODUCT WITH THE WEIGHT'S LAST AXIS CONTRACTED (x · Wᵀ), AND A DENSE LAYER OVER IT, AT AN ENTRY.

  A matrix product of an [M, K] block with an [N, K] block that contracts the last axis of both, accumulated into the
  zero block, has at (r, q) the sum over k of the left block's (r, k) times the right block's (q, k). A dense layer adds to
  it a bias row [1, N] repeated down the M rows: at (r, q) that adds the bias row's entry q.
-/
import proofs.«180185_j54073638256944_1_alg».proof.Proof.LibTransDot
import Idealize.ShloMosaic.Lib.ValueLayout

noncomputable section

open scoped BigOperators

namespace Cert.Lib

open Idealize.ShloMosaic Idealize.ShloMosaic.ValueIdx

variable {M K N : Nat} (d : DotDims ⟨2, ![M, K]⟩ ⟨2, ![N, K]⟩ ⟨2, ![M, N]⟩)

/-- x · Wᵀ into the zero block at (r, q): the sum over k of x (r, k) · W (q, k). -/
theorem matmul_t2_zero_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q) = ∑ k : Fin K, a (ix2 r k) * b (ix2 q k) :=
  (Ideal.matmul_constant_zero_apply d prec a b (ix2 r q)).trans
    (sum_contr_t2 d hl hr hln hrn hlb hrb (fun i j => a i * b j) r q)

/-- A dense layer x · Wᵀ + b at (r, q): the contraction sum plus the bias row's entry q. -/
theorem dense_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (bias : FVec Ideal ⟨2, ![1, N]⟩ .f32) (hb : (⟨2, ![1, N]⟩ : Shape).Broadcasts ⟨2, ![M, N]⟩) (r : Fin M) (q : Fin N) :
    addf (matmul d prec a b (constant (F := Ideal) ⟨2, ![M, N]⟩ .f32 0x00000000#32)) (broadcastTo ⟨2, ![M, N]⟩ bias hb) (ix2 r q)
      = (∑ k : Fin K, a (ix2 r k) * b (ix2 q k)) + bias (ix2 (0 : Fin 1) q) :=
  congrArg₂ (· + ·) (matmul_t2_zero_at d hl hr hln hrn hlb hrb prec a b r q) (broadcastTo_1b_ab_apply bias hb r q)

end Cert.Lib

end
-- ==== Proof.Fc1Pay.lean ====
/-
  The arithmetic of one point of region 0, read entry by entry over the extended reals. The reset block is zero; the
  accumulation step adds to the carried block, at (p, q), the sum over the tile's 2944 columns r of x(p, r) · w1(q, r)
  (the rounding of the two operands to a narrower format is the identity here); the final step adds the bias row's
  entry q and clamps the sum below at zero.
-/
import proofs.«180185_j54073638256944_1_alg».proof.Proof.Gen.KernelIdeal.Skeleton
import proofs.«180185_j54073638256944_1_alg».proof.Proof.LibTransMatmul
import Idealize.ShloMosaic.Lib.Pipeline.Value
import Idealize.ShloMosaic.Lib.ValueLayout
import Idealize.ShloMosaic.PureOps.Ideal.Laws

noncomputable section

open scoped BigOperators

namespace Cert.KernelIdeal.Fc1Pay

open Cert.KernelIdeal Cert.KernelIdeal.Gen Idealize.ShloMosaic Idealize.ShloMosaic.ValueIdx

/-- The block the scratch is reset to is zero everywhere. -/
theorem pay1_apply (j : S128x512.Idx) : k0_pay1 (F := Ideal) j = 0 := by
  unfold k0_pay1
  refine (congrFun (shapeCast_self _ _) _).trans ?_
  exact Ideal.ofBits_zero_f32

/-- One accumulation step at (p, q): the carried entry plus the tile's product entry. -/
theorem pay2_apply (v3 : Vec Ideal S128x2944 .f32) (v6 : Vec Ideal S512x2944 .f32) (v9 : Vec Ideal S128x512 .f32)
    (p : Fin 128) (q : Fin 512) :
    k0_pay2 (F := Ideal) v3 v6 v9 (ix2 p q) = v9 (ix2 p q) + ∑ r : Fin 2944, v3 (ix2 p r) * v6 (ix2 q r) := by
  unfold k0_pay2
  refine (congrFun (shapeCast_self _ _) _).trans ?_
  refine congrArg (v9 (ix2 p q) + ·) ?_
  refine (Cert.Lib.matmul_t2_zero_at dot_S128x2944_S512x2944_S128x512_1_1_0_0_n_n rfl rfl rfl rfl rfl rfl none _ _ p q).trans ?_
  refine Finset.sum_congr rfl fun r _ => ?_
  show shapeCast S128x2944 v3 shapeCasts_S128x2944_S128x2944 (ix2 p r) * shapeCast S512x2944 v6 shapeCasts_S512x2944_S512x2944 (ix2 q r) = _
  rw [shapeCast_self, shapeCast_self]

/-- The final step at (p, q): the accumulated entry plus the bias row's entry q, clamped below at zero. -/
theorem pay3_apply (v18 : Vec Ideal S128x512 .f32) (v19 : Vec Ideal S1x512 .f32) (p : Fin 128) (q : Fin 512) :
    k0_pay3 (F := Ideal) v18 v19 (ix2 p q) = max (v18 (ix2 p q) + v19 (ix2 (0 : Fin 1) q)) 0 := by
  unfold k0_pay3
  show max (v18 (ix2 p q) + broadcastTo S128x512 (shapeCast S1x512 v19 shapeCasts_S1x512_S1x512) broadcasts_S1x512_S128x512 (ix2 p q))
    (Ideal.ofBits .f32 0x00000000#32) = _
  rw [broadcastTo_1b_ab_apply, shapeCast_self, Ideal.ofBits_zero_f32]

end Cert.KernelIdeal.Fc1Pay

end
-- ==== Proof.SumAlgebra.lean ====
/-
  Regrouping finite sums over the extended reals. Addition there is commutative and associative and has the
  neutral element 0, so every statement here holds in any additive commutative monoid and none needs finiteness.

  * a sum over 100096 terms whose last 96 vanish is the sum of the first 100000;
  * a sum over 100096 = 34 · 2944 terms is the sum over 34 consecutive tiles of 2944 terms;
  * an accumulator that starts at 0 + d 0 and adds d (k+1) at step k+1 holds, after step k, the sum of d 0 … d k,
    hence after the last of 34 steps the whole sum.
-/
import Mathlib.Algebra.BigOperators.Fin
import Mathlib.Algebra.BigOperators.Intervals
import Mathlib.Data.EReal.Basic
import Mathlib.Logic.Equiv.Fin.Basic

open scoped BigOperators

namespace Cert.SumAlgebra

variable {M : Type*} [AddCommMonoid M]

/-! ## Dropping a vanishing tail -/

/-- If the terms from position `a` on vanish, a sum of `a + b` terms is the sum of its first `a` terms. -/
theorem sum_drop_tail (a b : ℕ) (f : Fin (a + b) → M) (hz : ∀ j : Fin (a + b), a ≤ j.val → f j = 0) :
    ∑ j : Fin (a + b), f j = ∑ i : Fin a, f ⟨i.val, Nat.lt_add_right b i.isLt⟩ := by
  rw [Fin.sum_trunc f (fun j => hz _ (by simp [Fin.natAdd]))]
  rfl

/-- A sum of 100096 terms whose terms from position 100000 on vanish is the sum of the first 100000. -/
theorem sum_pad (f : Fin 100096 → M) (hz : ∀ j : Fin 100096, 100000 ≤ j.val → f j = 0) :
    ∑ j : Fin 100096, f j = ∑ i : Fin 100000, f ⟨i.val, by have := i.isLt; omega⟩ :=
  sum_drop_tail 100000 96 f hz

/-! ## Summing tile by tile -/

/-- A sum of `K * T` terms taken as `K` consecutive tiles of `T` terms. -/
theorem sum_tiles (K T : ℕ) (f : Fin (K * T) → M) :
    ∑ j : Fin (K * T), f j
      = ∑ k : Fin K, ∑ r : Fin T, f ⟨T * k.val + r.val, by
          have hk := k.isLt; have hr := r.isLt
          calc T * k.val + r.val < T * k.val + T := by omega
            _ = T * (k.val + 1) := by ring
            _ ≤ T * K := Nat.mul_le_mul_left T hk
            _ = K * T := Nat.mul_comm T K⟩ := by
  rw [← Equiv.sum_comp (finProdFinEquiv (m := K) (n := T)) f, Fintype.sum_prod_type]
  refine Finset.sum_congr rfl fun k _ => Finset.sum_congr rfl fun r _ => ?_
  exact congrArg f (Fin.ext (by show r.val + T * k.val = T * k.val + r.val; omega))

/-- A sum of 100096 terms taken as 34 consecutive tiles of 2944 terms. -/
theorem sum_tiles_34 (f : Fin 100096 → M) :
    ∑ j : Fin 100096, f j
      = ∑ k : Fin 34, ∑ r : Fin 2944, f ⟨2944 * k.val + r.val, by have := k.isLt; have := r.isLt; omega⟩ :=
  sum_tiles 34 2944 f

/-- Both steps together: the sum of the first 100000 terms of a sequence of 100096 terms that vanishes from
    position 100000 on, taken as 34 tiles of 2944 terms of the whole sequence. -/
theorem sum_first_eq_tiles (f : Fin 100096 → M) (hz : ∀ j : Fin 100096, 100000 ≤ j.val → f j = 0) :
    ∑ i : Fin 100000, f ⟨i.val, by have := i.isLt; omega⟩
      = ∑ k : Fin 34, ∑ r : Fin 2944, f ⟨2944 * k.val + r.val, by have := k.isLt; have := r.isLt; omega⟩ :=
  (sum_pad f hz).symm.trans (sum_tiles_34 f)

/-! ## The running accumulator -/

/-- An accumulator `a` with `a 0 = 0 + d 0` and `a (k+1) = a k + d (k+1)` while `k + 1 < n` holds after step
    `k < n` the sum of `d 0, …, d k`. -/
theorem acc_eq_sum_range (n : ℕ) (d a : ℕ → M) (h0 : a 0 = 0 + d 0)
    (hs : ∀ k, k + 1 < n → a (k + 1) = a k + d (k + 1)) :
    ∀ k, k < n → a k = ∑ k' ∈ Finset.range (k + 1), d k' := by
  intro k
  induction k with
  | zero => intro _; rw [h0, zero_add, Finset.sum_range_one]
  | succ k ih =>
    intro hk
    rw [hs k hk, ih (Nat.lt_of_succ_lt hk), Finset.sum_range_succ _ (k + 1)]

/-- After the last of 34 steps the accumulator holds the whole sum. -/
theorem acc_last_34 (d a : ℕ → M) (h0 : a 0 = 0 + d 0)
    (hs : ∀ k, k + 1 < 34 → a (k + 1) = a k + d (k + 1)) :
    a 33 = ∑ k : Fin 34, d k.val := by
  rw [acc_eq_sum_range 34 d a h0 hs 33 (by omega), Finset.sum_range]

/-- The same over steps indexed by `Fin 34`. -/
theorem acc_last_34_fin (d a : Fin 34 → M) (h0 : a 0 = 0 + d 0)
    (hs : ∀ (k : ℕ) (h : k + 1 < 34), a ⟨k + 1, h⟩ = a ⟨k, Nat.lt_of_succ_lt h⟩ + d ⟨k + 1, h⟩) :
    a 33 = ∑ k : Fin 34, d k := by
  have key := acc_last_34 (M := M) (fun k => if h : k < 34 then d ⟨k, h⟩ else 0)
    (fun k => if h : k < 34 then a ⟨k, h⟩ else 0)
    (by simp only [show (0 : ℕ) < 34 by omega, dite_true]; exact h0)
    (fun k hk => by
      have hk' : k < 34 := Nat.lt_of_succ_lt hk
      simp only [hk, hk', dite_true]
      exact hs k hk)
  simp only [show (33 : ℕ) < 34 by omega, dite_true] at key
  rw [show (33 : Fin 34) = ⟨33, by omega⟩ from rfl, key]
  refine Finset.sum_congr rfl fun k _ => ?_
  simp only [k.isLt, dite_true]

end Cert.SumAlgebra
-- ==== Proof.Fc1Value.lean ====
/-
  Region 0 read as values. What each control case's stores leave is the step's arithmetic of the point's blocks; so
  after the point (i, k) the scratch holds the sum over the tiles 0 … k of the products of row tile i of x with the
  tiles of w1, and the block stored at k = 33 is that sum over all 34 tiles plus the bias, clamped below at zero.
  The 34 tiles of 2944 columns are the 100096 padded columns, and the two stored blocks are rows 0 … 127 and
  128 … 255: the output array ends at relu(x · w1ᵀ + b1) of the padded arrays, entry by entry.
-/
import proofs.«180185_j54073638256944_1_alg».proof.Proof.Fc1Body
import Idealize.ShloMosaic.Lib.ValueIdx
import proofs.«180185_j54073638256944_1_alg».proof.Proof.Fc1Pay
import proofs.«180185_j54073638256944_1_alg».proof.Proof.SumAlgebra
import Idealize.ShloMosaic.Lib.Pipeline.Value
import Idealize.ShloMosaic.Lib.Tactic

set_option maxRecDepth 16384

noncomputable section

open scoped BigOperators

namespace Cert.KernelIdeal.Fc1Value

open Cert.KernelIdeal Cert.KernelIdeal.Gen Cert.KernelIdeal.Fc1
open Idealize.ShloMosaic Idealize.ShloMosaic.TcCoe Idealize.ShloMosaic.Tactic Idealize.SL.Sem Idealize.ShloMosaic.ValueIdx
open Idealize.ShloMosaic.Pipeline (Dat)

variable {F : FTy → Type} [FloatOps F]

theorem hz : (![0, 0] : Fin 2 → Nat) = fun _ => 0 := funext fun a => by fin_cases a <;> rfl

/-! ## What each case's stores leave, as the step's arithmetic of the blocks (any float values) -/

/-- 0 < k < 33: the scratch ends at one accumulation step over what it held. -/
theorem sout_B (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : ¬cond0_1 i) (x0 : Vec F S128x2944 .f32) (x1 : Vec F S512x2944 .f32) (x2 : Vec F S1x512 .f32) (xs0 : Vec F S128x512 .f32) :
    sout0_B c i arg2 harg2 arg3 harg3 arg4 harg4 arg5 harg5 arg6 harg6 hc0 hc1 x0 x1 x2 xs0 = k0_pay2 x0 x1 xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg4.read_unread, harg6.read_unread, View.ld_unit_zero (S := S128x2944) hz, View.ld_unit_zero (S := S512x2944) hz, View.ld_unit_zero (S := S128x512) hz, View.ld_unit_zero (S := S1x512) hz]

/-- k = 0: the scratch ends at one accumulation step over the zero block. -/
theorem sout_A (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond0_0 i) (hc1 : ¬cond0_1 i) (x0 : Vec F S128x2944 .f32) (x1 : Vec F S512x2944 .f32) (x2 : Vec F S1x512 .f32) :
    sout0_A c i arg2 harg2 arg3 harg3 arg4 harg4 arg5 harg5 arg6 harg6 hc0 hc1 x0 x1 x2 = k0_pay2 x0 x1 k0_pay1 := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S128x512) hz, View.readCov_unit_zero (S := S128x512) _ hz]
  simp only [View.readAt_eq_ld, harg2.read_unread, harg3.read_unread, harg4.read_unread, harg6.read_unread, View.ld_unit_zero (S := S128x2944) hz, View.ld_unit_zero (S := S512x2944) hz, View.ld_unit_zero (S := S128x512) hz, View.ld_unit_zero (S := S1x512) hz]

/-- k = 33: the scratch ends at one accumulation step over what it held, -/
theorem sout_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i) (x0 : Vec F S128x2944 .f32) (x1 : Vec F S512x2944 .f32) (x2 : Vec F S1x512 .f32) (xs0 : Vec F S128x512 .f32) :
    sout0_C c i arg2 harg2 arg3 harg3 arg4 harg4 arg5 harg5 arg6 harg6 hc0 hc1 x0 x1 x2 xs0 = k0_pay2 x0 x1 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S128x2944) hz, View.ld_unit_zero (S := S512x2944) hz, View.ld_unit_zero (S := S128x512) hz, View.ld_unit_zero (S := S1x512) hz]

/-- and the output block at the final step applied to that. -/
theorem out_C (c : Dev nD) (i : grid0.Coords) (arg2 : Memref sig .tc .vmem S128x2944 .f32) (harg2 : arg2.IsWhole) (arg3 : Memref sig .tc .vmem S512x2944 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond0_0 i) (hc1 : cond0_1 i) (x0 : Vec F S128x2944 .f32) (x1 : Vec F S512x2944 .f32) (x2 : Vec F S1x512 .f32) (xs0 : Vec F S128x512 .f32) :
    out0_C c i arg2 harg2 arg3 harg3 arg4 harg4 arg5 harg5 arg6 harg6 hc0 hc1 x0 x1 x2 xs0 = k0_pay3 (k0_pay2 x0 x1 xs0) x2 := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S128x512) _ hz]
  simp only [View.readAt_eq_ld, harg2.read_unread, harg3.read_unread, harg4.read_unread, harg6.read_unread, View.ld_unit_zero (S := S128x2944) hz, View.ld_unit_zero (S := S512x2944) hz, View.ld_unit_zero (S := S128x512) hz, View.ld_unit_zero (S := S1x512) hz]

/-! ## The blocks against the whole arrays, at the extended reals -/

section AtIdeal

variable (V : (c : Dev nD) → (b : Ref sig .tc) → Buf (Elt Ideal) ((c : Thread nD τ).loc b))

/-- The three operand arrays as the region finds them: x and w1 padded with zero columns to 100096, the bias as one row. -/
abbrev Xa (c : Dev nD) : S256x100096.Idx → EReal := V c main_v0
abbrev Wa (c : Dev nD) : S512x100096.Idx → EReal := V c main_v1
abbrev Ba (c : Dev nD) : S1x512.Idx → EReal := V c main_v2

/-- Point t = 34·i + k holds row tile i and column tile k: the windows' block indices, decided over the grid. -/
theorem idx_x : ∀ t : Fin cfg0.N, win0_0.index t (0 : Fin 2) = t.val / 34 ∧ win0_0.index t (1 : Fin 2) = t.val % 34 :=
  (by decide +kernel : ∀ t : Fin grid0.N, _)
theorem idx_w : ∀ t : Fin cfg0.N, win0_1.index t (0 : Fin 2) = 0 ∧ win0_1.index t (1 : Fin 2) = t.val % 34 :=
  (by decide +kernel : ∀ t : Fin grid0.N, _)
theorem idx_b : ∀ t : Fin cfg0.N, win0_2.index t (0 : Fin 2) = 0 ∧ win0_2.index t (1 : Fin 2) = 0 :=
  (by decide +kernel : ∀ t : Fin grid0.N, _)
theorem idx_o : ∀ t : Fin cfg0.N, win0_3.index t (0 : Fin 2) = t.val / 34 ∧ win0_3.index t (1 : Fin 2) = 0 :=
  (by decide +kernel : ∀ t : Fin grid0.N, _)

/-- x's block at point t, entry (p, r), is x at row 128·(t / 34) + p, column 2944·(t % 34) + r. -/
theorem xblk_apply (c : Dev nD) (t : Fin cfg0.N) (p : Fin 128) (r : Fin 2944)
    (hb0 : 128 * (t.val / 34) + p.val < 256) (hb1 : 2944 * (t.val % 34) + r.val < 100096) :
    (iblk0 V c 0 t : Vec Ideal S128x2944 .f32) (ix2 p r) = Xa V c (ix2 ⟨_, hb0⟩ ⟨_, hb1⟩) := by
  unfold iblk0
  rw [View.read_apply]
  show Xa V c (((cfg0.win 0).blk t).view.emb (ix2 p r)) = Xa V c _
  refine congrArg (Xa V c) ?_
  obtain ⟨e0, e1⟩ := idx_x t
  funext a; apply Fin.ext
  match a with
  | ⟨0, _⟩ => show win0_0.index t (0 : Fin 2) * 128 + 1 * p.val = 128 * (t.val / 34) + p.val; omega
  | ⟨1, _⟩ => show win0_0.index t (1 : Fin 2) * 2944 + 1 * r.val = 2944 * (t.val % 34) + r.val; omega

/-- w1's block at point t, entry (q, r), is w1 at row q, column 2944·(t % 34) + r. -/
theorem wblk_apply (c : Dev nD) (t : Fin cfg0.N) (q : Fin 512) (r : Fin 2944)
    (hb1 : 2944 * (t.val % 34) + r.val < 100096) :
    (iblk0 V c 1 t : Vec Ideal S512x2944 .f32) (ix2 q r) = Wa V c (ix2 q ⟨_, hb1⟩) := by
  unfold iblk0
  rw [View.read_apply]
  show Wa V c (((cfg0.win 1).blk t).view.emb (ix2 q r)) = Wa V c _
  refine congrArg (Wa V c) ?_
  obtain ⟨e0, e1⟩ := idx_w t
  funext a; apply Fin.ext
  match a with
  | ⟨0, _⟩ => show win0_1.index t (0 : Fin 2) * 512 + 1 * q.val = q.val; omega
  | ⟨1, _⟩ => show win0_1.index t (1 : Fin 2) * 2944 + 1 * r.val = 2944 * (t.val % 34) + r.val; omega

/-- The bias block is the bias row at every point. -/
theorem bblk_apply (c : Dev nD) (t : Fin cfg0.N) (q : Fin 512) :
    (iblk0 V c 2 t : Vec Ideal S1x512 .f32) (ix2 (0 : Fin 1) q) = Ba V c (ix2 (0 : Fin 1) q) := by
  unfold iblk0
  rw [View.read_apply]
  show Ba V c (((cfg0.win 2).blk t).view.emb (ix2 (0 : Fin 1) q)) = Ba V c _
  refine congrArg (Ba V c) ?_
  obtain ⟨e0, e1⟩ := idx_b t
  funext a; apply Fin.ext
  match a with
  | ⟨0, _⟩ => show win0_2.index t (0 : Fin 2) * 1 + 1 * 0 = 0; omega
  | ⟨1, _⟩ => show win0_2.index t (1 : Fin 2) * 512 + 1 * q.val = q.val; omega

/-! ## The accumulation over the 34 column tiles -/

/-- Point t's three input blocks, as arrays of extended reals. -/
abbrev xb (c : Dev nD) (t : Fin cfg0.N) : S128x2944.Idx → EReal := iblk0 V c 0 t
abbrev wb (c : Dev nD) (t : Fin cfg0.N) : S512x2944.Idx → EReal := iblk0 V c 1 t
abbrev bb (c : Dev nD) (t : Fin cfg0.N) : S1x512.Idx → EReal := iblk0 V c 2 t

/-- The product of point t's two blocks at (p, q): the sum over the tile's columns. -/
def tileDot (c : Dev nD) (t : Fin cfg0.N) (p : Fin 128) (q : Fin 512) : EReal :=
  ∑ r : Fin 2944, xb V c t (ix2 p r) * wb V c t (ix2 q r)

theorem outsAt0_congr (c : Dev nD) (n n' : ℕ) (e : n = n') (h : n < cfg0.N) (h' : n' < cfg0.N) :
    outsAt0 V c n h = outsAt0 V c n' h' := by subst e; rfl

set_option maxHeartbeats 1000000 in
/-- At a tile index k = 0 the scratch ends at zero plus the tile's product. -/
theorem acc_first (c : Dev nD) (t : Fin cfg0.N) (h0 : t.val % 34 = 0) (p : Fin 128) (q : Fin 512) :
    (outsAt0 V c t.val t.isLt).2 (ix2 p q) = 0 + tileDot V c t p q := by
  have h1 : ¬t.val % 34 = 33 := by omega
  rw [outsAt0_A V c t h0 h1]
  show sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t) (ix2 p q) = _
  rw [sout_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)]
  exact (Fc1Pay.pay2_apply (xb V c t) (wb V c t) (k0_pay1 (F := Ideal)) p q).trans (by rw [Fc1Pay.pay1_apply]; rfl)

set_option maxHeartbeats 1000000 in
/-- At a tile index k > 0 the scratch ends at what the point before left plus the tile's product. -/
theorem acc_step (c : Dev nD) (t : Fin cfg0.N) (h0 : ¬t.val % 34 = 0) (p : Fin 128) (q : Fin 512) :
    (outsAt0 V c t.val t.isLt).2 (ix2 p q)
      = (outsAt0 V c (t.val - 1) (Nat.lt_of_le_of_lt (Nat.sub_le _ _) t.isLt)).2 (ix2 p q) + tileDot V c t p q := by
  by_cases h1 : t.val % 34 = 33
  · rw [outsAt0_C V c t h0 h1]
    show sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2 (ix2 p q) = _
    rw [sout_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2]
    exact Fc1Pay.pay2_apply (xb V c t) (wb V c t) _ p q
  · rw [outsAt0_B V c t h0 h1]
    show sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2 (ix2 p q) = _
    rw [sout_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2]
    exact Fc1Pay.pay2_apply (xb V c t) (wb V c t) _ p q

/-- Point (i, k) of the grid. -/
def pt (i : Fin 2) (k : Fin 34) : Fin cfg0.N := ⟨34 * i.val + k.val, by have : cfg0.N = 68 := N_0; have := i.isLt; have := k.isLt; omega⟩

/-- After the last tile of row tile i the scratch holds the sum of the 34 tile products. -/
theorem acc_last (c : Dev nD) (i : Fin 2) (p : Fin 128) (q : Fin 512) :
    (outsAt0 V c (pt i 33).val (pt i 33).isLt).2 (ix2 p q) = ∑ k : Fin 34, tileDot V c (pt i k) p q := by
  refine Cert.SumAlgebra.acc_last_34_fin (fun k => tileDot V c (pt i k) p q)
    (fun k => (outsAt0 V c (pt i k).val (pt i k).isLt).2 (ix2 p q)) ?_ ?_
  · exact acc_first V c (pt i 0) (by show (34 * i.val + 0) % 34 = 0; omega) p q
  · intro k h
    have hne : ¬(pt i ⟨k + 1, h⟩).val % 34 = 0 := by show ¬(34 * i.val + (k + 1)) % 34 = 0; omega
    refine (acc_step V c (pt i ⟨k + 1, h⟩) hne p q).trans ?_
    refine congrArg (· + tileDot V c (pt i ⟨k + 1, h⟩) p q) ?_
    exact congrFun (congrArg Prod.snd (outsAt0_congr V c _ _ (by show 34 * i.val + (k + 1) - 1 = 34 * i.val + k; omega) _ _)) _

set_option maxHeartbeats 1000000 in
/-- At a tile index k = 33 the output block is the final step applied to what the scratch ends at. -/
theorem out_pair (c : Dev nD) (t : Fin cfg0.N) (h1 : t.val % 34 = 33) :
    (outsAt0 V c t.val t.isLt).1 = k0_pay3 ((outsAt0 V c t.val t.isLt).2) (iblk0 V c 2 t) := by
  have h0 : ¬t.val % 34 = 0 := by omega
  rw [outsAt0_C V c t h0 h1]
  show out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2
    = k0_pay3 (sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) (iblk0 V c 2 t)
  rw [out_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
    sout_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2]

/-- The output block stored at the last tile: the accumulated sum plus the bias, clamped below at zero. -/
theorem out_last (c : Dev nD) (i : Fin 2) (p : Fin 128) (q : Fin 512) :
    (outsAt0 V c (pt i 33).val (pt i 33).isLt).1 (ix2 p q)
      = max ((∑ k : Fin 34, tileDot V c (pt i k) p q) + Ba V c (ix2 (0 : Fin 1) q)) 0 := by
  have h1 : (pt i 33).val % 34 = 33 := by show (34 * i.val + 33) % 34 = 33; omega
  refine (congrFun (out_pair V c (pt i 33) h1) (ix2 p q)).trans ?_
  refine (Fc1Pay.pay3_apply _ (bb V c (pt i 33)) p q).trans ?_
  rw [acc_last V c i p q]
  exact congrArg (fun z => max ((∑ k : Fin 34, tileDot V c (pt i k) p q) + z) 0) (bblk_apply V c (pt i 33) q)

/-- A tile product in terms of the whole arrays. -/
theorem tileDot_eq (c : Dev nD) (i : Fin 2) (k : Fin 34) (p : Fin 128) (q : Fin 512) :
    tileDot V c (pt i k) p q
      = ∑ r : Fin 2944, Xa V c (ix2 ⟨128 * i.val + p.val, by have := i.isLt; have := p.isLt; omega⟩ ⟨2944 * k.val + r.val, by have := k.isLt; have := r.isLt; omega⟩)
          * Wa V c (ix2 q ⟨2944 * k.val + r.val, by have := k.isLt; have := r.isLt; omega⟩) := by
  unfold tileDot xb wb
  refine Finset.sum_congr rfl fun r _ => ?_
  have hd : (pt i k).val / 34 = i.val := by show (34 * i.val + k.val) / 34 = i.val; have := k.isLt; omega
  have hm : (pt i k).val % 34 = k.val := by show (34 * i.val + k.val) % 34 = k.val; have := k.isLt; omega
  rw [xblk_apply V c (pt i k) p r (by rw [hd]; have := i.isLt; have := p.isLt; omega) (by rw [hm]; have := k.isLt; have := r.isLt; omega),
    wblk_apply V c (pt i k) q r (by rw [hm]; have := k.isLt; have := r.isLt; omega)]
  congr 2 <;> (funext a; apply Fin.ext; match a with | ⟨0, _⟩ => (first | rfl | exact hd ▸ rfl | (show 128 * ((pt i k).val / 34) + p.val = 128 * i.val + p.val; rw [hd])) | ⟨1, _⟩ => (show 2944 * ((pt i k).val % 34) + r.val = 2944 * k.val + r.val; rw [hm]))

end AtIdeal

/-! ## The hidden layer as one function of the padded arrays -/

/-- relu of row b of x against row h of w1 (over all 100096 padded columns) plus the bias. -/
def hAt (X : S256x100096.Idx → EReal) (W : S512x100096.Idx → EReal) (B : S1x512.Idx → EReal) (b : Fin 256) (h : Fin 512) : EReal :=
  max ((∑ j : Fin 100096, X (ix2 b j) * W (ix2 h j)) + B (ix2 (0 : Fin 1) h)) 0

def H0 (X : S256x100096.Idx → EReal) (W : S512x100096.Idx → EReal) (B : S1x512.Idx → EReal) : S256x512.Idx → EReal :=
  fun j => hAt X W B ⟨(j 0).val, idx2_lt0 j⟩ ⟨(j 1).val, idx2_lt1 j⟩

theorem H0_ix2 (X : S256x100096.Idx → EReal) (W : S512x100096.Idx → EReal) (B : S1x512.Idx → EReal) (b : Fin 256) (h : Fin 512) :
    H0 X W B (ix2 b h) = hAt X W B b h := rfl

/-- The sum over the 100096 columns, taken 34 tiles of 2944 at a time. -/
theorem hAt_tiles (X : S256x100096.Idx → EReal) (W : S512x100096.Idx → EReal) (B : S1x512.Idx → EReal) (b : Fin 256) (h : Fin 512) :
    hAt X W B b h = max ((∑ k : Fin 34, ∑ r : Fin 2944,
        X (ix2 b ⟨2944 * k.val + r.val, by have := k.isLt; have := r.isLt; omega⟩) * W (ix2 h ⟨2944 * k.val + r.val, by have := k.isLt; have := r.isLt; omega⟩))
      + B (ix2 (0 : Fin 1) h)) 0 := by
  unfold hAt
  rw [Cert.SumAlgebra.sum_tiles_34 (fun j : Fin 100096 => X (ix2 b j) * W (ix2 h j))]

section AtIdeal2

variable (V : (c : Dev nD) → (b : Ref sig .tc) → Buf (Elt Ideal) ((c : Thread nD τ).loc b))

/-- The output block stored at the last tile of row tile i is the hidden layer's rows 128·i … 128·i + 127. -/
theorem out_point (c : Dev nD) (i : Fin 2) (p : Fin 128) (q : Fin 512) :
    (outsAt0 V c (pt i 33).val (pt i 33).isLt).1 (ix2 p q)
      = H0 (Xa V c) (Wa V c) (Ba V c) (ix2 ⟨128 * i.val + p.val, by have := i.isLt; have := p.isLt; omega⟩ q) := by
  rw [out_last V c i p q, H0_ix2, hAt_tiles]
  refine congrArg (fun s => max (s + Ba V c (ix2 (0 : Fin 1) q)) 0) ?_
  exact Finset.sum_congr rfl fun k _ => tileDot_eq V c i k p q

/-- A flushing point is the last tile of a row tile. -/
theorem pt_of_flush (t : Fin cfg0.N) (h : t.val % 34 = 33) : ∃ i : Fin 2, t = pt i 33 :=
  ⟨⟨t.val / 34, by have : cfg0.N = 68 := N_0; have := t.isLt; omega⟩, Fin.ext (by show t.val = 34 * (t.val / 34) + 33; omega)⟩

/-- WHAT A FLUSHING POINT WRITES BACK is its block of the hidden layer. -/
theorem flushed_eq (c : Dev nD) (t : Fin cfg0.N) (hf : (cfg0.win 3).flush t = true) :
    (dat0 V c).flushed 3 t = ((cfg0.win 3).blk t).view.read (Elt Ideal) (H0 (Xa V c) (Wa V c) (Ba V c)) := by
  have h33 : t.val % 34 = 33 := (flush0_3 t).mp hf
  obtain ⟨i, rfl⟩ := pt_of_flush t h33
  have hd : (pt i 33).val / 34 = i.val := by show (34 * i.val + 33) / 34 = i.val; omega
  show (cfg0.win 3).cut (grid0.coords (pt i 33)) ((dat0 V c).after 3 (pt i 33)) = _
  rw [after0_3]
  funext j
  have hj0 : (j 0).val < 128 := (j 0).isLt
  have hj1 : (j 1).val < 512 := (j 1).isLt
  have hi := i.isLt
  show (outsAt0 V c (pt i 33).val (pt i 33).isLt).1 j = H0 (Xa V c) (Wa V c) (Ba V c) (((cfg0.win 3).blk (pt i 33)).view.emb j)
  have e1 : (j : S128x512.Idx) = ix2 (⟨(j 0).val, hj0⟩ : Fin 128) (⟨(j 1).val, hj1⟩ : Fin 512) := by
    funext a
    match a with
    | ⟨0, _⟩ => rfl
    | ⟨1, _⟩ => rfl
  have e2 : ((cfg0.win 3).blk (pt i 33)).view.emb j
      = ix2 (⟨128 * i.val + (j 0).val, by omega⟩ : Fin 256) (⟨(j 1).val, hj1⟩ : Fin 512) := by
    obtain ⟨e0, e1'⟩ := idx_o (pt i 33)
    funext a; apply Fin.ext
    match a with
    | ⟨0, _⟩ => show win0_3.index (pt i 33) (0 : Fin 2) * 128 + 1 * (j 0).val = 128 * i.val + (j 0).val; rw [e0, hd]; omega
    | ⟨1, _⟩ => show win0_3.index (pt i 33) (1 : Fin 2) * 512 + 1 * (j 1).val = (j 1).val; rw [e1']; omega
  rw [e2]
  refine (congrArg (outsAt0 V c (pt i 33).val (pt i 33).isLt).1 e1).trans ?_
  exact out_point V c i ⟨(j 0).val, hj0⟩ ⟨(j 1).val, hj1⟩

/-- An index of the output array is in point t's block iff each coordinate is in the block's range. -/
theorem mem_blk3 (t : Fin cfg0.N) (i : S256x512.Idx) :
    i ∈ ((cfg0.win 3).blk t).view.set ↔ ∀ a : Fin 2, win0_3.index t a * S128x512.size a ≤ (i a).val ∧ (i a).val < win0_3.index t a * S128x512.size a + S128x512.size a := by
  show i ∈ ((View.whole main_v3).slice (win0_3.rect t)).set ↔ _
  rw [View.set_slice_whole, Rect.mem_set_unit]
  exact Iff.rfl

/-- The two flushing points' blocks cover the array: row r is in row tile r / 128. -/
theorem cover (i : S256x512.Idx) : ∃ t : Fin cfg0.N, (cfg0.win 3).flush t = true ∧ i ∈ ((cfg0.win 3).blk t).view.set := by
  have hi0 : (i 0).val < 256 := (i 0).isLt
  have hi1 : (i 1).val < 512 := (i 1).isLt
  refine ⟨pt ⟨(i 0).val / 128, by omega⟩ 33, (flush0_3 _).mpr (by show (34 * ((i 0).val / 128) + 33) % 34 = 33; omega), ?_⟩
  rw [mem_blk3]
  obtain ⟨e0, e1⟩ := idx_o (pt ⟨(i 0).val / 128, by omega⟩ 33)
  have hd : (pt ⟨(i 0).val / 128, by omega⟩ 33).val / 34 = (i 0).val / 128 := by show (34 * ((i 0).val / 128) + 33) / 34 = (i 0).val / 128; omega
  intro a
  match a with
  | ⟨0, _⟩ => show win0_3.index _ (0 : Fin 2) * 128 ≤ (i 0).val ∧ (i 0).val < win0_3.index _ (0 : Fin 2) * 128 + 128; rw [e0, hd]; omega
  | ⟨1, _⟩ => show win0_3.index _ (1 : Fin 2) * 512 ≤ (i 1).val ∧ (i 1).val < win0_3.index _ (1 : Fin 2) * 512 + 512; rw [e1]; omega

/-- THE OUTPUT ARRAY after the region: the hidden layer of the padded arrays. -/
theorem final0_3 (c : Dev nD) : (dat0 V c).arrAt 3 cfg0.N = H0 (Xa V c) (Wa V c) (Ba V c) :=
  (dat0 V c).arrAt_eq_of_cover 3 (H0 (Xa V c) (Wa V c) (Ba V c)) (flushed_eq V c) (cover)

end AtIdeal2

end Cert.KernelIdeal.Fc1Value

end
-- ==== Proof.Spec.lean ====
/-
  The specification of the two-layer classifier with a codebook-compressed output layer, as ONE function of its
  argument arrays read index by index over the extended reals.

  Hidden layer: for batch row b and hidden unit h,
      hidden b h = max (∑ i, x[b,i] · w1[h,i] + b1[h]) 0 .
  Output logits: for batch row p and class o,
      logit p o = ∑ k, hidden p k · w2[o,k] + b2[o] ,
  where w2 is the output layer's weight matrix (however it was assembled from codebooks).
  The result is the log-softmax of the logits taken DOWN each column (over the batch axis, 256 entries):
      result p o = (logit p o − M o) − log (∑ p', exp (logit p' o − M o)),   M o = max over p' of logit p' o ,
  the maximum being the fold of max from −∞ (the bottom element) over the 256 rows.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The hidden layer at batch row `b` and unit `h`: the rectified affine image of row `b` of `x`. -/
def hidden (x : (⟨2, ![256, 100000]⟩ : Shape).Idx → EReal) (w1 : (⟨2, ![512, 100000]⟩ : Shape).Idx → EReal)
    (b1 : (⟨1, ![512]⟩ : Shape).Idx → EReal) (b : Fin 256) (h : Fin 512) : EReal :=
  max ((∑ i : Fin 100000, x (ix2 b i) * w1 (ix2 h i)) + b1 (ix1 h)) 0

/-- The maximum of a column of 256 entries, folded from −∞. -/
def colMax (f : Fin 256 → EReal) : EReal := (Finset.univ : Finset (Fin 256)).fold max (⊥ : EReal) f

/-- The log-softmax of a column of 256 entries, at entry `p`, in the max-shifted form. -/
def colLogSoftmax (f : Fin 256 → EReal) (p : Fin 256) : EReal :=
  (f p - colMax f) - Ideal.log (∑ p' : Fin 256, Ideal.exp (f p' - colMax f))

/-- The logit of batch row `p` for class `o`. -/
def logit (x : (⟨2, ![256, 100000]⟩ : Shape).Idx → EReal) (w1 : (⟨2, ![512, 100000]⟩ : Shape).Idx → EReal)
    (b1 : (⟨1, ![512]⟩ : Shape).Idx → EReal) (w2 : (⟨2, ![30000, 512]⟩ : Shape).Idx → EReal)
    (b2 : (⟨1, ![30000]⟩ : Shape).Idx → EReal) (p : Fin 256) (o : Fin 30000) : EReal :=
  (∑ k : Fin 512, hidden x w1 b1 p k * w2 (ix2 o k)) + b2 (ix1 o)

/-- The result at batch row `p` and class `o`: the column log-softmax of the logits of class `o`. -/
def resultAt (x : (⟨2, ![256, 100000]⟩ : Shape).Idx → EReal) (w1 : (⟨2, ![512, 100000]⟩ : Shape).Idx → EReal)
    (b1 : (⟨1, ![512]⟩ : Shape).Idx → EReal) (w2 : (⟨2, ![30000, 512]⟩ : Shape).Idx → EReal)
    (b2 : (⟨1, ![30000]⟩ : Shape).Idx → EReal) (p : Fin 256) (o : Fin 30000) : EReal :=
  colLogSoftmax (fun p' => logit x w1 b1 w2 b2 p' o) p

/-- The whole result array. -/
def result (x : (⟨2, ![256, 100000]⟩ : Shape).Idx → EReal) (w1 : (⟨2, ![512, 100000]⟩ : Shape).Idx → EReal)
    (b1 : (⟨1, ![512]⟩ : Shape).Idx → EReal) (w2 : (⟨2, ![30000, 512]⟩ : Shape).Idx → EReal)
    (b2 : (⟨1, ![30000]⟩ : Shape).Idx → EReal) : (⟨2, ![256, 30000]⟩ : Shape).Idx → EReal :=
  fun i => resultAt x w1 b1 w2 b2 ⟨(i 0).val, (i 0).isLt⟩ ⟨(i 1).val, (i 1).isLt⟩

/-- The result array read at coordinates. -/
theorem result_ix2 (x : (⟨2, ![256, 100000]⟩ : Shape).Idx → EReal) (w1 : (⟨2, ![512, 100000]⟩ : Shape).Idx → EReal)
    (b1 : (⟨1, ![512]⟩ : Shape).Idx → EReal) (w2 : (⟨2, ![30000, 512]⟩ : Shape).Idx → EReal)
    (b2 : (⟨1, ![30000]⟩ : Shape).Idx → EReal) (p : Fin 256) (o : Fin 30000) :
    result x w1 b1 w2 b2 (ix2 p o) = resultAt x w1 b1 w2 b2 p o := rfl

/-- The f32 word of −∞ denotes the bottom element. -/
theorem negInf_eq_bot : Ideal.ofBits .f32 0xFF800000#32 = (⊥ : EReal) := by
  simp [Ideal.ofBits, Ideal.ieee]

/-- Folding max over a column from the word of −∞ is the column maximum. -/
theorem fold_max_negInf (f : Fin 256 → EReal) :
    (Finset.univ : Finset (Fin 256)).fold max (Ideal.ofBits .f32 0xFF800000#32) f = colMax f := by
  rw [negInf_eq_bot]; rfl

/-- Taking the maximum with −∞ once more changes nothing. -/
theorem max_negInf_left (y : EReal) : max (Ideal.ofBits .f32 0xFF800000#32) y = y := by
  rw [negInf_eq_bot]; exact max_eq_right bot_le

end Cert.Spec

end
-- ==== Proof.Fc2Pay.lean ====
/-
  The value region 1's body computes, read at an index: the log-softmax down a column of the block's logits.
-/
import proofs.«180185_j54073638256944_1_alg».proof.Proof.Gen.KernelIdeal.Skeleton
import proofs.«180185_j54073638256944_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Fc2Value

open Cert.KernelIdeal Cert.KernelIdeal.Gen Cert.Spec
open Idealize.ShloMosaic Idealize.ShloMosaic.ValueIdx

/-! ## The logits of a block -/

/-- The block's logits as the body computes them: the product of the hidden block with the transposed weight
    block into a zero accumulator, plus the bias row broadcast down the rows. -/
def logitsV (x0 : Vec Ideal S256x512 .f32) (x1 : Vec Ideal S6016x512 .f32) (x2 : Vec Ideal S1x6016 .f32) :
    FVec Ideal S256x6016 .f32 :=
  addf (matmul dot_S256x512_S6016x512_S256x6016_1_1_0_0_n_n none
      (truncf .bf16 (shapeCast S256x512 x0 shapeCasts_S256x512_S256x512) bitsLt_bf16_f32)
      (truncf .bf16 (shapeCast S6016x512 x1 shapeCasts_S6016x512_S6016x512) bitsLt_bf16_f32)
      (constant (F := Ideal) S256x6016 .f32 0x00000000#32))
    (broadcastTo S256x6016 (shapeCast S1x6016 x2 shapeCasts_S1x6016_S1x6016) broadcasts_S1x6016_S256x6016)

/-- The log-softmax down the columns, as the body computes it from the logits. -/
def softmaxV (v10 : FVec Ideal S256x6016 .f32) : FVec Ideal S256x6016 .f32 :=
  have v11 : FVec Ideal S6016 .f32 := multiReduction .maximumf [0] S6016 v10 0xFF800000#32 reduces_S256x6016_S6016 (.inl rfl) rfl
  have v12 : FVec Ideal S1x6016 .f32 := shapeCast S1x6016 v11 shapeCasts_S6016_S1x6016
  have v13 : FVec Ideal S256x6016 .f32 := broadcastTo S256x6016 v12 broadcasts_S1x6016_S256x6016
  have v14 : FVec Ideal S256x6016 .f32 := subf v10 v13
  have v15 : FVec Ideal S256x6016 .f32 := exp v14
  have v16 : FVec Ideal S6016 .f32 := multiReduction .add [0] S6016 v15 0x00000000#32 reduces_S256x6016_S6016 (.inl rfl) rfl
  have v17 : FVec Ideal S1x6016 .f32 := shapeCast S1x6016 v16 shapeCasts_S6016_S1x6016
  have v18 : FVec Ideal S1x6016 .f32 := log v17
  have v19 : FVec Ideal S256x6016 .f32 := broadcastTo S256x6016 v18 broadcasts_S1x6016_S256x6016
  subf v14 v19

/-- The body's value is the column log-softmax of the block's logits. -/
theorem k1_pay1_eq (x0 : Vec Ideal S256x512 .f32) (x1 : Vec Ideal S6016x512 .f32) (x2 : Vec Ideal S1x6016 .f32) :
    k1_pay1 (F := Ideal) x0 x1 x2 = softmaxV (logitsV x0 x1 x2) := rfl

/-! ## The logits at an index -/

/-- The product's index maps, coordinate by coordinate: the left factor is read at (row of the output, contraction
    coordinate), the right factor at (column of the output, contraction coordinate). -/
theorem lhs_0 (i : S256x6016.Idx) (r : dot_S256x512_S6016x512_S256x6016_1_1_0_0_n_n.contr.Idx) :
    (dot_S256x512_S6016x512_S256x6016_1_1_0_0_n_n.lhsIdx i r 0).val = (i 0).val := by
  unfold DotDims.lhsIdx
  rw [dif_neg (show ¬(0 : Fin S256x512.rank) ∈ dot_S256x512_S6016x512_S256x6016_1_1_0_0_n_n.lhsBatch by decide),
    dif_pos (show (0 : Fin S256x512.rank) ∈ dot_S256x512_S6016x512_S256x6016_1_1_0_0_n_n.lhsNonContracting by decide)]
  rfl
theorem lhs_1 (i : S256x6016.Idx) (r : dot_S256x512_S6016x512_S256x6016_1_1_0_0_n_n.contr.Idx) :
    (dot_S256x512_S6016x512_S256x6016_1_1_0_0_n_n.lhsIdx i r 1).val = (r ⟨0, by decide⟩).val :=
  dot_S256x512_S6016x512_S256x6016_1_1_0_0_n_n.lhsIdx_val_of_single rfl i r
theorem rhs_0 (i : S256x6016.Idx) (r : dot_S256x512_S6016x512_S256x6016_1_1_0_0_n_n.contr.Idx) :
    (dot_S256x512_S6016x512_S256x6016_1_1_0_0_n_n.rhsIdx i r 0).val = (i 1).val := by
  unfold DotDims.rhsIdx
  rw [dif_neg (show ¬(0 : Fin S6016x512.rank) ∈ dot_S256x512_S6016x512_S256x6016_1_1_0_0_n_n.rhsBatch by decide),
    dif_pos (show (0 : Fin S6016x512.rank) ∈ dot_S256x512_S6016x512_S256x6016_1_1_0_0_n_n.rhsNonContracting by decide)]
  rfl
theorem rhs_1 (i : S256x6016.Idx) (r : dot_S256x512_S6016x512_S256x6016_1_1_0_0_n_n.contr.Idx) :
    (dot_S256x512_S6016x512_S256x6016_1_1_0_0_n_n.rhsIdx i r 1).val = (r ⟨0, by decide⟩).val :=
  dot_S256x512_S6016x512_S256x6016_1_1_0_0_n_n.rhsIdx_val_of_single rfl i r

/-- With the contraction index named by its one coordinate `k : Fin 512`: at output (p, q) the left factor is read at
    (p, k) and the right factor at (q, k). -/
theorem lhsIdx_eq (p : Fin 256) (q : Fin 6016) (k : Fin 512) :
    dot_S256x512_S6016x512_S256x6016_1_1_0_0_n_n.lhsIdx (ix2 p q)
      ((contrEquiv1 dot_S256x512_S6016x512_S256x6016_1_1_0_0_n_n 512 rfl rfl).symm k) = ix2 p k :=
  funext fun a => Fin.ext (by
    have hk := contrEquiv1_symm_val dot_S256x512_S6016x512_S256x6016_1_1_0_0_n_n 512 rfl rfl k
    match a with
    | ⟨0, _⟩ => exact lhs_0 _ _
    | ⟨1, _⟩ => exact (lhs_1 _ _).trans hk)

theorem rhsIdx_eq (p : Fin 256) (q : Fin 6016) (k : Fin 512) :
    dot_S256x512_S6016x512_S256x6016_1_1_0_0_n_n.rhsIdx (ix2 p q)
      ((contrEquiv1 dot_S256x512_S6016x512_S256x6016_1_1_0_0_n_n 512 rfl rfl).symm k) = ix2 q k :=
  funext fun a => Fin.ext (by
    have hk := contrEquiv1_symm_val dot_S256x512_S6016x512_S256x6016_1_1_0_0_n_n 512 rfl rfl k
    match a with
    | ⟨0, _⟩ => exact rhs_0 _ _
    | ⟨1, _⟩ => exact (rhs_1 _ _).trans hk)

/-- The logit at row `p` and column `q` of the block: the inner product of row `p` of the hidden block with row
    `q` of the weight block, plus the bias at `q`. -/
theorem logitsV_apply (x0 : Vec Ideal S256x512 .f32) (x1 : Vec Ideal S6016x512 .f32) (x2 : Vec Ideal S1x6016 .f32)
    (p : Fin 256) (q : Fin 6016) :
    logitsV x0 x1 x2 (ix2 p q) = (∑ k : Fin 512, x0 (ix2 p k) * x1 (ix2 q k)) + x2 (ix2 (0 : Fin 1) q) := by
  unfold logitsV
  rw [shapeCast_self, shapeCast_self, shapeCast_self, addf_apply]
  refine congrArg₂ (· + ·) ?_ ?_
  · refine (Ideal.matmul_constant_zero_apply dot_S256x512_S6016x512_S256x6016_1_1_0_0_n_n none _ _ (ix2 p q)).trans ?_
    rw [← Equiv.sum_comp (contrEquiv1 dot_S256x512_S6016x512_S256x6016_1_1_0_0_n_n 512 rfl rfl).symm]
    refine Finset.sum_congr rfl fun k _ => ?_
    rw [lhsIdx_eq, rhsIdx_eq]
    rfl
  · exact broadcastTo_1b_ab_apply x2 broadcasts_S1x6016_S256x6016 p q

/-! ## The column log-softmax at an index -/

/-- A column index with the row coordinate put back is the index (row, column). -/
theorem lift_eq (q : Fin 6016) (k : Fin 256) : reduces_S256x6016_S6016.lift (ix1 q) k = ix2 k q :=
  funext fun a => Fin.ext (by
    match a with
    | ⟨0, _⟩ => rfl
    | ⟨1, _⟩ => rfl)

/-- The maximum the body takes down column `q` is the column maximum of the specification. -/
theorem colMaxV_apply (v10 : FVec Ideal S256x6016 .f32) (q : Fin 6016) :
    multiReduction .maximumf [0] S6016 v10 0xFF800000#32 reduces_S256x6016_S6016 (.inl rfl) rfl (ix1 q)
      = colMax (fun p' => v10 (ix2 p' q)) := by
  refine (Ideal.multiReduction_maximumf_single v10 0xFF800000#32 reduces_S256x6016_S6016 (.inl rfl) rfl (ix1 q)).trans ?_
  show (Finset.univ : Finset (Fin 256)).fold max (Ideal.ofBits .f32 0xFF800000#32)
      (fun k : Fin 256 => v10 (reduces_S256x6016_S6016.lift (ix1 q) k)) = _
  simp only [lift_eq]
  exact fold_max_negInf _

/-- The logits shifted by their column maxima. -/
def shiftV (v10 : FVec Ideal S256x6016 .f32) : FVec Ideal S256x6016 .f32 :=
  subf v10 (broadcastTo S256x6016
    (shapeCast S1x6016 (multiReduction .maximumf [0] S6016 v10 0xFF800000#32 reduces_S256x6016_S6016 (.inl rfl) rfl)
      shapeCasts_S6016_S1x6016) broadcasts_S1x6016_S256x6016)

theorem shiftV_apply (v10 : FVec Ideal S256x6016 .f32) (p : Fin 256) (q : Fin 6016) :
    shiftV v10 (ix2 p q) = v10 (ix2 p q) - colMax (fun p' => v10 (ix2 p' q)) := by
  unfold shiftV
  rw [subf_apply, broadcastTo_1b_ab_apply, shapeCast_a_1a_apply, colMaxV_apply]

theorem softmaxV_eq (v10 : FVec Ideal S256x6016 .f32) :
    softmaxV v10 = subf (shiftV v10) (broadcastTo S256x6016
      (log (shapeCast S1x6016 (multiReduction .add [0] S6016 (exp (shiftV v10)) 0x00000000#32 reduces_S256x6016_S6016 (.inl rfl) rfl)
        shapeCasts_S6016_S1x6016)) broadcasts_S1x6016_S256x6016) := rfl

/-- The sum of exponentials the body takes down column `q`. -/
theorem sumExpV_apply (w : FVec Ideal S256x6016 .f32) (q : Fin 6016) :
    multiReduction .add [0] S6016 (exp w) 0x00000000#32 reduces_S256x6016_S6016 (.inl rfl) rfl (ix1 q)
      = ∑ p' : Fin 256, Ideal.exp (w (ix2 p' q)) := by
  refine (Ideal.multiReduction_add_single (exp w) 0x00000000#32 reduces_S256x6016_S6016 (.inl rfl) rfl (ix1 q)).trans ?_
  show (∑ k : Fin 256, Ideal.exp (w (reduces_S256x6016_S6016.lift (ix1 q) k))) = _
  simp only [lift_eq]

/-- The body's log-softmax at row `p` and column `q` is the specification's column log-softmax of column `q`. -/
theorem softmaxV_apply (v10 : FVec Ideal S256x6016 .f32) (p : Fin 256) (q : Fin 6016) :
    softmaxV v10 (ix2 p q) = colLogSoftmax (fun p' => v10 (ix2 p' q)) p := by
  rw [softmaxV_eq, subf_apply, broadcastTo_1b_ab_apply]
  show shiftV v10 (ix2 p q) - Ideal.log (shapeCast S1x6016
      (multiReduction .add [0] S6016 (exp (shiftV v10)) 0x00000000#32 reduces_S256x6016_S6016 (.inl rfl) rfl)
      shapeCasts_S6016_S1x6016 (ix2 (0 : Fin 1) q)) = _
  rw [shapeCast_a_1a_apply, sumExpV_apply, shiftV_apply]
  simp only [shiftV_apply]
  rfl

/-- The body's value at row `p` and column `q` of the block. -/
theorem k1_pay1_apply (x0 : Vec Ideal S256x512 .f32) (x1 : Vec Ideal S6016x512 .f32) (x2 : Vec Ideal S1x6016 .f32)
    (p : Fin 256) (q : Fin 6016) :
    k1_pay1 (F := Ideal) x0 x1 x2 (ix2 p q)
      = colLogSoftmax (fun p' => (∑ k : Fin 512, x0 (ix2 p' k) * x1 (ix2 q k)) + x2 (ix2 (0 : Fin 1) q)) p := by
  rw [k1_pay1_eq, softmaxV_apply]
  simp only [logitsV_apply]

end Cert.KernelIdeal.Fc2Value

end
-- ==== Proof.Fc2Value.lean ====
/-
  Region 1's output array after the run, as one function of the three arrays the region reads: every grid point
  writes back the column log-softmax of the logits of its 6016 columns, and the five blocks tile the array.
-/
import proofs.«180185_j54073638256944_1_alg».proof.Proof.Fc2Body
import proofs.«180185_j54073638256944_1_alg».proof.Proof.Fc2Pay
import Idealize.ShloMosaic.Lib.Pipeline.Value

noncomputable section

namespace Cert.KernelIdeal.Fc2Value

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The array the region leaves -/

/-- The padded result: at row `p` and padded column `n`, the log-softmax down column `n` of the padded logits
    (hidden array times the transposed padded weight matrix, plus the padded bias). -/
def G1 (H : S256x512.Idx → EReal) (W : S30080x512.Idx → EReal) (B : S1x30080.Idx → EReal) : S256x30080.Idx → EReal :=
  fun i => colLogSoftmax
    (fun p' => (∑ k : Fin 512, H (ix2 p' k) * W (ix2 (⟨(i 1).val, (i 1).isLt⟩ : Fin 30080) k))
      + B (ix2 (0 : Fin 1) (⟨(i 1).val, (i 1).isLt⟩ : Fin 30080)))
    (⟨(i 0).val, (i 0).isLt⟩ : Fin 256)

theorem G1_ix2 (H : S256x512.Idx → EReal) (W : S30080x512.Idx → EReal) (B : S1x30080.Idx → EReal)
    (p : Fin 256) (n : Fin 30080) :
    G1 H W B (ix2 p n)
      = colLogSoftmax (fun p' => (∑ k : Fin 512, H (ix2 p' k) * W (ix2 n k)) + B (ix2 (0 : Fin 1) n)) p := rfl

theorem hz : (![0, 0] : Fin 2 → Nat) = fun _ => 0 := funext fun a => by fin_cases a <;> rfl

/-- The block index maps over the grid: the hidden array is one block; point `t` reads rows `6016 t …` of the
    weight matrix and columns `6016 t …` of the bias row, and writes columns `6016 t …` of the result. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-! ## The input blocks at a point, read off the arrays -/

/-- The hidden window's block is the whole hidden array. -/
theorem iblk0_apply (c : Dev nD) (t : Fin cfg1.N) (p : Fin 256) (k : Fin 512) :
    (Fc2.iblk1 V c 0 t : Vec Ideal S256x512 .f32) (ix2 p k) = (V c main_v3 : S256x512.Idx → EReal) (ix2 p k) := by
  obtain ⟨e0, e1, -⟩ := idx_facts t
  unfold Fc2.iblk1
  rw [View.read_apply]
  show V c main_v3 _ = V c main_v3 _
  refine congrArg (V c main_v3) (funext fun a => Fin.ext ?_)
  match a with
  | ⟨0, _⟩ => show win1_0.index t 0 * 256 + 1 * p.val = p.val; rw [e0]; omega
  | ⟨1, _⟩ => show win1_0.index t 1 * 512 + 1 * k.val = k.val; rw [e1]; omega

/-- The weight window's block at point `t` is rows `6016 t … 6016 t + 6015` of the padded weight matrix. -/
theorem iblk1_apply (c : Dev nD) (t : Fin cfg1.N) (q : Fin 6016) (k : Fin 512) (n : Fin 30080)
    (hn : n.val = 6016 * t.val + q.val) :
    (Fc2.iblk1 V c 1 t : Vec Ideal S6016x512 .f32) (ix2 q k) = (V c main_v22 : S30080x512.Idx → EReal) (ix2 n k) := by
  obtain ⟨-, -, e0, e1, -⟩ := idx_facts t
  unfold Fc2.iblk1
  rw [View.read_apply]
  show V c main_v22 _ = V c main_v22 _
  refine congrArg (V c main_v22) (funext fun a => Fin.ext ?_)
  match a with
  | ⟨0, _⟩ => show win1_1.index t 0 * 6016 + 1 * q.val = n.val; rw [e0, hn]; omega
  | ⟨1, _⟩ => show win1_1.index t 1 * 512 + 1 * k.val = k.val; rw [e1]; omega

/-- The bias window's block at point `t` is columns `6016 t … 6016 t + 6015` of the padded bias row. -/
theorem iblk2_apply (c : Dev nD) (t : Fin cfg1.N) (q : Fin 6016) (n : Fin 30080)
    (hn : n.val = 6016 * t.val + q.val) :
    (Fc2.iblk1 V c 2 t : Vec Ideal S1x6016 .f32) (ix2 (0 : Fin 1) q) = (V c main_v24 : S1x30080.Idx → EReal) (ix2 (0 : Fin 1) n) := by
  obtain ⟨-, -, -, -, e0, e1, -⟩ := idx_facts t
  unfold Fc2.iblk1
  rw [View.read_apply]
  show V c main_v24 _ = V c main_v24 _
  refine congrArg (V c main_v24) (funext fun a => Fin.ext ?_)
  match a with
  | ⟨0, _⟩ => show win1_2.index t 0 * 1 + 1 * 0 = 0; rw [e0]
  | ⟨1, _⟩ => show win1_2.index t 1 * 6016 + 1 * q.val = n.val; rw [e1, hn]; omega

/-! ## What a point writes back -/

/-- The body's value at point `t`, at row `p` and column `q` of the block, is the padded result at row `p` and
    column `6016 t + q`. -/
theorem block_value (c : Dev nD) (t : Fin cfg1.N) (j : S256x6016.Idx) (i : S256x30080.Idx)
    (hi0 : (i 0).val = (j 0).val) (hi1 : (i 1).val = 6016 * t.val + (j 1).val) :
    k1_pay1 (F := Ideal) (Fc2.iblk1 V c 0 t) (Fc2.iblk1 V c 1 t) (Fc2.iblk1 V c 2 t) j
      = G1 (V c main_v3) (V c main_v22) (V c main_v24) i := by
  obtain ⟨p, q, rfl⟩ : ∃ (p : Fin 256) (q : Fin 6016), j = ix2 p q := ⟨j 0, j 1, eq_ix2 j⟩
  obtain ⟨p', n, rfl⟩ : ∃ (p' : Fin 256) (n : Fin 30080), i = ix2 p' n := ⟨i 0, i 1, eq_ix2 i⟩
  have hp : p' = p := Fin.ext hi0
  have hn : n.val = 6016 * t.val + q.val := hi1
  subst hp
  refine (k1_pay1_apply (Fc2.iblk1 V c 0 t) (Fc2.iblk1 V c 1 t) (Fc2.iblk1 V c 2 t) p' q).trans ?_
  rw [G1_ix2]
  refine congrArg (fun f => colLogSoftmax f p') (funext fun r => ?_)
  refine congrArg₂ (· + ·) (Finset.sum_congr rfl fun k _ => ?_) (iblk2_apply V c t q n hn)
  exact congrArg₂ (· * ·) (iblk0_apply V c t r k) (iblk1_apply V c t q k n hn)

/-- What point `t` writes back is block `t` of the padded result. -/
theorem flushed_eq (c : Dev nD) (t : Fin cfg1.N) :
    (Fc2.dat1 V c).flushed 3 t
      = ((cfg1.win 3).blk t).view.read (Elt Ideal) (G1 (V c main_v3) (V c main_v22) (V c main_v24)) := by
  show (cfg1.win 3).cut (grid1.coords t) ((Fc2.dat1 V c).after 3 t) = _
  rw [Fc2.after1_3]
  unfold Fc2.out1_3
  rw [View.canon_unit_zero hz]
  simp only [View.ld_unit_zero (S := S256x512) hz, View.ld_unit_zero (S := S6016x512) hz, View.ld_unit_zero (S := S1x6016) hz]
  obtain ⟨-, -, -, -, -, -, e0, e1⟩ := idx_facts t
  funext j
  show k1_pay1 (F := Ideal) (Fc2.iblk1 V c 0 t) (Fc2.iblk1 V c 1 t) (Fc2.iblk1 V c 2 t) j
      = G1 (V c main_v3) (V c main_v22) (V c main_v24) (((cfg1.win 3).blk t).view.emb j)
  refine block_value V c t j _ ?_ ?_
  · show win1_3.index t 0 * 256 + 1 * (j 0).val = (j 0).val; rw [e0]; omega
  · show win1_3.index t 1 * 6016 + 1 * (j 1).val = 6016 * t.val + (j 1).val; rw [e1]; omega

/-! ## The blocks tile the array -/

/-- An index of the array is in point `t`'s block iff each coordinate is in the block's range on its axis. -/
theorem mem_blk (t : Fin cfg1.N) (i : S256x30080.Idx) :
    i ∈ ((cfg1.win 3).blk t).view.set ↔ ∀ a : Fin 2, win1_3.index t a * S256x6016.size a ≤ (i a).val
      ∧ (i a).val < win1_3.index t a * S256x6016.size a + S256x6016.size a := by
  show i ∈ ((View.whole main_v25).slice (win1_3.rect t)).set ↔ _
  rw [View.set_slice_whole, Rect.mem_set_unit]
  exact Iff.rfl

/-- Column `n` of the array is in the block of point `n / 6016`, and every point writes its block back. -/
theorem cover (i : S256x30080.Idx) :
    ∃ t : Fin cfg1.N, (cfg1.win 3).flush t = true ∧ i ∈ ((cfg1.win 3).blk t).view.set := by
  have hN : cfg1.N = 5 := N_1
  have hi0 : (i 0).val < 256 := (i 0).isLt
  have hi1 : (i 1).val < 30080 := (i 1).isLt
  obtain ⟨t, ht⟩ : ∃ t : Fin cfg1.N, t.val = (i 1).val / 6016 := ⟨⟨(i 1).val / 6016, by rw [hN]; omega⟩, rfl⟩
  obtain ⟨-, -, -, -, -, -, e0, e1⟩ := idx_facts t
  refine ⟨t, flush1_3 t, ?_⟩
  rw [mem_blk]
  intro a
  match a with
  | ⟨0, _⟩ =>
    show win1_3.index t 0 * 256 ≤ (i 0).val ∧ (i 0).val < win1_3.index t 0 * 256 + 256
    rw [e0]; omega
  | ⟨1, _⟩ =>
    show win1_3.index t 1 * 6016 ≤ (i 1).val ∧ (i 1).val < win1_3.index t 1 * 6016 + 6016
    rw [e1, ht]; omega

/-! ## The array after the run -/

/-- After the five points the output array holds the padded result of the three arrays the region read. -/
theorem final1_3 (c : Dev nD) :
    (Fc2.dat1 V c).arrAt 3 cfg1.N = G1 (V c main_v3) (V c main_v22) (V c main_v24) :=
  (Fc2.dat1 V c).arrAt_eq_of_cover 3 (G1 (V c main_v3) (V c main_v22) (V c main_v24))
    (fun t _ => flushed_eq V c t) cover

/-! ## The output block at an index -/

/-- What the body leaves in the output block, at row `p` and column `q`: the log-softmax down column `q` of the
    block's logits. -/
theorem out1_3_apply (x0 : Vec Ideal S256x512 .f32) (x1 : Vec Ideal S6016x512 .f32) (x2 : Vec Ideal S1x6016 .f32)
    (p : Fin 256) (q : Fin 6016) :
    Fc2.out1_3 (F := Ideal) x0 x1 x2 (ix2 p q)
      = colLogSoftmax (fun p' => (∑ k : Fin 512, x0 (ix2 p' k) * x1 (ix2 q k)) + x2 (ix2 (0 : Fin 1) q)) p := by
  unfold Fc2.out1_3
  rw [View.canon_unit_zero hz]
  simp only [View.ld_unit_zero (S := S256x512) hz, View.ld_unit_zero (S := S6016x512) hz, View.ld_unit_zero (S := S1x6016) hz]
  exact k1_pay1_apply x0 x1 x2 p q

end Cert.KernelIdeal.Fc2Value

end
-- ==== Proof.HostReads.lean ====
/-
  The host operations of the kernel program between its two regions, read at an index: the zero-padded copies
  of the inputs, the bias rows, the assembled and padded second weight matrix, and the final slice of the padded
  result back to its 30000 columns.
-/
import proofs.«180185_j54073638256944_1_alg».proof.Proof.Gen.KernelIdeal.Regions
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.HostReads

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (outs : Gen.Outs (F := Ideal)) (c : Dev nD)

/-! ## The padding value -/

/-- The padding value the host builds — the integer zero converted to a float — is zero. -/
theorem padValue_eq (i : S_.Idx) : (sitofp (F := Ideal) .f32 (constantI S_ 32 0#32) : FVec Ideal S_ .f32) i = 0 :=
  sitofp_zero

/-! ## The first input, zero-padded along its columns to 100096 -/

/-- `x` with 96 zero columns appended. -/
def xPad (x : S256x100000.Idx → EReal) : S256x100096.Idx → EReal :=
  pad S256x100096 ![0, 0] ![0, 96] ![0, 0] x (sitofp (F := Ideal) .f32 (constantI S_ 32 0#32)) pads_S256x100000_S256x100096_000_0960 h_S_

theorem V5_v0 : Gen.V5 m c main_v0 = xPad (m ((c : Thread nD τ).loc main_arg0)) := by
  rw [Gen.V5_of m c main_v0 (by decide), Gen.V4_of m c main_v0 (by decide), Gen.V3_of m c main_v0 (by decide)]
  show StableHlo.after hostOps0_1 (Gen.V1 m c) (Proc.devRef .tc main_v0) = _
  after_results
  rfl

/-- Inside the original 100000 columns the padded array is `x`. -/
theorem xPad_lo (x : S256x100000.Idx → EReal) (b : Fin 256) (j : Fin 100096) (h : j.val < 100000) :
    xPad x (ix2 b j) = x (ix2 b ⟨j.val, h⟩) := by
  unfold xPad
  refine pad_apply_of_inside _ _ _ x _ pads_S256x100000_S256x100096_000_0960 h_S_ (ix2 b j) (ix2 b ⟨j.val, h⟩) fun a => ?_
  match a with
  | ⟨0, _⟩ => show b.val = 0 + b.val * (0 + 1); omega
  | ⟨1, _⟩ => show j.val = 0 + j.val * (0 + 1); omega

/-- In the 96 appended columns it is zero. -/
theorem xPad_hi (x : S256x100000.Idx → EReal) (b : Fin 256) (j : Fin 100096) (h : 100000 ≤ j.val) :
    xPad x (ix2 b j) = 0 := by
  unfold xPad
  refine (pad_apply_of_not_inside _ _ _ x _ pads_S256x100000_S256x100096_000_0960 h_S_ (ix2 b j) (1 : Fin 2) ?_).trans (padValue_eq _)
  show ¬(0 ≤ j.val ∧ (j.val - 0) % (0 + 1) = 0 ∧ (j.val - 0) / (0 + 1) < 100000)
  omega

/-! ## The first weight matrix, zero-padded along its columns to 100096 -/

/-- `w1` with 96 zero columns appended. -/
def wPad (w : S512x100000.Idx → EReal) : S512x100096.Idx → EReal :=
  pad S512x100096 ![0, 0] ![0, 96] ![0, 0] w (sitofp (F := Ideal) .f32 (constantI S_ 32 0#32)) pads_S512x100000_S512x100096_000_0960 h_S_

theorem V5_v1 : Gen.V5 m c main_v1 = wPad (m ((c : Thread nD τ).loc main_arg1)) := by
  rw [Gen.V5_of m c main_v1 (by decide)]
  show StableHlo.after hostOps0_3 (Gen.V3 m c) (Proc.devRef .tc main_v1) = _
  after_results
  rfl

theorem wPad_lo (w : S512x100000.Idx → EReal) (r : Fin 512) (j : Fin 100096) (h : j.val < 100000) :
    wPad w (ix2 r j) = w (ix2 r ⟨j.val, h⟩) := by
  unfold wPad
  refine pad_apply_of_inside _ _ _ w _ pads_S512x100000_S512x100096_000_0960 h_S_ (ix2 r j) (ix2 r ⟨j.val, h⟩) fun a => ?_
  match a with
  | ⟨0, _⟩ => show r.val = 0 + r.val * (0 + 1); omega
  | ⟨1, _⟩ => show j.val = 0 + j.val * (0 + 1); omega

theorem wPad_hi (w : S512x100000.Idx → EReal) (r : Fin 512) (j : Fin 100096) (h : 100000 ≤ j.val) :
    wPad w (ix2 r j) = 0 := by
  unfold wPad
  refine (pad_apply_of_not_inside _ _ _ w _ pads_S512x100000_S512x100096_000_0960 h_S_ (ix2 r j) (1 : Fin 2) ?_).trans (padValue_eq _)
  show ¬(0 ≤ j.val ∧ (j.val - 0) % (0 + 1) = 0 ∧ (j.val - 0) / (0 + 1) < 100000)
  omega

/-! ## The first bias as a row -/

theorem V5_v2 : Gen.V5 m c main_v2
    = shapeCast S1x512 (m ((c : Thread nD τ).loc main_arg2) : S512.Idx → EReal) shapeCasts_S512_S1x512 := by
  show StableHlo.after hostOps0_4 (Gen.V4 m c) (Proc.devRef .tc main_v2) = _
  after_results
  rfl

/-- The bias row at column `h` is the bias at `h`. -/
theorem b1Row_apply (h : Fin 512) :
    (Gen.V5 m c main_v2 : S1x512.Idx → EReal) (ix2 (0 : Fin 1) h) = (m ((c : Thread nD τ).loc main_arg2) : S512.Idx → EReal) (ix1 h) := by
  rw [V5_v2]
  exact shapeCast_a_1a_apply _ shapeCasts_S512_S1x512 (0 : Fin 1) h

/-! ## The hidden array as region 1 finds it -/

/-- Nothing between the two regions writes the hidden array: region 1 finds what region 0 left. -/
theorem V11_v3 : Gen.V11 m outs c main_v3 = outs 6 main_v3 c := by
  rw [Gen.V11_of m outs c main_v3 (by decide), Gen.V10_of m outs c main_v3 (by decide), Gen.V9_of m outs c main_v3 (by decide),
    Gen.V8_of m outs c main_v3 (by decide), Gen.V7_of m outs c main_v3 (by decide)]
  exact Function.update_self ..

/-! ## The result: the padded result cut back to 30000 columns -/

theorem V13_v26 : Gen.V13 m outs c main_v26
    = extractStridedSlice S256x30000 ![0, 0] (outs 12 main_v25 c : S256x30080.Idx → EReal) slices_S256x30080_S256x30000_0_0 := by
  show StableHlo.after hostOps2 (Gen.V12 m outs c) (Proc.devRef .tc main_v26) = _
  after_results
  show extractStridedSlice S256x30000 ![0, 0] (Function.update (Gen.V11 m outs c) main_v25 (outs 12 main_v25 c) main_v25) _ = _
  rw [Function.update_self]

/-- The result at row `p` and class `o` is the padded result there. -/
theorem res_apply (p : Fin 256) (o : Fin 30000) :
    (Gen.V13 m outs c main_v26 : S256x30000.Idx → EReal) (ix2 p o)
      = (outs 12 main_v25 c : S256x30080.Idx → EReal) (ix2 p ⟨o.val, by omega⟩) := by
  rw [V13_v26]
  refine extractStridedSlice_apply _ _ slices_S256x30080_S256x30000_0_0 (ix2 p o) (ix2 p ⟨o.val, by omega⟩) fun a => ?_
  match a with
  | ⟨0, _⟩ => show p.val = 0 + p.val; omega
  | ⟨1, _⟩ => show o.val = 0 + o.val; omega

/-! ## The second bias, zero-padded to 30080 and laid out as a row -/

/-- `b2` with 80 zeros appended. -/
def b2Pad (b : S30000.Idx → EReal) : S30080.Idx → EReal :=
  pad S30080 ![0] ![80] ![0] b (sitofp (F := Ideal) .f32 (constantI S_ 32 0#32)) pads_S30000_S30080_0800 h_S_

/-- The launch contents of an argument are still there before the second bias is padded. -/
theorem V9_arg5 : Gen.V9 m outs c main_arg5 = m ((c : Thread nD τ).loc main_arg5) := by
  rw [Gen.V9_of m outs c main_arg5 (by decide), Gen.V8_of m outs c main_arg5 (by decide), Gen.V7_of m outs c main_arg5 (by decide),
    Gen.V6_of m outs c main_arg5 (by decide), Gen.V5_of m c main_arg5 (by decide), Gen.V4_of m c main_arg5 (by decide),
    Gen.V3_of m c main_arg5 (by decide), Gen.V2_of m c main_arg5 (by decide), Gen.V1_of m c main_arg5 (by decide)]

theorem V9_c6 : Gen.V9 m outs c main_c_6 = constantI S_ 32 0#32 := by
  show StableHlo.after hostOps1_2 (Gen.V8 m outs c) (Proc.devRef .tc main_c_6) = _
  generalize Gen.V8 m outs c = W
  after_results

theorem V10_v23 : Gen.V10 m outs c main_v23 = b2Pad (m ((c : Thread nD τ).loc main_arg5)) := by
  show StableHlo.after hostOps1_3 (Gen.V9 m outs c) (Proc.devRef .tc main_v23) = _
  have h5 := V9_arg5 m outs c
  have h6 := V9_c6 m outs c
  generalize Gen.V9 m outs c = W at h5 h6
  after_results
  show pad S30080 ![0] ![80] ![0] (W (Proc.devRef .tc main_arg5) : S30000.Idx → EReal)
      (sitofp (F := Ideal) .f32 (W (Proc.devRef .tc main_c_6) : S_.Idx → BitVec 32)) pads_S30000_S30080_0800 h_S_ = _
  rw [h5, h6]
  rfl

theorem V11_v24 : Gen.V11 m outs c main_v24
    = shapeCast S1x30080 (b2Pad (m ((c : Thread nD τ).loc main_arg5))) shapeCasts_S30080_S1x30080 := by
  show StableHlo.after hostOps1_4 (Gen.V10 m outs c) (Proc.devRef .tc main_v24) = _
  have h := V10_v23 m outs c
  generalize Gen.V10 m outs c = W at h
  after_results
  show shapeCast S1x30080 (W (Proc.devRef .tc main_v23) : S30080.Idx → EReal) shapeCasts_S30080_S1x30080 = _
  rw [h]

theorem b2Pad_lo (b : S30000.Idx → EReal) (n : Fin 30080) (h : n.val < 30000) : b2Pad b (ix1 n) = b (ix1 ⟨n.val, h⟩) := by
  unfold b2Pad
  refine pad_apply_of_inside _ _ _ b _ pads_S30000_S30080_0800 h_S_ (ix1 n) (ix1 ⟨n.val, h⟩) fun a => ?_
  match a with
  | ⟨0, _⟩ => show n.val = 0 + n.val * (0 + 1); omega

theorem b2Pad_hi (b : S30000.Idx → EReal) (n : Fin 30080) (h : 30000 ≤ n.val) : b2Pad b (ix1 n) = 0 := by
  unfold b2Pad
  refine (pad_apply_of_not_inside _ _ _ b _ pads_S30000_S30080_0800 h_S_ (ix1 n) (0 : Fin 1) ?_).trans (padValue_eq _)
  show ¬(0 ≤ n.val ∧ (n.val - 0) % (0 + 1) = 0 ∧ (n.val - 0) / (0 + 1) < 30000)
  omega

/-- The padded bias row at a column below 30000 is the bias there, -/
theorem b2Row_lo (n : Fin 30080) (h : n.val < 30000) :
    (Gen.V11 m outs c main_v24 : S1x30080.Idx → EReal) (ix2 (0 : Fin 1) n)
      = (m ((c : Thread nD τ).loc main_arg5) : S30000.Idx → EReal) (ix1 ⟨n.val, h⟩) := by
  rw [V11_v24]
  exact (shapeCast_a_1a_apply _ shapeCasts_S30080_S1x30080 (0 : Fin 1) n).trans (b2Pad_lo _ n h)

/-- and zero from column 30000 on. -/
theorem b2Row_hi (n : Fin 30080) (h : 30000 ≤ n.val) :
    (Gen.V11 m outs c main_v24 : S1x30080.Idx → EReal) (ix2 (0 : Fin 1) n) = (0 : EReal) := by
  rw [V11_v24]
  exact (shapeCast_a_1a_apply _ shapeCasts_S30080_S1x30080 (0 : Fin 1) n).trans (b2Pad_hi _ n h)

/-! ## The second weight matrix: assembled from the codebooks, then zero-padded to 30080 rows -/

/-- The subspace numbers 0 … 255 as a row, -/
def subRow : S1x256.Idx → BitVec 32 := broadcastInDim S1x256 ![1] bcast_S256_S1x256_1 (iotaInDim S256 32 0)

/-- with the negative ones wrapped around by 256 (none is: the wrap the host spells for every index). -/
def subRowWrapped : S1x256.Idx → BitVec 32 :=
  select (cmpi .slt subRow (broadcastInDim S1x256 ![] bcast_S_S1x256 (constantI S_ 32 0#32)))
    (addi subRow (broadcastInDim S1x256 ![] bcast_S_S1x256 (constantI S_ 32 256#32))) subRow

/-- The codes, the negative ones wrapped around by 256. -/
def codesWrapped (codes : S30000x256.Idx → BitVec 32) : S30000x256.Idx → BitVec 32 :=
  select (cmpi .slt codes (broadcastInDim S30000x256 ![] bcast_S_S30000x256 (constantI S_ 32 0#32)))
    (addi codes (broadcastInDim S30000x256 ![] bcast_S_S30000x256 (constantI S_ 32 256#32))) codes

/-- The pairs (subspace, code) the gather reads the codebooks at, one pair per class and subspace. -/
def gatherIdx (codes : S30000x256.Idx → BitVec 32) : S30000x256x2.Idx → BitVec 32 :=
  concatenate S30000x256x2 2
    [⟨S30000x256x1, broadcastInDim S30000x256x1 ![0, 1] bcast_S30000x256_S30000x256x1_0_1
        (broadcastInDim S30000x256 ![0, 1] bcast_S1x256_S30000x256_0_1 subRowWrapped)⟩,
     ⟨S30000x256x1, broadcastInDim S30000x256x1 ![0, 1] bcast_S30000x256_S30000x256x1_0_1 (codesWrapped codes)⟩]
    concatenates_S30000x256x1_S30000x256x1_S30000x256x2_d2

/-- The second weight matrix: for each class, its 256 code vectors of length 2 laid side by side. -/
def KW2 (cb : S256x256x2.Idx → EReal) (codes : S30000x256.Idx → BitVec 32) : S30000x512.Idx → EReal :=
  shapeCast S30000x512 (Host.gather gather_S256x256x2_S30000x256x2_S30000x256x2_2_01_n_n_01_2_112 cb (gatherIdx codes))
    shapeCasts_S30000x256x2_S30000x512

/-- The arguments are still at their launch contents when the weight matrix is assembled. -/
theorem V6_arg3 : Gen.V6 m outs c main_arg3 = m ((c : Thread nD τ).loc main_arg3) := by
  rw [Gen.V6_of m outs c main_arg3 (by decide), Gen.V5_of m c main_arg3 (by decide), Gen.V4_of m c main_arg3 (by decide),
    Gen.V3_of m c main_arg3 (by decide), Gen.V2_of m c main_arg3 (by decide), Gen.V1_of m c main_arg3 (by decide)]
theorem V6_arg4 : Gen.V6 m outs c main_arg4 = m ((c : Thread nD τ).loc main_arg4) := by
  rw [Gen.V6_of m outs c main_arg4 (by decide), Gen.V5_of m c main_arg4 (by decide), Gen.V4_of m c main_arg4 (by decide),
    Gen.V3_of m c main_arg4 (by decide), Gen.V2_of m c main_arg4 (by decide), Gen.V1_of m c main_arg4 (by decide)]

set_option maxHeartbeats 1000000 in
/-- The host stretch that assembles the weight matrix, from any contents `W` of the buffers before it. -/
theorem after_hostOps1_v21 (W : Valuation τ sig (Elt Ideal)) :
    StableHlo.after hostOps1 W (Proc.devRef .tc main_v21)
      = KW2 (W (Proc.devRef .tc main_arg3) : S256x256x2.Idx → EReal) (W (Proc.devRef .tc main_arg4) : S30000x256.Idx → BitVec 32) := by
  after_results
  rfl

theorem V7_v21 : Gen.V7 m outs c main_v21 = KW2 (m ((c : Thread nD τ).loc main_arg3)) (m ((c : Thread nD τ).loc main_arg4)) :=
  (after_hostOps1_v21 (Gen.V6 m outs c)).trans (congrArg₂ KW2 (V6_arg3 m outs c) (V6_arg4 m outs c))

theorem V7_c5 : Gen.V7 m outs c main_c_5 = constantI S_ 32 0#32 := by
  show StableHlo.after hostOps1 (Gen.V6 m outs c) (Proc.devRef .tc main_c_5) = _
  generalize Gen.V6 m outs c = W
  after_results

/-- A matrix of 30000 rows with 80 zero rows appended. -/
def w2Pad (w2 : S30000x512.Idx → EReal) : S30080x512.Idx → EReal :=
  pad S30080x512 ![0, 0] ![80, 0] ![0, 0] w2 (sitofp (F := Ideal) .f32 (constantI S_ 32 0#32)) pads_S30000x512_S30080x512_0800_000 h_S_

theorem V8_v22 : Gen.V8 m outs c main_v22
    = w2Pad (KW2 (m ((c : Thread nD τ).loc main_arg3)) (m ((c : Thread nD τ).loc main_arg4))) := by
  show StableHlo.after hostOps1_1 (Gen.V7 m outs c) (Proc.devRef .tc main_v22) = _
  have h21 := V7_v21 m outs c
  have h5 := V7_c5 m outs c
  generalize Gen.V7 m outs c = W at h21 h5
  after_results
  show pad S30080x512 ![0, 0] ![80, 0] ![0, 0] (W (Proc.devRef .tc main_v21) : S30000x512.Idx → EReal)
      (sitofp (F := Ideal) .f32 (W (Proc.devRef .tc main_c_5) : S_.Idx → BitVec 32)) pads_S30000x512_S30080x512_0800_000 h_S_ = _
  rw [h21, h5]
  rfl

/-- The padded second weight matrix as region 1 finds it. -/
theorem V11_v22 : Gen.V11 m outs c main_v22
    = w2Pad (KW2 (m ((c : Thread nD τ).loc main_arg3)) (m ((c : Thread nD τ).loc main_arg4))) := by
  rw [Gen.V11_of m outs c main_v22 (by decide), Gen.V10_of m outs c main_v22 (by decide), Gen.V9_of m outs c main_v22 (by decide)]
  exact V8_v22 m outs c

/-- Below row 30000 the padded matrix is the matrix, -/
theorem w2Pad_lo (w2 : S30000x512.Idx → EReal) (n : Fin 30080) (k : Fin 512) (h : n.val < 30000) :
    w2Pad w2 (ix2 n k) = w2 (ix2 ⟨n.val, h⟩ k) := by
  unfold w2Pad
  refine pad_apply_of_inside _ _ _ w2 _ pads_S30000x512_S30080x512_0800_000 h_S_ (ix2 n k) (ix2 ⟨n.val, h⟩ k) fun a => ?_
  match a with
  | ⟨0, _⟩ => show n.val = 0 + n.val * (0 + 1); omega
  | ⟨1, _⟩ => show k.val = 0 + k.val * (0 + 1); omega

/-- and zero from row 30000 on. -/
theorem w2Pad_hi (w2 : S30000x512.Idx → EReal) (n : Fin 30080) (k : Fin 512) (h : 30000 ≤ n.val) :
    w2Pad w2 (ix2 n k) = 0 := by
  unfold w2Pad
  refine (pad_apply_of_not_inside _ _ _ w2 _ pads_S30000x512_S30080x512_0800_000 h_S_ (ix2 n k) (0 : Fin 2) ?_).trans (padValue_eq _)
  show ¬(0 ≤ n.val ∧ (n.val - 0) % (0 + 1) = 0 ∧ (n.val - 0) / (0 + 1) < 30000)
  omega

end Cert.KernelIdeal.HostReads

end
-- ==== Proof.PadAlgebra.lean ====
/-
  The hidden layer computed from zero-padded operands is the hidden layer.

  The first layer's operands are padded with zero columns from 100000 to 100096 columns. A product whose left factor
  is 0 is 0 in the extended reals, so the padded terms of the inner product vanish and the sum over 100096 columns is
  the sum over the first 100000; on those the padded operands are the operands. The bias, reshaped to one row, is the
  bias.
-/
import proofs.«180185_j54073638256944_1_alg».proof.Proof.Spec
import proofs.«180185_j54073638256944_1_alg».proof.Proof.SumAlgebra
import Idealize.ShloMosaic.Lib.ValueIdx

noncomputable section

open scoped BigOperators

namespace Cert.PadAlgebra

open Idealize.ShloMosaic Idealize.ShloMosaic.ValueIdx

/-- The inner product over the 100096 padded columns is the inner product over the 100000 columns. -/
theorem dot_of_padded (x : (⟨2, ![256, 100000]⟩ : Shape).Idx → EReal) (w1 : (⟨2, ![512, 100000]⟩ : Shape).Idx → EReal)
    (Xp : (⟨2, ![256, 100096]⟩ : Shape).Idx → EReal) (Wp : (⟨2, ![512, 100096]⟩ : Shape).Idx → EReal)
    (hx_lo : ∀ (b : Fin 256) (j : Fin 100096) (h : j.val < 100000), Xp (ix2 b j) = x (ix2 b ⟨j.val, h⟩))
    (hx_hi : ∀ (b : Fin 256) (j : Fin 100096), 100000 ≤ j.val → Xp (ix2 b j) = 0)
    (hw_lo : ∀ (h' : Fin 512) (j : Fin 100096) (h : j.val < 100000), Wp (ix2 h' j) = w1 (ix2 h' ⟨j.val, h⟩))
    (b : Fin 256) (h' : Fin 512) :
    ∑ j : Fin 100096, Xp (ix2 b j) * Wp (ix2 h' j) = ∑ i : Fin 100000, x (ix2 b i) * w1 (ix2 h' i) := by
  rw [Cert.SumAlgebra.sum_pad (fun j : Fin 100096 => Xp (ix2 b j) * Wp (ix2 h' j))
    (fun j hj => by show Xp (ix2 b j) * Wp (ix2 h' j) = 0; rw [hx_hi b j hj, zero_mul])]
  refine Finset.sum_congr rfl fun i _ => ?_
  show Xp (ix2 b ⟨i.val, _⟩) * Wp (ix2 h' ⟨i.val, _⟩) = _
  rw [hx_lo b ⟨i.val, by have := i.isLt; omega⟩ i.isLt, hw_lo h' ⟨i.val, by have := i.isLt; omega⟩ i.isLt]

/-- The rectified affine image computed from the padded operands and the one-row bias is the specification's hidden
    layer. -/
theorem hidden_of_padded (x : (⟨2, ![256, 100000]⟩ : Shape).Idx → EReal) (w1 : (⟨2, ![512, 100000]⟩ : Shape).Idx → EReal) (b1 : (⟨1, ![512]⟩ : Shape).Idx → EReal)
    (Xp : (⟨2, ![256, 100096]⟩ : Shape).Idx → EReal) (Wp : (⟨2, ![512, 100096]⟩ : Shape).Idx → EReal) (Bp : (⟨2, ![1, 512]⟩ : Shape).Idx → EReal)
    (hx_lo : ∀ (b : Fin 256) (j : Fin 100096) (h : j.val < 100000), Xp (ix2 b j) = x (ix2 b ⟨j.val, h⟩))
    (hx_hi : ∀ (b : Fin 256) (j : Fin 100096), 100000 ≤ j.val → Xp (ix2 b j) = 0)
    (hw_lo : ∀ (h' : Fin 512) (j : Fin 100096) (h : j.val < 100000), Wp (ix2 h' j) = w1 (ix2 h' ⟨j.val, h⟩))
    (hw_hi : ∀ (h' : Fin 512) (j : Fin 100096), 100000 ≤ j.val → Wp (ix2 h' j) = 0)
    (hb : ∀ h' : Fin 512, Bp (ix2 (0 : Fin 1) h') = b1 (ix1 h')) (b : Fin 256) (h' : Fin 512) :
    max ((∑ j : Fin 100096, Xp (ix2 b j) * Wp (ix2 h' j)) + Bp (ix2 (0 : Fin 1) h')) 0 = Spec.hidden x w1 b1 b h' := by
  rw [dot_of_padded x w1 Xp Wp hx_lo hx_hi hw_lo b h', hb h']
  rfl

end Cert.PadAlgebra

end
-- ==== Proof.Bridge.lean ====
/-
  The kernel program's result, entry by entry, is the specification's function of the six arguments.

  Region 1's output array is the column-wise log-softmax of  h · w2ᵀ + b2  over the padded 30080 columns, where h is
  region 0's output array; region 0's output array is relu(x · w1ᵀ + b1) with the sums taken over the 100096 padded
  columns. The padding columns of x are zero, so each padded sum is the sum over the 100000 true columns; the result
  keeps only the first 30000 columns, where the padded w2 and b2 are the true ones.
-/
import proofs.«180185_j54073638256944_1_alg».proof.Proof.Run
import proofs.«180185_j54073638256944_1_alg».proof.Proof.Fc1Value
import proofs.«180185_j54073638256944_1_alg».proof.Proof.Fc2Value
import proofs.«180185_j54073638256944_1_alg».proof.Proof.HostReads
import proofs.«180185_j54073638256944_1_alg».proof.Proof.PadAlgebra

set_option maxRecDepth 16384

noncomputable section

open scoped BigOperators

namespace Cert.KernelIdeal.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The six arguments as the launch finds them. -/
abbrev xA : S256x100000.Idx → EReal := m ((c : Thread nD τ).loc main_arg0)
abbrev wA : S512x100000.Idx → EReal := m ((c : Thread nD τ).loc main_arg1)
abbrev b1A : S512.Idx → EReal := m ((c : Thread nD τ).loc main_arg2)
abbrev cbA : S256x256x2.Idx → EReal := m ((c : Thread nD τ).loc main_arg3)
abbrev codesA : S30000x256.Idx → BitVec 32 := m ((c : Thread nD τ).loc main_arg4)
abbrev b2A : S30000.Idx → EReal := m ((c : Thread nD τ).loc main_arg5)

/-- Region 0's output array is the hidden layer. -/
theorem hidden_entry (p' : Fin 256) (k : Fin 512) :
    (Run.out0 m c : S256x512.Idx → EReal) (ix2 p' k) = Spec.hidden (xA m c) (wA m c) (b1A m c) p' k := by
  unfold Run.out0
  rw [Fc1Value.final0_3 (Run.Vin0 m) c, Fc1Value.H0_ix2]
  unfold Fc1Value.hAt
  refine Cert.PadAlgebra.hidden_of_padded (xA m c) (wA m c) (b1A m c) _ _ _ ?_ ?_ ?_ ?_ ?_ p' k
  · intro b j h
    show (Gen.V5 m c main_v0 : S256x100096.Idx → EReal) (ix2 b j) = _
    rw [HostReads.V5_v0 m c]; exact HostReads.xPad_lo _ b j h
  · intro b j h
    show (Gen.V5 m c main_v0 : S256x100096.Idx → EReal) (ix2 b j) = (0 : EReal)
    rw [HostReads.V5_v0 m c]; exact HostReads.xPad_hi _ b j h
  · intro r j h
    show (Gen.V5 m c main_v1 : S512x100096.Idx → EReal) (ix2 r j) = _
    rw [HostReads.V5_v1 m c]; exact HostReads.wPad_lo _ r j h
  · intro r j h
    show (Gen.V5 m c main_v1 : S512x100096.Idx → EReal) (ix2 r j) = (0 : EReal)
    rw [HostReads.V5_v1 m c]; exact HostReads.wPad_hi _ r j h
  · intro h'
    exact HostReads.b1Row_apply m c h'

/-- Region 1 finds region 0's output array in its first operand. -/
theorem vin1_v3 : Run.Vin1 m c main_v3 = Run.out0 m c := by
  show Gen.V11 m (Run.outsA m) c main_v3 = _
  rw [← Run.V11_outs m c, HostReads.V11_v3 m (Run.outs m) c, Run.outs_6]

/-- Region 1's three operand arrays as it finds them: the hidden layer, the padded weight, the padded bias row. -/
abbrev hIn : S256x512.Idx → EReal := Run.Vin1 m c main_v3
abbrev wIn : S30080x512.Idx → EReal := Run.Vin1 m c main_v22
abbrev bIn : S1x30080.Idx → EReal := Run.Vin1 m c main_v24

/-- A logit of the true 30000 columns, from region 1's three operand arrays. -/
theorem logit_entry (p' : Fin 256) (o : Fin 30000) :
    (∑ k : Fin 512, hIn m c (ix2 p' k) * wIn m c (ix2 (⟨o.val, by have := o.isLt; omega⟩ : Fin 30080) k))
      + bIn m c (ix2 (0 : Fin 1) (⟨o.val, by have := o.isLt; omega⟩ : Fin 30080))
    = Spec.logit (xA m c) (wA m c) (b1A m c) (HostReads.KW2 (cbA m c) (codesA m c)) (b2A m c) p' o := by
  unfold Spec.logit
  refine congrArg₂ (· + ·) (Finset.sum_congr rfl fun k _ => congrArg₂ (· * ·) ?_ ?_) ?_
  · show (Run.Vin1 m c main_v3 : S256x512.Idx → EReal) (ix2 p' k) = _
    rw [vin1_v3 m c]; exact hidden_entry m c p' k
  · show (Gen.V11 m (Run.outsA m) c main_v22 : S30080x512.Idx → EReal) (ix2 _ k) = _
    rw [HostReads.V11_v22 m (Run.outsA m) c]; exact HostReads.w2Pad_lo _ _ k o.isLt
  · show (Gen.V11 m (Run.outsA m) c main_v24 : S1x30080.Idx → EReal) (ix2 (0 : Fin 1) _) = _
    exact HostReads.b2Row_lo m (Run.outsA m) c _ o.isLt

/-- THE RESULT of the kernel program: the specification's function of the arguments. -/
theorem kernel_result :
    (Gen.V13 m (Run.outs m) c main_v26 : S256x30000.Idx → EReal)
      = Spec.result (xA m c) (wA m c) (b1A m c) (HostReads.KW2 (cbA m c) (codesA m c)) (b2A m c) := by
  funext j
  obtain ⟨p, o, rfl⟩ : ∃ (p : Fin 256) (o : Fin 30000), j = ix2 p o := ⟨j 0, j 1, eq_ix2 j⟩
  rw [HostReads.res_apply m (Run.outs m) c p o, Run.outs_12]
  unfold Run.out1
  rw [Fc2Value.final1_3 (Run.Vin1 m) c, Fc2Value.G1_ix2, Spec.result_ix2]
  unfold Spec.resultAt
  exact congrArg (fun f => Spec.colLogSoftmax f p) (funext fun p' => logit_entry m c p' o)

end Cert.KernelIdeal.Bridge

end
-- ==== Proof.RefValue.lean ====
/-
  The reference program's result, index by index, as the specification's function of the argument arrays.

  The reference computes the rectified first layer, assembles the output weights from the codebooks, forms the logits,
  and applies a log-softmax down each column: it takes the column maximum by a reduction from −∞ (and once more the
  maximum with −∞, which changes nothing), subtracts it, sums the exponentials from 0, and subtracts the logarithm.
  Read at one index each stage is the specification's formula; the only facts used are that −∞ is the bottom
  element, that 0 is neutral for the sum, and that a reduction over the rows is the fold over the 256 row coordinates.
-/
import proofs.«180185_j54073638256944_1_alg».proof.Proof.RefRead
import proofs.«180185_j54073638256944_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The output layer's weight matrix as the reference assembles it: entry (o, k) is the codebook entry selected by the
    code of class `o` for pair `k / 2`, component `k % 2` (the gather from the codebooks, reshaped to one row per
    class). Kept as one function of the codebooks and the codes; nothing here looks inside it. -/
def W2 (cb : (⟨S256x256x2, .f32⟩ : BufTy).Contents (Elt Ideal)) (codes : (⟨S30000x256, .i32⟩ : BufTy).Contents (Elt Ideal)) :
    S30000x512.Idx → EReal :=
  val_main_v22 (F := Ideal) cb codes

variable (x : (⟨S256x100000, .f32⟩ : BufTy).Contents (Elt Ideal)) (w1 : (⟨S512x100000, .f32⟩ : BufTy).Contents (Elt Ideal))
  (b1 : (⟨S512, .f32⟩ : BufTy).Contents (Elt Ideal)) (cb : (⟨S256x256x2, .f32⟩ : BufTy).Contents (Elt Ideal))
  (codes : (⟨S30000x256, .i32⟩ : BufTy).Contents (Elt Ideal)) (b2 : (⟨S30000, .f32⟩ : BufTy).Contents (Elt Ideal))

/-- The rectified first layer is the specification's hidden layer. -/
theorem hidden_eq (p : Fin 256) (h : Fin 512) :
    val_main_v4 (F := Ideal) x w1 b1 (ix2 p h) = Spec.hidden x w1 b1 p h := by
  have el : ∀ i : Fin 100000, lidx_main_v0 (ix2 p h) i = ix2 p i := fun i =>
    funext fun a => Fin.ext (by match a with | ⟨0, _⟩ => rfl | ⟨1, _⟩ => rfl)
  have er : ∀ i : Fin 100000, ridx_main_v0 (ix2 p h) i = ix2 h i := fun i =>
    funext fun a => Fin.ext (by match a with | ⟨0, _⟩ => rfl | ⟨1, _⟩ => rfl)
  have eb : idx_main_v1 (idx_main_v2 (ix2 p h)) = ix1 h :=
    funext fun a => Fin.ext (by match a with | ⟨0, _⟩ => rfl)
  rw [val_main_v4_apply, val_main_v3_apply, val_main_v0_apply, val_main_v2_apply, val_main_v1_apply,
    val_main_call0_v0_apply, val_main_call0_cst_apply, eb]
  simp only [el, er, Ideal.maximumf_def, Ideal.addf_def, Ideal.ofBits_def, Ideal.ofBits_zero_f32]
  rfl

/-- The second layer's affine image is the specification's logit. -/
theorem logit_eq (p : Fin 256) (o : Fin 30000) :
    val_main_v26 (F := Ideal) x w1 b1 cb codes b2 (ix2 p o) = Spec.logit x w1 b1 (W2 cb codes) b2 p o := by
  have el : ∀ k : Fin 512, lidx_main_v23 (ix2 p o) k = ix2 p k := fun k =>
    funext fun a => Fin.ext (by match a with | ⟨0, _⟩ => rfl | ⟨1, _⟩ => rfl)
  have er : ∀ k : Fin 512, ridx_main_v23 (ix2 p o) k = ix2 o k := fun k =>
    funext fun a => Fin.ext (by match a with | ⟨0, _⟩ => rfl | ⟨1, _⟩ => rfl)
  have eb : idx_main_v24 (idx_main_v25 (ix2 p o)) = ix1 o :=
    funext fun a => Fin.ext (by match a with | ⟨0, _⟩ => rfl)
  rw [val_main_v26_apply, val_main_v23_apply, val_main_v25_apply, val_main_v24_apply, eb]
  simp only [el, er, hidden_eq, Ideal.addf_def]
  rfl

/-- The reduced index `o` with row `k` put back is (k, o). -/
theorem lift_row (hred : S256x30000.Reduces [0] S30000) (o : Fin 30000) (k : Fin (S256x30000.size 0)) :
    hred.lift (ix1 o) k = ix2 (⟨k.val, k.isLt⟩ : Fin 256) o :=
  funext fun c => Fin.ext (by match c with | ⟨0, _⟩ => rfl | ⟨1, _⟩ => rfl)

/-- The column maximum the reference takes (a reduction with a maximum body from −∞, then one more maximum with −∞)
    is the specification's column maximum of the logits. -/
theorem colMax_eq (o : Fin 30000) :
    val_main_call1_v2 (F := Ideal) x w1 b1 cb codes b2 (ix1 o)
      = Spec.colMax (fun p' => Spec.logit x w1 b1 (W2 cb codes) b2 p' o) := by
  have hred : S256x30000.Reduces [0] S30000 := by decide
  have hf : (val_main_v26 (F := Ideal) x w1 b1 cb codes b2 ∘ hred.lift (ix1 o))
      = fun p' : Fin 256 => Spec.logit x w1 b1 (W2 cb codes) b2 p' o := funext fun k => by
    show val_main_v26 (F := Ideal) x w1 b1 cb codes b2 (hred.lift (ix1 o) k) = _
    rw [lift_row hred o k, logit_eq]
    rfl
  rw [val_main_call1_v2_apply, val_main_call1_v1_apply, val_main_call1_cst_0_apply]
  unfold val_main_call1_v0
  rw [Host.reduce_eq_fold_single FloatOps.maximumf _ _ reducesTo_S256x30000_S30000_d0 hred h_S_, hf]
  refine (Spec.max_negInf_left _).trans ?_
  exact Spec.fold_max_negInf _

/-- The logits shifted by their column maximum. -/
theorem shifted_eq (p : Fin 256) (o : Fin 30000) :
    val_main_call1_v5 (F := Ideal) x w1 b1 cb codes b2 (ix2 p o)
      = Spec.logit x w1 b1 (W2 cb codes) b2 p o - Spec.colMax (fun p' => Spec.logit x w1 b1 (W2 cb codes) b2 p' o) := by
  have e : idx_main_call1_v3 (idx_main_call1_v4 (ix2 p o)) = ix1 o :=
    funext fun a => Fin.ext (by match a with | ⟨0, _⟩ => rfl)
  rw [val_main_call1_v5_apply, val_main_call1_v4_apply, val_main_call1_v3_apply, e, colMax_eq, logit_eq]
  rfl

/-- The logarithm of the column's sum of exponentials of the shifted logits. -/
theorem logSum_eq (p : Fin 256) (o : Fin 30000) :
    val_main_call1_v10 (F := Ideal) x w1 b1 cb codes b2 (ix2 p o)
      = Ideal.log (∑ p' : Fin 256, Ideal.exp (Spec.logit x w1 b1 (W2 cb codes) b2 p' o
          - Spec.colMax (fun p'' => Spec.logit x w1 b1 (W2 cb codes) b2 p'' o))) := by
  have e : idx_main_call1_v8 (idx_main_call1_v10 (ix2 p o)) = ix1 o :=
    funext fun a => Fin.ext (by match a with | ⟨0, _⟩ => rfl)
  have e7 : ∀ k : Fin 256, idx_main_call1_v7 (ix1 o) k = ix2 k o := fun k =>
    funext fun a => Fin.ext (by match a with | ⟨0, _⟩ => rfl | ⟨1, _⟩ => rfl)
  rw [val_main_call1_v10_apply, val_main_call1_v9_apply, val_main_call1_v8_apply, e, val_main_call1_v7_apply,
    val_main_call1_cst_1_apply]
  simp only [e7, val_main_call1_v6_apply, shifted_eq, Ideal.hostUnary_log_def, Ideal.hostUnary_exp_def, Ideal.ofBits_def,
    Ideal.ofBits_zero_f32, zero_add]

/-- The reference's result is the specification's, with the output weights as the reference assembles them. -/
theorem refValue :
    val_main_v27 (F := Ideal) x w1 b1 cb codes b2 = Spec.result x w1 b1 (W2 cb codes) b2 := by
  funext i
  obtain ⟨p, o, rfl⟩ : ∃ (p : Fin 256) (o : Fin 30000), i = ix2 p o := ⟨i 0, i 1, eq_ix2 i⟩
  rw [Spec.result_ix2, val_main_v27_apply, shifted_eq, logSum_eq]
  rfl

/-- The run's result term is the specification's result of the launch contents of the six arguments. -/
theorem res_eq (m : (ℓ : Loc nD τ sig) → Buf (Elt Ideal) ℓ) (c : Dev nD) :
    Cert.ReferenceIdeal.Value.res_main_v27 (F := Ideal) m c
      = Spec.result (m ((c.tc : Thread nD τ).loc main_arg0)) (m ((c.tc : Thread nD τ).loc main_arg1))
          (m ((c.tc : Thread nD τ).loc main_arg2))
          (W2 (m ((c.tc : Thread nD τ).loc main_arg3)) (m ((c.tc : Thread nD τ).loc main_arg4)))
          (m ((c.tc : Thread nD τ).loc main_arg5)) := by
  rw [Read.val_main_v27_eq, refValue]

end Cert.ReferenceIdeal.RefValue

end
-- ==== Proof.W2Bridge.lean ====
/-
  The second weight matrix as the kernel program's host operations assemble it is the one the reference assembles:
  both gather the same codebook entries at the same (subspace, code) pairs and lay them out one row per class.
-/
import proofs.«180185_j54073638256944_1_alg».proof.Proof.HostReads
import proofs.«180185_j54073638256944_1_alg».proof.Proof.RefValue

noncomputable section

namespace Cert.W2Bridge

open Idealize.ShloMosaic

/-- The two programs spell the assembly of the weight matrix with the same operations on the same literal shapes,
    so the two functions of the codebooks and the codes are one. -/
theorem kw2_eq (cb : Cert.KernelIdeal.S256x256x2.Idx → EReal) (codes : Cert.KernelIdeal.S30000x256.Idx → BitVec 32) :
    Cert.KernelIdeal.HostReads.KW2 cb codes = Cert.ReferenceIdeal.RefValue.W2 cb codes := rfl

end Cert.W2Bridge

end
-- ==== Proof.lean ====
/-
  A two-layer network against its reference, over the extended reals:

      h      = relu(x · w1ᵀ + b1)                      x : 256 × 100000,  w1 : 512 × 100000
      w2     = the codebook rows the codes select, laid out 30000 × 512
      result = log-softmax over the BATCH axis of  h · w2ᵀ + b2      (256 × 30000)

  The kernel program pads x and w1 with 96 zero columns, forms h in a first region on a 2 × 34 grid — 34 tiles of
  2944 columns accumulated into a scratch block, the bias and the clamp applied at the last tile —, builds w2 by the
  same gather as the reference, pads it and b2 with 80 zero rows, forms the log-softmax in a second region one block
  of 6016 columns at a time, and cuts the first 30000 columns out. The reference computes the three lines above
  directly. Both results are one function of the six arguments (`Cert.Spec.result`):
    * the zero columns contribute 0 · 0 to each padded sum, and addition of extended reals is associative and
      commutative, so the 34 tile sums are the sum over the 100000 true columns (no finiteness is needed);
    * the log-softmax of a column only reads that column, so the 80 padding columns never reach the result;
    * the maximum over a column is the same fold of max from −∞ on both sides, and the change of float format
      in front of the two matrix products is the identity here.
  The three frames: the two kernel programs run as their host stretches and two regions (the scratch's contents
  carried from point to point by the first region's invariant), the reference as its list of host operations.
  The idealization rewrote nothing, so it preserves the kernel program trivially.
-/
import proofs.«180185_j54073638256944_1_alg».proof.Defs
import proofs.«180185_j54073638256944_1_alg».proof.Proof.Gen.Kernel
import proofs.«180185_j54073638256944_1_alg».proof.Proof.Gen.KernelIdeal
import proofs.«180185_j54073638256944_1_alg».proof.Proof.Gen.ReferenceIdeal
import proofs.«180185_j54073638256944_1_alg».proof.Proof.Gen.Pre_finite_inputs
import proofs.«180185_j54073638256944_1_alg».proof.Proof.KRun
import proofs.«180185_j54073638256944_1_alg».proof.Proof.Run
import proofs.«180185_j54073638256944_1_alg».proof.Proof.Bridge
import proofs.«180185_j54073638256944_1_alg».proof.Proof.RefValue
import proofs.«180185_j54073638256944_1_alg».proof.Proof.W2Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's function of the arguments: the kernel program by reading its last
    valuation (the two regions' output arrays as closed forms), the reference by reading its operations one at a
    time; the two spellings of the gathered weight are one term. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.HostReads.KW2 (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)), ?_, ?_⟩
  · refine (θ_run Cert.KernelIdeal.defs _ _).mono (fun r h c => ⟨?_, ?_, ?_, ?_, ?_, ?_, ?_⟩) (Cert.KernelIdeal.Run.run_all m ρ)
    · exact (h c _ (Cert.KernelIdeal.Run.mem_uc Cert.KernelIdeal.main_v26 (by decide))).trans (Cert.KernelIdeal.Bridge.kernel_result m c)
    · exact (h c _ (Cert.KernelIdeal.Run.mem_uc Cert.KernelIdeal.main_arg0 (by decide))).trans (Cert.KernelIdeal.Gen.V13_main_arg0 m _ c)
    · exact (h c _ (Cert.KernelIdeal.Run.mem_uc Cert.KernelIdeal.main_arg1 (by decide))).trans (Cert.KernelIdeal.Gen.V13_main_arg1 m _ c)
    · exact (h c _ (Cert.KernelIdeal.Run.mem_uc Cert.KernelIdeal.main_arg2 (by decide))).trans (Cert.KernelIdeal.Gen.V13_main_arg2 m _ c)
    · exact (h c _ (Cert.KernelIdeal.Run.mem_uc Cert.KernelIdeal.main_arg3 (by decide))).trans (Cert.KernelIdeal.Gen.V13_main_arg3 m _ c)
    · exact (h c _ (Cert.KernelIdeal.Run.mem_uc Cert.KernelIdeal.main_arg4 (by decide))).trans (Cert.KernelIdeal.Gen.V13_main_arg4 m _ c)
    · exact (h c _ (Cert.KernelIdeal.Run.mem_uc Cert.KernelIdeal.main_arg5 (by decide))).trans (Cert.KernelIdeal.Gen.V13_main_arg5 m _ c)
  · refine (θ_run Cert.ReferenceIdeal.defs _ _).mono (fun _ h c => ⟨?_, (h c).2⟩) (Cert.ReferenceIdeal.Value.run (F := Ideal) m' ρ')
    rw [(h c).1, Cert.ReferenceIdeal.RefValue.res_eq, (hagree c).1, (hagree c).2.1, (hagree c).2.2.1, (hagree c).2.2.2.1,
      (hagree c).2.2.2.2.1, (hagree c).2.2.2.2.2, ← Cert.W2Bridge.kw2_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
